-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S50257x16 : Shape := ⟨2, ![50257, 16]⟩
abbrev S16x1 : Shape := ⟨2, ![16, 1]⟩
abbrev S1 : Shape := ⟨1, ![1]⟩
abbrev S16x16 : Shape := ⟨2, ![16, 16]⟩
abbrev S16 : Shape := ⟨1, ![16]⟩
abbrev S16x50257 : Shape := ⟨2, ![16, 50257]⟩
abbrev S50257 : Shape := ⟨1, ![50257]⟩
abbrev S_ : Shape := ⟨0, ![]⟩

class Facts : Prop where
  bcast_S_S50257x16 : S_.BroadcastsInDim S50257x16 (![] : Fin 0 → Fin S50257x16.rank)
  reducesTo_S50257x16_S_d0_1 : S50257x16.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x50257 : S_.BroadcastsInDim S16x50257 (![] : Fin 0 → Fin S16x50257.rank)
  reducesTo_S16x50257_S_d0_1 : S16x50257.ReducesTo [0, 1] S_
  bcast_S_S50257 : S_.BroadcastsInDim S50257 (![] : Fin 0 → Fin S50257.rank)
  reducesTo_S50257_S_d0 : S50257.ReducesTo [0] S_

variable [Facts]

def fn_part1 {F : FTy → Type} [FloatOps F] (main_arg5 : FVec F S16 .f32) (main_arg6 : FVec F S16x50257 .f32) (main_arg7 : FVec F S50257 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x50257 .f32 := Host.absf main_arg6
  let main_cst_8 : FVec F S_ .f32 := constant S_ .f32 0x7F800000#32
  let main_v25 : FVec F S16x50257 .f32 := broadcastInDim S16x50257 ![] bcast_S_S16x50257 main_cst_8
  let main_v26 : IVec S16x50257 1 := cmpf .olt main_v24 main_v25
  let main_c_9 : IVec S_ 1 := constantI S_ 1 1#1
  let main_v27 : IVec S_ 1 := (fun x v => Host.reduce IntOp.andi x v reducesTo_S16x50257_S_d0_1 h_S_) main_v26 main_c_9
  let main_v28 : IVec S_ 1 := andi main_v23 main_v27
  let main_v29 : FVec F S50257 .f32 := Host.absf main_arg7
  let main_cst_10 : FVec F S_ .f32 := constant S_ .f32 0x7F800000#32
  let main_v30 : FVec F S50257 .f32 := broadcastInDim S50257 ![] bcast_S_S50257 main_cst_10
  let main_v31 : IVec S50257 1 := cmpf .olt main_v29 main_v30
  let main_c_11 : IVec S_ 1 := constantI S_ 1 1#1
  let main_v32 : IVec S_ 1 := (fun x v => Host.reduce IntOp.andi x v reducesTo_S50257_S_d0 h_S_) main_v31 main_c_11
  let main_v33 : IVec S_ 1 := andi main_v28 main_v32
  main_v33

def fn {F : FTy → Type} [FloatOps F] (main_arg0 : IVec S256x8192 32) (main_arg1 : FVec F S50257x16 .f32) (main_arg2 : FVec F S16x1 .f32) (main_arg3 : FVec F S1 .f32) (main_arg4 : FVec F S16x16 .f32) (main_arg5 : FVec F S16 .f32) (main_arg6 : FVec F S16x50257 .f32) (main_arg7 : FVec F S50257 .f32) : IVec S_ 1 :=
  let main_v0 : FVec F S50257x16 .f32 := Host.absf main_arg1
  let main_cst : FVec F S_ .f32 := constant S_ .f32 0x7F800000#32
  let main_v1 : FVec F S50257x16 .f32 := broadcastInDim S50257x16 ![] bcast_S_S50257x16 main_cst
  let main_v2 : IVec S50257x16 1 := cmpf .olt main_v0 main_v1
  let main_c : IVec S_ 1 := constantI S_ 1 1#1
  let main_v3 : IVec S_ 1 := (fun x v => Host.reduce IntOp.andi x v reducesTo_S50257x16_S_d0_1 h_S_) main_v2 main_c
  let main_v4 : FVec F S16x1 .f32 := Host.absf main_arg2
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S256x8192 : Shape := ⟨2, ![256, 8192]⟩
abbrev S50257x16 : Shape := ⟨2, ![50257, 16]⟩
abbrev S16x1 : Shape := ⟨2, ![16, 1]⟩
abbrev S1 : Shape := ⟨1, ![1]⟩
abbrev S16x16 : Shape := ⟨2, ![16, 16]⟩
abbrev S16 : Shape := ⟨1, ![16]⟩
abbrev S16x50257 : Shape := ⟨2, ![16, 50257]⟩
abbrev S50257 : Shape := ⟨1, ![50257]⟩
abbrev S_ : Shape := ⟨0, ![]⟩
abbrev S256x8192x1 : Shape := ⟨3, ![256, 8192, 1]⟩
abbrev S256x8192x16 : Shape := ⟨3, ![256, 8192, 16]⟩
abbrev S1x1 : Shape := ⟨2, ![1, 1]⟩
abbrev S1x16 : Shape := ⟨2, ![1, 16]⟩
abbrev S256x16 : Shape := ⟨2, ![256, 16]⟩
abbrev S32x1024x16 : Shape := ⟨3, ![32, 1024, 16]⟩
abbrev S32x16 : Shape := ⟨2, ![32, 16]⟩
abbrev S32768x16 : Shape := ⟨2, ![32768, 16]⟩
abbrev S32768x1 : Shape := ⟨2, ![32768, 1]⟩
abbrev S16x51200 : Shape := ⟨2, ![16, 51200]⟩
abbrev S1x50257 : Shape := ⟨2, ![1, 50257]⟩
abbrev S1x51200 : Shape := ⟨2, ![1, 51200]⟩
abbrev S256x51200 : Shape := ⟨2, ![256, 51200]⟩
abbrev S16x1024 : Shape := ⟨2, ![16, 1024]⟩
abbrev S1x1024 : Shape := ⟨2, ![1, 1024]⟩
abbrev S256x1024 : Shape := ⟨2, ![256, 1024]⟩
abbrev S256x50257 : Shape := ⟨2, ![256, 50257]⟩

abbrev nBuf : Space → Nat
  | .hbm => 29
  | .vmem => 16
  | .smem => 0
  | _ => 0

abbrev bufTy : (tb : Table) → Fin (tcTables nBuf tb) → BufTy
  | .hbm, ⟨0, _⟩ => ⟨S256x8192, .i32⟩
  | .hbm, ⟨1, _⟩ => ⟨S50257x16, .f32⟩
  | .hbm, ⟨2, _⟩ => ⟨S16x1, .f32⟩
  | .hbm, ⟨3, _⟩ => ⟨S1, .f32⟩
  | .hbm, ⟨4, _⟩ => ⟨S16x16, .f32⟩
  | .hbm, ⟨5, _⟩ => ⟨S16, .f32⟩
  | .hbm, ⟨6, _⟩ => ⟨S16x50257, .f32⟩
  | .hbm, ⟨7, _⟩ => ⟨S50257, .f32⟩
  | .hbm, ⟨8, _⟩ => ⟨S_, .i32⟩
  | .hbm, ⟨9, _⟩ => ⟨S256x8192, .i32⟩
  | .hbm, ⟨10, _⟩ => ⟨S256x8192, .i1⟩
  | .hbm, ⟨11, _⟩ => ⟨S_, .i32⟩
  | .hbm, ⟨12, _⟩ => ⟨S256x8192, .i32⟩
  | .hbm, ⟨13, _⟩ => ⟨S256x8192, .i32⟩
  | .hbm, ⟨14, _⟩ => ⟨S256x8192, .i32⟩
  | .hbm, ⟨15, _⟩ => ⟨S256x8192x1, .i32⟩
  | .hbm, ⟨16, _⟩ => ⟨S256x8192x16, .f32⟩
  | .hbm, ⟨17, _⟩ => ⟨S1x1, .f32⟩
  | .hbm, ⟨18, _⟩ => ⟨S1x16, .f32⟩
  | .hbm, ⟨19, _⟩ => ⟨S256x16, .f32⟩
  | .hbm, ⟨20, _⟩ => ⟨S_, .i32⟩
  | .hbm, ⟨21, _⟩ => ⟨S_, .f32⟩
  | .hbm, ⟨22, _⟩ => ⟨S16x51200, .f32⟩
  | .hbm, ⟨23, _⟩ => ⟨S1x50257, .f32⟩
  | .hbm, ⟨24, _⟩ => ⟨S_, .i32⟩
  | .hbm, ⟨25, _⟩ => ⟨S_, .f32⟩
  | .hbm, ⟨26, _⟩ => ⟨S1x51200, .f32⟩
  | .hbm, ⟨27, _⟩ => ⟨S256x51200, .f32⟩
  | .hbm, ⟨28, _⟩ => ⟨S256x50257, .f32⟩
  | .local _ .vmem, ⟨0, _⟩ => ⟨S32x1024x16, .f32⟩
  | .local _ .vmem, ⟨1, _⟩ => ⟨S32x1024x16, .f32⟩
  | .local _ .vmem, ⟨2, _⟩ => ⟨S16x1, .f32⟩
  | .local _ .vmem, ⟨3, _⟩ => ⟨S1x1, .f32⟩
  | .local _ .vmem, ⟨4, _⟩ => ⟨S16x16, .f32⟩
  | .local _ .vmem, ⟨5, _⟩ => ⟨S1x16, .f32⟩
  | .local _ .vmem, ⟨6, _⟩ => ⟨S32x16, .f32⟩
  | .local _ .vmem, ⟨7, _⟩ => ⟨S32x16, .f32⟩
  | .local _ .vmem, ⟨8, _⟩ => ⟨S32x16, .f32⟩
  | .local _ .vmem, ⟨9, _⟩ => ⟨S256x16, .f32⟩
  | .local _ .vmem, ⟨10, _⟩ => ⟨S16x1024, .f32⟩
  | .local _ .vmem, ⟨11, _⟩ => ⟨S16x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S256x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_17 : BitVec 32 := 0#32
  let v34 : BitVec 1 := Scalar.cmpi .ne v33 c0_i32_17
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S256x8192 : S_.BroadcastsInDim S256x8192 (![] : Fin 0 → Fin S256x8192.rank)
  bcast_S256x8192_S256x8192x1_0_1 : S256x8192.BroadcastsInDim S256x8192x1 (![0, 1] : Fin 2 → Fin S256x8192x1.rank)
  shapeCasts_S1_S1x1 : S1.ShapeCasts S1x1
  shapeCasts_S16_S1x16 : S16.ShapeCasts S1x16
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S32x1024x16_S32x1024x16_0_0_0 : ∀ a, (![0, 0, 0] : Fin 3 → Nat) a + S32x1024x16.size a ≤ S32x1024x16.size a
  h_S32x1024x16 : 0 < S32x1024x16.numel
  shapeCasts_S32x1024x16_S32x1024x16 : S32x1024x16.ShapeCasts S32x1024x16
  bitsLt_bf16_f32 : FTy.bits .bf16 < FTy.bits .f32
  shapeCasts_S32x1024x16_S32768x16 : S32x1024x16.ShapeCasts S32768x16
  inb_S16x1_S16x1_0_0 : ∀ a, (![0, 0] : Fin 2 → Nat) a + S16x1.size a ≤ S16x1.size a
  h_S16x1 : 0 < S16x1.numel
  inb_S16x16_S16x16_0_0 : ∀ a, (![0, 0] : Fin 2 → Nat) a + S16x16.size a ≤ S16x16.size a
  h_S16x16 : 0 < S16x16.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32768x1 : S1x1.Broadcasts S32768x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S32768x16 : S1x16.Broadcasts S32768x16
  broadcasts_S32768x1_S32768x16 : S32768x1.Broadcasts S32768x16
  shapeCasts_S32768x16_S32x1024x16 : S32768x16.ShapeCasts S32x1024x16
  reduces_S32x1024x16_S32x16 : S32x1024x16.Reduces [1] S32x16
  pads_S16x50257_S16x51200_000_09430 : S16x50257.Pads (![0, 0] : Fin 2 → Nat) ![0, 943] ![0, 0] S16x51200
  h_S_ : 0 < S_.numel
  shapeCasts_S50257_S1x50257 : S50257.ShapeCasts S1x50257
  pads_S1x50257_S1x51200_000_09430 : S1x50257.Pads (![0, 0] : Fin 2 → Nat) ![0, 943] ![0, 0] S1x51200
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  slices_S256x51200_S256x50257_0_0 : S256x51200.Slices ![0, 0] S256x50257
  gather_S50257x16_S256x8192x1_S256x8192x16_2_0_n_n_0_2_116_wf : GatherDims.WF S50257x16 S256x8192x1 S256x8192x16 [2] [0] [] [0] [] 2 ![1, 16]
  dot_S32768x16_S16x1_S32768x1_1_0_0_1_n_n_wf : DotDims.WF S32768x16 S16x1 S32768x1 [1] [0] [0] [1] [] []
  dot_S32768x16_S16x16_S32768x16_1_0_0_1_n_n_wf : DotDims.WF S32768x16 S16x16 S32768x16 [1] [0] [0] [1] [] []
  dot_S256x16_S16x1024_S256x1024_1_0_0_1_n_n_wf : DotDims.WF S256x16 S16x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024x16.size a ≤ S256x8192x16.size a
  hwx0_0 : ∀ i : grid0.Coords, EltTy.bits .f32 = 32 ∨ (Rect.block (s := S256x8192x16) S32x1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .f32 = 32 ∨ (Rect.block (s := S16x1) S16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x16.size a ≤ S256x16.size a
  hwx0_5 : ∀ i : grid0.Coords, EltTy.bits .f32 = 32 ∨ (Rect.block (s := S256x16) S32x16.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x16.size a ≤ S256x16.size a
  hwx1_0 : ∀ i : grid1.Coords, EltTy.bits .f32 = 32 ∨ (Rect.block (s := S256x16) S256x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1024.size a ≤ S16x51200.size a
  hwx1_1 : ∀ i : grid1.Coords, EltTy.bits .f32 = 32 ∨ (Rect.block (s := S16x51200) S16x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x51200.size a
  hwx1_2 : ∀ i : grid1.Coords, EltTy.bits .f32 = 32 ∨ (Rect.block (s := S1x51200) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x51200.size a
  hwx1_3 : ∀ i : grid1.Coords, EltTy.bits .f32 = 32 ∨ (Rect.block (s := S256x51200) S256x1024.size (cc1_transform_3 i) (hinb1_3 i)).WholeWords (EltTy.packing .f32)

variable [Facts₀]

def gather_S50257x16_S256x8192x1_S256x8192x16_2_0_n_n_0_2_116 : GatherDims S50257x16 S256x8192x1 S256x8192x16 where
  offsetDims := [2]
  collapsedSliceDims := [0]
  operandBatchingDims := []
  startIndicesBatchingDims := []
  startIndexMap := [0]
  indexVectorDim := 2
  sliceSizes := ![1, 16]
  wf := gather_S50257x16_S256x8192x1_S256x8192x16_2_0_n_n_0_2_116_wf
def dot_S32768x16_S16x1_S32768x1_1_0_0_1_n_n : DotDims S32768x16 S16x1 S32768x1 where
  lhsContracting := [1]
  rhsContracting := [0]
  lhsNonContracting := [0]
  rhsNonContracting := [1]
  lhsBatch := []
  rhsBatch := []
  wf := dot_S32768x16_S16x1_S32768x1_1_0_0_1_n_n_wf
def dot_S32768x16_S16x16_S32768x16_1_0_0_1_n_n : DotDims S32768x16 S16x16 S32768x16 where
  lhsContracting := [1]
  rhsContracting := [0]
  lhsNonContracting := [0]
  rhsNonContracting := [1]
  lhsBatch := []
  rhsBatch := []
  wf := dot_S32768x16_S16x16_S32768x16_1_0_0_1_n_n_wf
def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf

abbrev win0_0 : Pipeline.Window sig grid0 :=
  Pipeline.Window.ofSpec (Memref.whole main_v6) S32x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S32x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v9) S256x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S16x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x8192 : Shape := ⟨2, ![256, 8192]⟩
abbrev S50257x16 : Shape := ⟨2, ![50257, 16]⟩
abbrev S16x1 : Shape := ⟨2, ![16, 1]⟩
abbrev S1 : Shape := ⟨1, ![1]⟩
abbrev S16x16 : Shape := ⟨2, ![16, 16]⟩
abbrev S16 : Shape := ⟨1, ![16]⟩
abbrev S16x50257 : Shape := ⟨2, ![16, 50257]⟩
abbrev S50257 : Shape := ⟨1, ![50257]⟩
abbrev S_ : Shape := ⟨0, ![]⟩
abbrev S256x8192x1 : Shape := ⟨3, ![256, 8192, 1]⟩
abbrev S256x8192x16 : Shape := ⟨3, ![256, 8192, 16]⟩
abbrev S1x1x1 : Shape := ⟨3, ![1, 1, 1]⟩
abbrev S1x1x16 : Shape := ⟨3, ![1, 1, 16]⟩
abbrev S256x16 : Shape := ⟨2, ![256, 16]⟩
abbrev S256x50257 : Shape := ⟨2, ![256, 50257]⟩
abbrev S1x50257 : Shape := ⟨2, ![1, 50257]⟩

abbrev nBuf : Space → Nat
  | .hbm => 42
  | .vmem => 0
  | .smem => 0
  | _ => 0

abbrev bufTy : (tb : Table) → Fin (tcTables nBuf tb) → BufTy
  | .hbm, ⟨0, _⟩ => ⟨S256x8192, .i32⟩
  | .hbm, ⟨1, _⟩ => ⟨S50257x16, .f32⟩
  | .hbm, ⟨2, _⟩ => ⟨S16x1, .f32⟩
  | .hbm, ⟨3, _⟩ => ⟨S1, .f32⟩
  | .hbm, ⟨4, _⟩ => ⟨S16x16, .f32⟩
  | .hbm, ⟨5, _⟩ => ⟨S16, .f32⟩
  | .hbm, ⟨6, _⟩ => ⟨S16x50257, .f32⟩
  | .hbm, ⟨7, _⟩ => ⟨S50257, .f32⟩
  | .hbm, ⟨8, _⟩ => ⟨S_, .i32⟩
  | .hbm, ⟨9, _⟩ => ⟨S256x8192, .i32⟩
  | .hbm, ⟨10, _⟩ => ⟨S256x8192, .i1⟩
  | .hbm, ⟨11, _⟩ => ⟨S_, .i32⟩
  | .hbm, ⟨12, _⟩ => ⟨S256x8192, .i32⟩
  | .hbm, ⟨13, _⟩ => ⟨S256x8192, .i32⟩
  | .hbm, ⟨14, _⟩ => ⟨S256x8192, .i32⟩
  | .hbm, ⟨15, _⟩ => ⟨S256x8192x1, .i32⟩
  | .hbm, ⟨16, _⟩ => ⟨S256x8192x16, .f32⟩
  | .hbm, ⟨17, _⟩ => ⟨S256x8192x1, .f32⟩
  | .hbm, ⟨18, _⟩ => ⟨S1x1x1, .f32⟩
  | .hbm, ⟨19, _⟩ => ⟨S256x8192x1, .f32⟩
  | .hbm, ⟨20, _⟩ => ⟨S256x8192x1, .f32⟩
  | .hbm, ⟨21, _⟩ => ⟨S256x8192x1, .f32⟩
  | .hbm, ⟨22, _⟩ => ⟨S256x8192x1, .f32⟩
  | .hbm, ⟨23, _⟩ => ⟨S_, .f32⟩
  | .hbm, ⟨24, _⟩ => ⟨S256x8192x1, .f32⟩
  | .hbm, ⟨25, _⟩ => ⟨S256x8192x1, .f32⟩
  | .hbm, ⟨26, _⟩ => ⟨S_, .f32⟩
  | .hbm, ⟨27, _⟩ => ⟨S256x8192x1, .f32⟩
  | .hbm, ⟨28, _⟩ => ⟨S256x8192x1, .f32⟩
  | .hbm, ⟨29, _⟩ => ⟨S256x8192x16, .f32⟩
  | .hbm, ⟨30, _⟩ => ⟨S1x1x16, .f32⟩
  | .hbm, ⟨31, _⟩ => ⟨S256x8192x16, .f32⟩
  | .hbm, ⟨32, _⟩ => ⟨S256x8192x16, .f32⟩
  | .hbm, ⟨33, _⟩ => ⟨S256x8192x16, .f32⟩
  | .hbm, ⟨34, _⟩ => ⟨S256x8192x16, .f32⟩
  | .hbm, ⟨35, _⟩ => ⟨S256x8192x16, .f32⟩
  | .hbm, ⟨36, _⟩ => ⟨S_, .f32⟩
  | .hbm, ⟨37, _⟩ => ⟨S256x16, .f32⟩
  | .hbm, ⟨38, _⟩ => ⟨S256x50257, .f32⟩
  | .hbm, ⟨39, _⟩ => ⟨S1x50257, .f32⟩
  | .hbm, ⟨40, _⟩ => ⟨S256x50257, .f32⟩
  | .hbm, ⟨41, _⟩ => ⟨S256x50257, .f32⟩
  | _, _ => ⟨S256x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S256x8192 : S_.BroadcastsInDim S256x8192 (![] : Fin 0 → Fin S256x8192.rank)
  bcast_S256x8192_S256x8192x1_0_1 : S256x8192.BroadcastsInDim S256x8192x1 (![0, 1] : Fin 2 → Fin S256x8192x1.rank)
  bcast_S1_S1x1x1_2 : S1.BroadcastsInDim S1x1x1 (![2] : Fin 1 → Fin S1x1x1.rank)
  bcast_S1x1x1_S256x8192x1_0_1_2 : S1x1x1.BroadcastsInDim S256x8192x1 (![0, 1, 2] : Fin 3 → Fin S256x8192x1.rank)
  bcast_S_S256x8192x1 : S_.BroadcastsInDim S256x8192x1 (![] : Fin 0 → Fin S256x8192x1.rank)
  bcast_S16_S1x1x16_2 : S16.BroadcastsInDim S1x1x16 (![2] : Fin 1 → Fin S1x1x16.rank)
  bcast_S1x1x16_S256x8192x16_0_1_2 : S1x1x16.BroadcastsInDim S256x8192x16 (![0, 1, 2] : Fin 3 → Fin S256x8192x16.rank)
  bcast_S256x8192x1_S256x8192x16_0_1_2 : S256x8192x1.BroadcastsInDim S256x8192x16 (![0, 1, 2] : Fin 3 → Fin S256x8192x16.rank)
  reducesTo_S256x8192x16_S256x16_d1 : S256x8192x16.ReducesTo [1] S256x16
  h_S_ : 0 < S_.numel
  bcast_S50257_S1x50257_1 : S50257.BroadcastsInDim S1x50257 (![1] : Fin 1 → Fin S1x50257.rank)
  bcast_S1x50257_S256x50257_0_1 : S1x50257.BroadcastsInDim S256x50257 (![0, 1] : Fin 2 → Fin S256x50257.rank)
  gather_S50257x16_S256x8192x1_S256x8192x16_2_0_n_n_0_2_116_wf : GatherDims.WF S50257x16 S256x8192x1 S256x8192x16 [2] [0] [] [0] [] 2 ![1, 16]
  dot_S256x8192x16_S16x1_S256x8192x1_2_0_01_1_n_n_wf : DotDims.WF S256x8192x16 S16x1 S256x8192x1 [2] [0] [0, 1] [1] [] []
  dot_S256x8192x16_S16x16_S256x8192x16_2_0_01_1_n_n_wf : DotDims.WF S256x8192x16 S16x16 S256x8192x16 [2] [0] [0, 1] [1] [] []
  dot_S256x16_S16x50257_S256x50257_1_0_0_1_n_n_wf : DotDims.WF S256x16 S16x50257 S256x50257 [1] [0] [0] [1] [] []

variable [Facts₀]

def gather_S50257x16_S256x8192x1_S256x8192x16_2_0_n_n_0_2_116 : GatherDims S50257x16 S256x8192x1 S256x8192x16 where
  offsetDims := [2]
  collapsedSliceDims := [0]
  operandBatchingDims := []
  startIndicesBatchingDims := []
  startIndexMap := [0]
  indexVectorDim := 2
  sliceSizes := ![1, 16]
  wf := gather_S50257x16_S256x8192x1_S256x8192x16_2_0_n_n_0_2_116_wf
def dot_S256x8192x16_S16x1_S256x8192x1_2_0_01_1_n_n : DotDims S256x8192x16 S16x1 S256x8192x1 where
  lhsContracting := [2]
  rhsContracting := [0]
  lhsNonContracting := [0, 1]
  rhsNonContracting := [1]
  lhsBatch := []
  rhsBatch := []
  wf := dot_S256x8192x16_S16x1_S256x8192x1_2_0_01_1_n_n_wf
def dot_S256x8192x16_S16x16_S256x8192x16_2_0_01_1_n_n : DotDims S256x8192x16 S16x16 S256x8192x16 where
  lhsContracting := [2]
  rhsContracting := [0]
  lhsNonContracting := [0, 1]
  rhsNonContracting := [1]
  lhsBatch := []
  rhsBatch := []
  wf := dot_S256x8192x16_S16x16_S256x8192x16_2_0_01_1_n_n_wf
def dot_S256x16_S16x50257_S256x50257_1_0_0_1_n_n : DotDims S256x16 S16x50257 S256x50257 where
  lhsContracting := [1]
  rhsContracting := [0]
  lhsNonContracting := [0]
  rhsNonContracting := [1]
  lhsBatch := []
  rhsBatch := []
  wf := dot_S256x16_S16x50257_S256x50257_1_0_0_1_n_n_wf

class Facts : Prop extends Facts₀ where

variable [Facts]
-- ==== Proof.KernelFrame.Shared.lean ====
/-
  What the two kernel regions' frame arguments share, at a parameter V: the core's buffer contents when a region is entered.

  The accumulate region walks an 8 × 8 grid (row block b, time tile j; point t = 8·b + j).  Its body resets a scratch
  accumulator when j = 0, adds the tile's contribution at every point, and copies the accumulator to the output block only
  when j = 7; so a point is in one of three cases, decided by t mod 8, and the output window is idle (neither stored into
  nor written back) unless j = 7.  Every input window holds its block of the entry contents at every point, whether it was
  fetched there or not.  The projection region walks 50 column tiles; each point stores its whole output block.
-/
import proofs.«171928_j25443386262310_2_alg».proof.Proof.Gen.Kernel.Launch
import proofs.«171928_j25443386262310_2_alg».proof.Proof.Gen.Kernel.Skeleton
import proofs.«171928_j25443386262310_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The accumulate region: blocks of the entry contents -/

/-- Window w's block at point t of the accumulate region, read off the entry contents. -/
def ablk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, for any proof data over the entry contents whose body leaves it in place. -/
theorem abefore0_of {c : Dev nD} (dat : Dat τ (Elt F) Unit ℕ (UR sig nD τ) ℕ cfg0 c) (hA : dat.A 0 = V c (Pipeline.arrRef spec0 0))
    (hafter : ∀ t, dat.after 0 t = ablk V c 0 t) (t : Fin cfg0.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)

/-- Input window 1 holds its block at every point, for any proof data over the entry contents whose body leaves it in place. -/
theorem abefore1_of {c : Dev nD} (dat : Dat τ (Elt F) Unit ℕ (UR sig nD τ) ℕ cfg0 c) (hA : dat.A 1 = V c (Pipeline.arrRef spec0 1))
    (hafter : ∀ t, dat.after 1 t = ablk V c 1 t) (t : Fin cfg0.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

/-- Input window 2 holds its block at every point, for any proof data over the entry contents whose body leaves it in place. -/
theorem abefore2_of {c : Dev nD} (dat : Dat τ (Elt F) Unit ℕ (UR sig nD τ) ℕ cfg0 c) (hA : dat.A 2 = V c (Pipeline.arrRef spec0 2))
    (hafter : ∀ t, dat.after 2 t = ablk V c 2 t) (t : Fin cfg0.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

/-- Input window 3 holds its block at every point, for any proof data over the entry contents whose body leaves it in place. -/
theorem abefore3_of {c : Dev nD} (dat : Dat τ (Elt F) Unit ℕ (UR sig nD τ) ℕ cfg0 c) (hA : dat.A 3 = V c (Pipeline.arrRef spec0 3))
    (hafter : ∀ t, dat.after 3 t = ablk V c 3 t) (t : Fin cfg0.N) (d) : dat.before 3 t d = ablk V c 3 t :=
  (dat.before_in_eq_fetched 3 rfl (fun _ => rfl) (fun _ _ _ => rfl) (fun t => by rw [hafter]; unfold Dat.blockOf ablk; rw [hA]; try rfl) t d).trans
    (by unfold Dat.fetched Dat.blockOf ablk; rw [hA]; try rfl)

/-- Input window 4 holds its block at every point, for any proof data over the entry contents whose body leaves it in place. -/
theorem abefore4_of {c : Dev nD} (dat : Dat τ (Elt F) Unit ℕ (UR sig nD τ) ℕ cfg0 c) (hA : dat.A 4 = V c (Pipeline.arrRef spec0 4))
    (hafter : ∀ t, dat.after 4 t = ablk V c 4 t) (t : Fin cfg0.N) (d) : dat.before 4 t d = ablk V c 4 t :=
  (dat.before_in_eq_fetched 4 rfl (fun _ => rfl) (fun _ _ _ => rfl) (fun t => by rw [hafter]; unfold Dat.blockOf ablk; rw [hA]; try rfl) t d).trans
    (by unfold Dat.fetched Dat.blockOf ablk; rw [hA]; try rfl)

/-! ## The projection region: blocks of the entry contents -/

/-- Window w's block at point t of the projection region, read off the entry contents. -/
def pblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of the projection holds its block at every point. -/
theorem pbefore0_of {c : Dev nD} (dat : Dat τ (Elt F) Unit ℕ (UR sig nD τ) ℕ cfg1 c) (hA : dat.A 0 = V c (Pipeline.arrRef spec1 0))
    (hafter : ∀ t, dat.after 0 t = pblk V c 0 t) (t : Fin cfg1.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)

/-- Input window 1 of the projection holds its block at every point. -/
theorem pbefore1_of {c : Dev nD} (dat : Dat τ (Elt F) Unit ℕ (UR sig nD τ) ℕ cfg1 c) (hA : dat.A 1 = V c (Pipeline.arrRef spec1 1))
    (hafter : ∀ t, dat.after 1 t = pblk V c 1 t) (t : Fin cfg1.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)

/-- Input window 2 of the projection holds its block at every point. -/
theorem pbefore2_of {c : Dev nD} (dat : Dat τ (Elt F) Unit ℕ (UR sig nD τ) ℕ cfg1 c) (hA : dat.A 2 = V c (Pipeline.arrRef spec1 2))
    (hafter : ∀ t, dat.after 2 t = pblk V c 2 t) (t : Fin cfg1.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

end

/-! ## The accumulate body's two conditions, decided over the grid -/

/-- "This is the first time tile" (the reset of the accumulator), as the body computes it from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last time tile" (the copy of the accumulator to the output block). -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the accumulate region's windows are idle -/

theorem alive0 : ∀ t : Fin cfg0.N, cfg0.idle 0 (grid0.coords t) = false := by decide +kernel
theorem alive1 : ∀ t : Fin cfg0.N, cfg0.idle 1 (grid0.coords t) = false := by decide +kernel
theorem alive2 : ∀ t : Fin cfg0.N, cfg0.idle 2 (grid0.coords t) = false := by decide +kernel
theorem alive3 : ∀ t : Fin cfg0.N, cfg0.idle 3 (grid0.coords t) = false := by decide +kernel
theorem alive4 : ∀ t : Fin cfg0.N, cfg0.idle 4 (grid0.coords t) = false := by decide +kernel
/-- Away from the last time tile the output window is idle and not written back. -/
theorem aidle5 : ∀ t : Fin cfg0.N, ¬isLast (grid0.coords t) → cfg0.idle 5 (grid0.coords t) = true := by decide +kernel
theorem anoflush5 : ∀ t : Fin cfg0.N, ¬isLast (grid0.coords t) → (cfg0.win 5).flush t = false := by decide +kernel
/-- At the last time tile it is live. -/
theorem alive5 : ∀ t : Fin cfg0.N, isLast (grid0.coords t) → cfg0.idle 5 (grid0.coords t) = false := by decide +kernel

/-! ## The memrefs the accumulate body is called with -/

abbrev am0 (t : Fin cfg0.N) : Memref sig .tc .vmem S32x1024x16 .f32 := win0_0.stage (cfg0.slots t 0)
abbrev ah0 (t : Fin cfg0.N) : (am0 t).IsWhole := hstage0_0 ((cfg0.slots t 0).cast nbuf0_0)
abbrev am1 (t : Fin cfg0.N) : Memref sig .tc .vmem S16x1 .f32 := win0_1.stage (cfg0.slots t 1)
abbrev ah1 (t : Fin cfg0.N) : (am1 t).IsWhole := hstage0_1 ((cfg0.slots t 1).cast nbuf0_1)
abbrev am2 (t : Fin cfg0.N) : Memref sig .tc .vmem S1x1 .f32 := win0_2.stage (cfg0.slots t 2)
abbrev ah2 (t : Fin cfg0.N) : (am2 t).IsWhole := hstage0_2 ((cfg0.slots t 2).cast nbuf0_2)
abbrev am3 (t : Fin cfg0.N) : Memref sig .tc .vmem S16x16 .f32 := win0_3.stage (cfg0.slots t 3)
abbrev ah3 (t : Fin cfg0.N) : (am3 t).IsWhole := hstage0_3 ((cfg0.slots t 3).cast nbuf0_3)
abbrev am4 (t : Fin cfg0.N) : Memref sig .tc .vmem S1x16 .f32 := win0_4.stage (cfg0.slots t 4)
abbrev ah4 (t : Fin cfg0.N) : (am4 t).IsWhole := hstage0_4 ((cfg0.slots t 4).cast nbuf0_4)
abbrev am5 (t : Fin cfg0.N) : Memref sig .tc .vmem S32x16 .f32 := win0_5.stage (cfg0.slots t 5)
abbrev ah5 (t : Fin cfg0.N) : (am5 t).IsWhole := hstage0_5 ((cfg0.slots t 5).cast nbuf0_5)
/-- The accumulator: a whole scoped buffer of the kernel's own. -/
abbrev accM : Memref sig .tc .vmem S32x16 .f32 := Memref.whole cc0_scratch0
/-- The views through which the output block's and the accumulator's contents are stated. -/
abbrev outV : View sig .tc .vmem S32x16 .f32 := (Memref.whole cc0_stg5_0 : Memref sig .tc .vmem S32x16 .f32).view
abbrev accV : View sig .tc .vmem S32x16 .f32 := accM.view

/-- The accumulate region's scoped rest, with the accumulator as a memref owned at some contents. -/
theorem restA_eq (c : Dev nD) :
    (Pipeline.ΦA spec0 c : sProp 𝕄)
      = iprop(iprop((∃ d, owns (c : Thread nD τ) accM fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [accM, owns_whole]; try rfl

end Cert.Kernel.Frame

end
-- ==== Proof.KernelFrame.RunFirst.lean ====
/-
  The accumulate body at a first time tile (the reset is taken, the copy-out is not): run on whole memrefs holding the
  five input blocks, the output block at contents it hands back untouched and the accumulator at anything, it ends with
  the inputs as they were and the accumulator overwritten; the pieces written are found by running the body.
-/
import proofs.«171928_j25443386262310_2_alg».proof.Proof.KernelFrame.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : isFirst i) (hc1 : ¬isLast i)
    (x0 : Vec F S32x1024x16 .f32) (x1 : Vec F S16x1 .f32) (x2 : Vec F S1x1 .f32) (x3 : Vec F S16x16 .f32) (x4 : Vec F S1x16 .f32) :
    Σ' (L5 : List (View.Piece (Elt F) S32x16 .f32)), { LS : List (View.Piece (Elt F) S32x16 .f32) //
      ∀ (xi5 : Vec F S32x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨[], ?_, fun xi5 E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Frame

end
-- ==== Proof.KernelFrame.RunMiddle.lean ====
/-
  The accumulate body at a middle time tile (neither the reset nor the copy-out is taken): the accumulator comes in at
  what the point before left and goes out with this tile's contribution added; the output block is handed back untouched.
-/
import proofs.«171928_j25443386262310_2_alg».proof.Proof.KernelFrame.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMiddle (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : ¬isLast i)
    (x0 : Vec F S32x1024x16 .f32) (x1 : Vec F S16x1 .f32) (x2 : Vec F S1x1 .f32) (x3 : Vec F S16x16 .f32) (x4 : Vec F S1x16 .f32) (xs : Vec F S32x16 .f32) :
    Σ' (L5 : List (View.Piece (Elt F) S32x16 .f32)), { LS : List (View.Piece (Elt F) S32x16 .f32) //
      ∀ (xi5 : Vec F S32x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨[], ?_, fun xi5 E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Frame

end
-- ==== Proof.KernelFrame.RunLast.lean ====
/-
  The accumulate body at a last time tile (the copy-out is taken, the reset is not): the accumulator comes in at what the
  point before left, goes out with this tile's contribution added, and the output block, entered at anything, ends
  overwritten with that sum.
-/
import proofs.«171928_j25443386262310_2_alg».proof.Proof.KernelFrame.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : isLast i)
    (x0 : Vec F S32x1024x16 .f32) (x1 : Vec F S16x1 .f32) (x2 : Vec F S1x1 .f32) (x3 : Vec F S16x16 .f32) (x4 : Vec F S1x16 .f32) (xs : Vec F S32x16 .f32) :
    Σ' (L5 : List (View.Piece (Elt F) S32x16 .f32)), { LS : List (View.Piece (Elt F) S32x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨?_, ?_, fun E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Frame

end
-- ==== Proof.KernelFrame.Accumulate.lean ====
/-
  The accumulate region at the entry contents V.

  What the accumulator holds after each point is defined by recursion on the point: at a first time tile what that case's
  stores leave (over the point's input blocks), at any other tile what its case leaves over the blocks AND what the point
  before left.  The output block's staging buffer is stored into only at a last time tile, with what that case leaves; at
  the other points the window is idle and its entry in the proof data is never consulted.  The region's invariant before
  a point is the scoped rest with the accumulator at the recursion's value (before the first point: at anything).
-/
import proofs.«171928_j25443386262310_2_alg».proof.Proof.KernelFrame.RunFirst
import proofs.«171928_j25443386262310_2_alg».proof.Proof.KernelFrame.RunMiddle
import proofs.«171928_j25443386262310_2_alg».proof.Proof.KernelFrame.RunLast

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

theorem accCoverFirst (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : isFirst i) (hc1 : ¬isLast i) (x0 : Vec F S32x1024x16 .f32) (x1 : Vec F S16x1 .f32) (x2 : Vec F S1x1 .f32) (x3 : Vec F S16x16 .f32) (x4 : Vec F S1x16 .f32) (y : S32x16.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S32x16.size (by sl_kernel_rfl) y

/-- The accumulator after a first time tile: the case's pieces read back. -/
def accFirst (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : isFirst i) (hc1 : ¬isLast i) (x0 : Vec F S32x1024x16 .f32) (x1 : Vec F S16x1 .f32) (x2 : Vec F S1x1 .f32) (x3 : Vec F S16x16 .f32) (x4 : Vec F S1x16 .f32) : Vec F S32x16 .f32 :=
  accV.read (Elt F) (accV.writes (Elt F) accV.junk (runFirst c i arg2 harg2 arg3 harg3 arg4 harg4 arg5 harg5 arg6 harg6 arg7 harg7 arg8 harg8 hc0 hc1 x0 x1 x2 x3 x4).2.1)

theorem accCoverMiddle (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : ¬isLast i) (x0 : Vec F S32x1024x16 .f32) (x1 : Vec F S16x1 .f32) (x2 : Vec F S1x1 .f32) (x3 : Vec F S16x16 .f32) (x4 : Vec F S1x16 .f32) (xs : Vec F S32x16 .f32) (y : S32x16.Idx) :
    ∃ pc ∈ (runMiddle c i arg2 harg2 arg3 harg3 arg4 harg4 arg5 harg5 arg6 harg6 arg7 harg7 arg8 harg8 hc0 hc1 x0 x1 x2 x3 x4 xs).2.1, y ∈ pc.1.set :=
  View.cover_of_tiledL (runMiddle c i arg2 harg2 arg3 harg3 arg4 harg4 arg5 harg5 arg6 harg6 arg7 harg7 arg8 harg8 hc0 hc1 x0 x1 x2 x3 x4 xs).2.1 S32x16.size (by sl_kernel_rfl) y

/-- The accumulator after a middle time tile, over what the point before left. -/
def accMiddle (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : ¬isLast i) (x0 : Vec F S32x1024x16 .f32) (x1 : Vec F S16x1 .f32) (x2 : Vec F S1x1 .f32) (x3 : Vec F S16x16 .f32) (x4 : Vec F S1x16 .f32) (xs : Vec F S32x16 .f32) : Vec F S32x16 .f32 :=
  accV.read (Elt F) (accV.writes (Elt F) accV.junk (runMiddle c i arg2 harg2 arg3 harg3 arg4 harg4 arg5 harg5 arg6 harg6 arg7 harg7 arg8 harg8 hc0 hc1 x0 x1 x2 x3 x4 xs).2.1)

theorem accCoverLast (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : isLast i) (x0 : Vec F S32x1024x16 .f32) (x1 : Vec F S16x1 .f32) (x2 : Vec F S1x1 .f32) (x3 : Vec F S16x16 .f32) (x4 : Vec F S1x16 .f32) (xs : Vec F S32x16 .f32) (y : S32x16.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S32x16.size (by sl_kernel_rfl) y

/-- The accumulator after a last time tile, over what the point before left. -/
def accLast (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : isLast i) (x0 : Vec F S32x1024x16 .f32) (x1 : Vec F S16x1 .f32) (x2 : Vec F S1x1 .f32) (x3 : Vec F S16x16 .f32) (x4 : Vec F S1x16 .f32) (xs : Vec F S32x16 .f32) : Vec F S32x16 .f32 :=
  accV.read (Elt F) (accV.writes (Elt F) accV.junk (runLast c i arg2 harg2 arg3 harg3 arg4 harg4 arg5 harg5 arg6 harg6 arg7 harg7 arg8 harg8 hc0 hc1 x0 x1 x2 x3 x4 xs).2.1)

theorem outCoverLast (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : isLast i) (x0 : Vec F S32x1024x16 .f32) (x1 : Vec F S16x1 .f32) (x2 : Vec F S1x1 .f32) (x3 : Vec F S16x16 .f32) (x4 : Vec F S1x16 .f32) (xs : Vec F S32x16 .f32) (y : S32x16.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S32x16.size (by sl_kernel_rfl) y

/-- The output block's staging buffer after a last time tile. -/
def outLast (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : isLast i) (x0 : Vec F S32x1024x16 .f32) (x1 : Vec F S16x1 .f32) (x2 : Vec F S1x1 .f32) (x3 : Vec F S16x16 .f32) (x4 : Vec F S1x16 .f32) (xs : Vec F S32x16 .f32) : Vec F S32x16 .f32 :=
  outV.read (Elt F) (outV.writes (Elt F) outV.junk (runLast c i arg2 harg2 arg3 harg3 arg4 harg4 arg5 harg5 arg6 harg6 arg7 harg7 arg8 harg8 hc0 hc1 x0 x1 x2 x3 x4 xs).1)

/-! ## The accumulator, point by point -/

/-- What the accumulator holds after the body at position n. -/
def accAt (c : Dev nD) : (n : ℕ) → n < cfg0.N → Vec F S32x16 .f32
  | 0, hn => accFirst c (grid0.coords ⟨0, hn⟩) (am0 ⟨0, hn⟩) (ah0 ⟨0, hn⟩) (am1 ⟨0, hn⟩) (ah1 ⟨0, hn⟩) (am2 ⟨0, hn⟩) (ah2 ⟨0, hn⟩) (am3 ⟨0, hn⟩) (ah3 ⟨0, hn⟩) (am4 ⟨0, hn⟩) (ah4 ⟨0, hn⟩) (am5 ⟨0, hn⟩) (ah5 ⟨0, hn⟩) accM (Memref.isWhole_whole _) ((isFirst_iff ⟨0, hn⟩).mpr (Nat.zero_mod _)) (fun h => (fun h => by (try dsimp only at h); omega) ((isLast_iff ⟨0, hn⟩).mp h)) (ablk V c 0 ⟨0, hn⟩) (ablk V c 1 ⟨0, hn⟩) (ablk V c 2 ⟨0, hn⟩) (ablk V c 3 ⟨0, hn⟩) (ablk V c 4 ⟨0, hn⟩)
  | n + 1, hn =>
    if h0 : (n + 1) % 8 = 0 then
      accFirst c (grid0.coords ⟨n + 1, hn⟩) (am0 ⟨n + 1, hn⟩) (ah0 ⟨n + 1, hn⟩) (am1 ⟨n + 1, hn⟩) (ah1 ⟨n + 1, hn⟩) (am2 ⟨n + 1, hn⟩) (ah2 ⟨n + 1, hn⟩) (am3 ⟨n + 1, hn⟩) (ah3 ⟨n + 1, hn⟩) (am4 ⟨n + 1, hn⟩) (ah4 ⟨n + 1, hn⟩) (am5 ⟨n + 1, hn⟩) (ah5 ⟨n + 1, hn⟩) accM (Memref.isWhole_whole _) ((isFirst_iff ⟨n + 1, hn⟩).mpr h0) (fun h => (fun h => by (try dsimp only at h); omega) ((isLast_iff ⟨n + 1, hn⟩).mp h)) (ablk V c 0 ⟨n + 1, hn⟩) (ablk V c 1 ⟨n + 1, hn⟩) (ablk V c 2 ⟨n + 1, hn⟩) (ablk V c 3 ⟨n + 1, hn⟩) (ablk V c 4 ⟨n + 1, hn⟩)
    else
      if h1 : (n + 1) % 8 = 7 then
        accLast c (grid0.coords ⟨n + 1, hn⟩) (am0 ⟨n + 1, hn⟩) (ah0 ⟨n + 1, hn⟩) (am1 ⟨n + 1, hn⟩) (ah1 ⟨n + 1, hn⟩) (am2 ⟨n + 1, hn⟩) (ah2 ⟨n + 1, hn⟩) (am3 ⟨n + 1, hn⟩) (ah3 ⟨n + 1, hn⟩) (am4 ⟨n + 1, hn⟩) (ah4 ⟨n + 1, hn⟩) (am5 ⟨n + 1, hn⟩) (ah5 ⟨n + 1, hn⟩) accM (Memref.isWhole_whole _) (fun h => h0 ((isFirst_iff ⟨n + 1, hn⟩).mp h)) ((isLast_iff ⟨n + 1, hn⟩).mpr h1) (ablk V c 0 ⟨n + 1, hn⟩) (ablk V c 1 ⟨n + 1, hn⟩) (ablk V c 2 ⟨n + 1, hn⟩) (ablk V c 3 ⟨n + 1, hn⟩) (ablk V c 4 ⟨n + 1, hn⟩) (accAt c n (Nat.lt_of_succ_lt hn))
      else
        accMiddle c (grid0.coords ⟨n + 1, hn⟩) (am0 ⟨n + 1, hn⟩) (ah0 ⟨n + 1, hn⟩) (am1 ⟨n + 1, hn⟩) (ah1 ⟨n + 1, hn⟩) (am2 ⟨n + 1, hn⟩) (ah2 ⟨n + 1, hn⟩) (am3 ⟨n + 1, hn⟩) (ah3 ⟨n + 1, hn⟩) (am4 ⟨n + 1, hn⟩) (ah4 ⟨n + 1, hn⟩) (am5 ⟨n + 1, hn⟩) (ah5 ⟨n + 1, hn⟩) accM (Memref.isWhole_whole _) (fun h => h0 ((isFirst_iff ⟨n + 1, hn⟩).mp h)) (fun h => h1 ((isLast_iff ⟨n + 1, hn⟩).mp h)) (ablk V c 0 ⟨n + 1, hn⟩) (ablk V c 1 ⟨n + 1, hn⟩) (ablk V c 2 ⟨n + 1, hn⟩) (ablk V c 3 ⟨n + 1, hn⟩) (ablk V c 4 ⟨n + 1, hn⟩) (accAt c n (Nat.lt_of_succ_lt hn))

theorem accAt_first (c : Dev nD) (t : Fin cfg0.N) (h0 : t.val % 8 = 0) (h1 : ¬t.val % 8 = 7) :
    accAt V c t.val t.isLt = accFirst c (grid0.coords t) (am0 t) (ah0 t) (am1 t) (ah1 t) (am2 t) (ah2 t) (am3 t) (ah3 t) (am4 t) (ah4 t) (am5 t) (ah5 t) accM (Memref.isWhole_whole _) ((isFirst_iff t).mpr h0) (fun h => h1 ((isLast_iff t).mp h)) (ablk V c 0 t) (ablk V c 1 t) (ablk V c 2 t) (ablk V c 3 t) (ablk V c 4 t) := by
  obtain ⟨n, hn⟩ := t
  cases n with
  | zero => exact rfl
  | succ n => exact (dif_pos h0).trans rfl

theorem accAt_middle (c : Dev nD) (t : Fin cfg0.N) (h0 : ¬t.val % 8 = 0) (h1 : ¬t.val % 8 = 7) :
    accAt V c t.val t.isLt = accMiddle c (grid0.coords t) (am0 t) (ah0 t) (am1 t) (ah1 t) (am2 t) (ah2 t) (am3 t) (ah3 t) (am4 t) (ah4 t) (am5 t) (ah5 t) accM (Memref.isWhole_whole _) (fun h => h0 ((isFirst_iff t).mp h)) (fun h => h1 ((isLast_iff t).mp h)) (ablk V c 0 t) (ablk V c 1 t) (ablk V c 2 t) (ablk V c 3 t) (ablk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt V c t.val t.isLt = accLast c (grid0.coords t) (am0 t) (ah0 t) (am1 t) (ah1 t) (am2 t) (ah2 t) (am3 t) (ah3 t) (am4 t) (ah4 t) (am5 t) (ah5 t) accM (Memref.isWhole_whole _) (fun h => h0 ((isFirst_iff t).mp h)) ((isLast_iff t).mpr h1) (ablk V c 0 t) (ablk V c 1 t) (ablk V c 2 t) (ablk V c 3 t) (ablk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point t: at a last time tile what that case stores
    (over what the point before left in the accumulator); elsewhere a placeholder nothing consults. -/
def outAt (c : Dev nD) (t : Fin cfg0.N) : Vec F S32x16 .f32 :=
  if h1 : t.val % 8 = 7 then
    outLast c (grid0.coords t) (am0 t) (ah0 t) (am1 t) (ah1 t) (am2 t) (ah2 t) (am3 t) (ah3 t) (am4 t) (ah4 t) (am5 t) (ah5 t) accM (Memref.isWhole_whole _) (fun h => (fun h => by omega) ((isFirst_iff t).mp h)) ((isLast_iff t).mpr h1) (ablk V c 0 t) (ablk V c 1 t) (ablk V c 2 t) (ablk V c 3 t) (ablk V c 4 t) (accAt V c (t.val - 1) (Nat.lt_of_le_of_lt (Nat.sub_le _ _) t.isLt))
  else outV.read (Elt F) outV.junk

theorem outAt_last (c : Dev nD) (t : Fin cfg0.N) (h0 : ¬t.val % 8 = 0) (h1 : t.val % 8 = 7) :
    outAt V c t = outLast c (grid0.coords t) (am0 t) (ah0 t) (am1 t) (ah1 t) (am2 t) (ah2 t) (am3 t) (ah3 t) (am4 t) (ah4 t) (am5 t) (ah5 t) accM (Memref.isWhole_whole _) (fun h => h0 ((isFirst_iff t).mp h)) ((isLast_iff t).mpr h1) (ablk V c 0 t) (ablk V c 1 t) (ablk V c 2 t) (ablk V c 3 t) (ablk V c 4 t) (accAt V c (t.val - 1) (Nat.lt_of_le_of_lt (Nat.sub_le _ _) t.isLt)) := by
  unfold outAt; exact (dif_pos h1).trans rfl

/-! ## The region's invariant -/

/-- The scoped buffers of the other region, each whole at some contents. -/
abbrev otherScoped (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem restA_eq' (c : Dev nD) :
    (Pipeline.ΦA spec0 c : sProp 𝕄) = iprop(iprop((∃ d, owns (c : Thread nD τ) accM fullShare d) ∗ otherScoped (F := F) c) ∗ (∃ r, prngReg c r)) :=
  restA_eq c

/-- The invariant before position n: before the first point the scoped rest at anything; afterwards the accumulator at
    what the point before left. -/
def accInv (c : Dev nD) : (n : ℕ) → n ≤ cfg0.N → sProp 𝕄
  | 0, _ => Pipeline.ΦA spec0 c
  | n + 1, hn => iprop(iprop(owns (c : Thread nD τ) accM fullShare (accAt V c n hn) ∗ otherScoped (F := F) c) ∗ (∃ r, prngReg c r))

theorem accInv_zero (c : Dev nD) (n : ℕ) (h : n ≤ cfg0.N) (hz : n = 0) : accInv V c n h = Pipeline.ΦA spec0 c := by
  subst hz; rfl

theorem accInv_succ (c : Dev nD) (n : ℕ) (hn : n < cfg0.N) :
    accInv V c (n + 1) hn = iprop(iprop(owns (c : Thread nD τ) accM fullShare (accAt V c n hn) ∗ otherScoped (F := F) c) ∗ (∃ r, prngReg c r)) := rfl

theorem accInv_pos (c : Dev nD) (n : ℕ) (h : n ≤ cfg0.N) (hz : n ≠ 0) :
    accInv V c n h = iprop(iprop(owns (c : Thread nD τ) accM fullShare (accAt V c (n - 1) (by omega)) ∗ otherScoped (F := F) c) ∗ (∃ r, prngReg c r)) := by
  cases n with
  | zero => exact absurd rfl hz
  | succ n => rfl

/-! ## The proof data -/

def adat (c : Dev nD) : Dat τ (Elt F) Unit ℕ (UR sig nD τ) ℕ cfg0 c where
  A w := V c (Pipeline.arrRef spec0 w)
  after w t := match w with
    | ⟨0, _⟩ => ablk V c 0 t
    | ⟨1, _⟩ => ablk V c 1 t
    | ⟨2, _⟩ => ablk V c 2 t
    | ⟨3, _⟩ => ablk V c 3 t
    | ⟨4, _⟩ => ablk V c 4 t
    | ⟨5, _⟩ => outAt V c t
  Φ t := accInv V c t.val (Nat.le_of_lt_succ t.isLt)
  q _ := fullShare
  owed _ := 0

theorem aA_eq (c : Dev nD) (w : Fin cfg0.W) : (adat V c).A w = V c (Pipeline.arrRef spec0 w) := by
  dsimp only [adat]

theorem accInv_castSucc (c : Dev nD) (t : Fin cfg0.N) :
    (adat V c).Φ t.castSucc = accInv V c t.val (Nat.le_of_lt t.isLt) := by
  dsimp only [adat]; simp only [Fin.coe_castSucc]

theorem aafter0 (c : Dev nD) (t : Fin cfg0.N) : (adat V c).after 0 t = ablk V c 0 t := by dsimp only [adat]
theorem aafter1 (c : Dev nD) (t : Fin cfg0.N) : (adat V c).after 1 t = ablk V c 1 t := by dsimp only [adat]
theorem aafter2 (c : Dev nD) (t : Fin cfg0.N) : (adat V c).after 2 t = ablk V c 2 t := by dsimp only [adat]
theorem aafter3 (c : Dev nD) (t : Fin cfg0.N) : (adat V c).after 3 t = ablk V c 3 t := by dsimp only [adat]
theorem aafter4 (c : Dev nD) (t : Fin cfg0.N) : (adat V c).after 4 t = ablk V c 4 t := by dsimp only [adat]
theorem aafter5 (c : Dev nD) (t : Fin cfg0.N) : (adat V c).after 5 t = outAt V c t := by dsimp only [adat]

theorem abefore0 (c : Dev nD) (t : Fin cfg0.N) (d) : (adat V c).before 0 t d = ablk V c 0 t :=
  abefore0_of V (adat V c) (aA_eq V c 0) (aafter0 V c) t d
theorem abefore1 (c : Dev nD) (t : Fin cfg0.N) (d) : (adat V c).before 1 t d = ablk V c 1 t :=
  abefore1_of V (adat V c) (aA_eq V c 1) (aafter1 V c) t d
theorem abefore2 (c : Dev nD) (t : Fin cfg0.N) (d) : (adat V c).before 2 t d = ablk V c 2 t :=
  abefore2_of V (adat V c) (aA_eq V c 2) (aafter2 V c) t d
theorem abefore3 (c : Dev nD) (t : Fin cfg0.N) (d) : (adat V c).before 3 t d = ablk V c 3 t :=
  abefore3_of V (adat V c) (aA_eq V c 3) (aafter3 V c) t d
theorem abefore4 (c : Dev nD) (t : Fin cfg0.N) (d) : (adat V c).before 4 t d = ablk V c 4 t :=
  abefore4_of V (adat V c) (aA_eq V c 4) (aafter4 V c) t d

/-! ## The body obligation -/

def accPre (c : Dev nD) (t : Fin cfg0.N) : sProp 𝕄 :=
  iprop((adat V c).Φ t.castSucc ∗ (adat V c).owesAt () t.castSucc
    ∗ (∃ d, owns (c : Thread nD τ) (am0 t) fullShare ((adat V c).before 0 t d))
    ∗ (∃ d, owns (c : Thread nD τ) (am1 t) fullShare ((adat V c).before 1 t d))
    ∗ (∃ d, owns (c : Thread nD τ) (am2 t) fullShare ((adat V c).before 2 t d))
    ∗ (∃ d, owns (c : Thread nD τ) (am3 t) fullShare ((adat V c).before 3 t d))
    ∗ (∃ d, owns (c : Thread nD τ) (am4 t) fullShare ((adat V c).before 4 t d))
    ∗ (∃ d, owns (c : Thread nD τ) (am5 t) fullShare ((adat V c).before 5 t d)))

def accPost (c : Dev nD) (t : Fin cfg0.N) : sProp 𝕄 :=
  iprop((adat V c).Φ t.succ ∗ (adat V c).owesAt () t.succ
    ∗ (adat V c).leavesExact 0 t
    ∗ (adat V c).leavesExact 1 t
    ∗ (adat V c).leavesExact 2 t
    ∗ (adat V c).leavesExact 3 t
    ∗ (adat V c).leavesExact 4 t
    ∗ (adat V c).leavesExact 5 t)

set_option maxHeartbeats 4800000 in
/-- The body at any point: the inputs' memrefs hold their blocks; the point's case is read off t mod 8; the invariant hands
    over the accumulator at what the point before left (at anything at a first time tile) and takes it back at this
    point's value; nothing is owed throughout. -/
theorem sound_accBody (c : Dev nD) (t : Fin cfg0.N) :
    accPre V c t ⊢ wp frame (wpE (defs₀ (F := F)) Variants.none c none) Set.univ (bodyAt0 t) (fun _ => accPost V c t) := by
  unfold accPre accPost bodyAt0
  simp only [abefore0, abefore1, abefore2, abefore3, abefore4]
  rw [show (adat V c).owesAt () t.succ = (adat V c).owesAt () t.castSucc from rfl]
  rw [show (adat V c).Φ t.succ = accInv V c (t.val + 1) t.isLt from rfl, accInv_succ]
  have hN : t.val < 64 := lt_of_lt_of_eq t.isLt (show cfg0.N = 64 from N_0)
  rw [show (adat V c).leavesExact 0 t = owns (c : Thread nD τ) (am0 t) fullShare ((adat V c).after 0 t) from by
    unfold Dat.leavesExact; rw [alive0 t], aafter0]
  rw [show (adat V c).leavesExact 1 t = owns (c : Thread nD τ) (am1 t) fullShare ((adat V c).after 1 t) from by
    unfold Dat.leavesExact; rw [alive1 t], aafter1]
  rw [show (adat V c).leavesExact 2 t = owns (c : Thread nD τ) (am2 t) fullShare ((adat V c).after 2 t) from by
    unfold Dat.leavesExact; rw [alive2 t], aafter2]
  rw [show (adat V c).leavesExact 3 t = owns (c : Thread nD τ) (am3 t) fullShare ((adat V c).after 3 t) from by
    unfold Dat.leavesExact; rw [alive3 t], aafter3]
  rw [show (adat V c).leavesExact 4 t = owns (c : Thread nD τ) (am4 t) fullShare ((adat V c).after 4 t) from by
    unfold Dat.leavesExact; rw [alive4 t], aafter4]
  by_cases h0 : t.val % 8 = 0
  · have h1 : ¬t.val % 8 = 7 := by omega
    rw [Dat.leavesExact_idle (adat V c) 5 t (aidle5 t (fun h => h1 ((isLast_iff t).mp h))) (anoflush5 t (fun h => h1 ((isLast_iff t).mp h)))]
    rw [accAt_first V c t h0 h1]
    unfold accFirst; (try dsimp only)
    by_cases hz : t.val = 0
    · rw [accInv_castSucc V c t, accInv_zero V c _ _ hz, restA_eq']
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((isFirst_iff t).mpr h0) (fun h => h1 ((isLast_iff t).mp h)) (ablk V c 0 t) (ablk V c 1 t) (ablk V c 2 t) (ablk V c 3 t) (ablk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverFirst c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [accInv_castSucc V c t, accInv_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((isFirst_iff t).mpr h0) (fun h => h1 ((isLast_iff t).mp h)) (ablk V c 0 t) (ablk V c 1 t) (ablk V c 2 t) (ablk V c 3 t) (ablk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverFirst c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 8 = 7
    · rw [show (adat V c).leavesExact 5 t = owns (c : Thread nD τ) (am5 t) fullShare ((adat V c).after 5 t) from by
        unfold Dat.leavesExact; rw [alive5 t ((isLast_iff t).mpr h1)], aafter5]
      rw [accAt_last V c t h0 h1, outAt_last V c t h0 h1]
      unfold accLast outLast; (try dsimp only)
      rw [accInv_castSucc V c t, accInv_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((isFirst_iff t).mp h)) ((isLast_iff t).mpr h1) (ablk V c 0 t) (ablk V c 1 t) (ablk V c 2 t) (ablk V c 3 t) (ablk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _)
    · rw [Dat.leavesExact_idle (adat V c) 5 t (aidle5 t (fun h => h1 ((isLast_iff t).mp h))) (anoflush5 t (fun h => h1 ((isLast_iff t).mp h)))]
      rw [accAt_middle V c t h0 h1]
      unfold accMiddle; (try dsimp only)
      rw [accInv_castSucc V c t, accInv_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runMiddle c (grid0.coords t) _ _ _ _ _ _ _ _ _ _ _ _ _ _ (fun h => h0 ((isFirst_iff t).mp h)) (fun h => h1 ((isLast_iff t).mp h)) (ablk V c 0 t) (ablk V c 1 t) (ablk V c 2 t) (ablk V c 3 t) (ablk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverMiddle c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation for the accumulate region, at every point. -/
theorem acc_obligation (c : Dev nD) : BodyObligation (adat (F := F) V c) (defs₀ (F := F)) Variants.none () Set.univ := fun t => by
  rw [bigSep_W0, bigSep_W0]
  exact sound_accBody V c t

/-- What the launch hands the region is the invariant before the first point. -/
theorem acc_in (c : Dev nD) : Pipeline.ΦA spec0 c ⊢ (adat V c).Φ 0 := by
  rw [show (adat V c).Φ 0 = accInv V c 0 (Nat.zero_le _) from rfl, accInv_zero V c 0 _ rfl]
  try exact Idealize.SL.BI.Entails.refl _

/-- After the last point the invariant gives the scoped rest back: the accumulator's value is forgotten. -/
theorem acc_out (c : Dev nD) : (adat V c).Φ (Fin.last cfg0.N) ⊢ Pipeline.ΦA spec0 c := by
  rw [show (adat V c).Φ (Fin.last cfg0.N) = accInv V c (Fin.last cfg0.N).val (Nat.le_of_lt_succ (Fin.last cfg0.N).isLt) from rfl,
    accInv_pos V c _ _ (by rw [Fin.val_last]; have : cfg0.N = 64 := N_0; omega), restA_eq']
  iintro ⟨⟨HS, HR⟩, Hg⟩
  isplitl [HS HR]
  · isplitl [HS]; · iexists _; iexact HS
    iexact HR
  iexact Hg

end

end Cert.Kernel.Frame

end
-- ==== Proof.KernelFrame.Projection.lean ====
/-
  The projection region at the entry contents V: at each of its 50 points the body loads the whole memory block, the
  point's 16 × 1024 tile of the padded output matrix and its 1 × 1024 tile of the padded bias, and stores one whole
  256 × 1024 output block: the product plus the bias row (the skeleton's payload).  What the output's staging buffer holds
  after the body is that one store read back; the proof data say so at every point; the region's invariant is the scoped
  rest and the generator register, untouched.
-/
import proofs.«171928_j25443386262310_2_alg».proof.Proof.KernelFrame.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev pr0 : Rect S256x16 := Rect.unit (s := S256x16) ![0, 0] S256x16.size inb_S256x16_S256x16_0_0
abbrev pr1 : Rect S16x1024 := Rect.unit (s := S16x1024) ![0, 0] S16x1024.size inb_S16x1024_S16x1024_0_0
abbrev pr2 : Rect S1x1024 := Rect.unit (s := S1x1024) ![0, 0] S1x1024.size inb_S1x1024_S1x1024_0_0
abbrev pr3 : Rect S256x1024 := Rect.unit (s := S256x1024) ![0, 0] S256x1024.size inb_S256x1024_S256x1024_0_0

/-- The output block after the body, from the three input blocks: its one store read back. -/
def projOut (x0 : Vec F S256x16 .f32) (x1 : Vec F S16x1024 .f32) (x2 : Vec F S1x1024 .f32) : Vec F S256x1024 .f32 :=
  View.canon [⟨pr3, k1_pay1 (View.ld x0 pr0) (View.ld x1 pr1) (View.ld x2 pr2)⟩]

/-- That store covers the block. -/
theorem projCover (p0 : Vec F S256x1024 .f32) (y : S256x1024.Idx) :
    ∃ pc ∈ ([⟨pr3, p0⟩] : List (View.Piece (Elt F) S256x1024 .f32)), y ∈ pc.1.set :=
  View.cover_of_tiled [⟨pr3, p0⟩] S256x1024.size (by rfl) y

set_option maxHeartbeats 4000000 in
/-- The body on whole memrefs, the inputs at their contents and the output at anything, ends with the inputs as they were
    and the output at `projOut` of them. -/
theorem sound_proj (c : Dev nD) (E : Set ℕ) (i : grid1.Coords) (arg1 : Memref sig .tc .vmem S256x16 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S256x1024 .f32) (harg4 : arg4.IsWhole)
    (x0 : Vec F S256x16 .f32) (x1 : Vec F S16x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (projOut x0 x1 x2)) -∗ K ⟨⟩))
      ⊢ wp frame (wpE (defs₀ (F := F)) Variants.none c none) E (cc1__final_matmul_kernel i arg1 harg1 arg2 harg2 arg3 harg3 arg4 harg4) K := by
  simp only [cc1__final_matmul_kernel_eq_skeleton]; unfold cc1__final_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-- The projection region's proof data on core c. -/
def pdat (c : Dev nD) : Dat τ (Elt F) Unit ℕ (UR sig nD τ) ℕ cfg1 c where
  A w := V c (Pipeline.arrRef spec1 w)
  after w t := match w with
    | ⟨0, _⟩ => pblk V c 0 t
    | ⟨1, _⟩ => pblk V c 1 t
    | ⟨2, _⟩ => pblk V c 2 t
    | ⟨3, _⟩ => projOut (pblk V c 0 t) (pblk V c 1 t) (pblk V c 2 t)
  Φ _ := Pipeline.ΦA spec1 c
  q _ := fullShare
  owed _ := 0

theorem pA_eq (c : Dev nD) (w : Fin cfg1.W) : (pdat V c).A w = V c (Pipeline.arrRef spec1 w) := by
  dsimp only [pdat]
theorem pafter0 (c : Dev nD) (t : Fin cfg1.N) : (pdat V c).after 0 t = pblk V c 0 t := by dsimp only [pdat]
theorem pafter1 (c : Dev nD) (t : Fin cfg1.N) : (pdat V c).after 1 t = pblk V c 1 t := by dsimp only [pdat]
theorem pafter2 (c : Dev nD) (t : Fin cfg1.N) : (pdat V c).after 2 t = pblk V c 2 t := by dsimp only [pdat]
theorem pafter3 (c : Dev nD) (t : Fin cfg1.N) :
    (pdat V c).after 3 t = projOut (pblk V c 0 t) (pblk V c 1 t) (pblk V c 2 t) := by dsimp only [pdat]

theorem pbefore0 (c : Dev nD) (t : Fin cfg1.N) (d) : (pdat V c).before 0 t d = pblk V c 0 t :=
  pbefore0_of V (pdat V c) (pA_eq V c 0) (pafter0 V c) t d
theorem pbefore1 (c : Dev nD) (t : Fin cfg1.N) (d) : (pdat V c).before 1 t d = pblk V c 1 t :=
  pbefore1_of V (pdat V c) (pA_eq V c 1) (pafter1 V c) t d
theorem pbefore2 (c : Dev nD) (t : Fin cfg1.N) (d) : (pdat V c).before 2 t d = pblk V c 2 t :=
  pbefore2_of V (pdat V c) (pA_eq V c 2) (pafter2 V c) t d

/-- What the body is called with at point t, the windows one by one, -/
def projPre (c : Dev nD) (t : Fin cfg1.N) : sProp 𝕄 :=
  iprop((pdat V c).Φ t.castSucc ∗ (pdat V c).owesAt () t.castSucc
    ∗ (∃ d, owns (c : Thread nD τ) (st1_0 t) fullShare ((pdat V c).before 0 t d))
    ∗ (∃ d, owns (c : Thread nD τ) (st1_1 t) fullShare ((pdat V c).before 1 t d))
    ∗ (∃ d, owns (c : Thread nD τ) (st1_2 t) fullShare ((pdat V c).before 2 t d))
    ∗ (∃ d, owns (c : Thread nD τ) (st1_3 t) fullShare ((pdat V c).before 3 t d)))

/-- and what it returns. -/
def projPost (c : Dev nD) (t : Fin cfg1.N) : sProp 𝕄 :=
  iprop((pdat V c).Φ t.succ ∗ (pdat V c).owesAt () t.succ
    ∗ owns (c : Thread nD τ) (st1_0 t) fullShare ((pdat V c).after 0 t)
    ∗ owns (c : Thread nD τ) (st1_1 t) fullShare ((pdat V c).after 1 t)
    ∗ owns (c : Thread nD τ) (st1_2 t) fullShare ((pdat V c).after 2 t)
    ∗ owns (c : Thread nD τ) (st1_3 t) fullShare ((pdat V c).after 3 t))

theorem sound_projBody (c : Dev nD) (t : Fin cfg1.N) :
    projPre V c t ⊢ wp frame (wpE (defs₀ (F := F)) Variants.none c none) Set.univ (bodyAt1 t) (fun _ => projPost V c t) := by
  unfold projPre projPost bodyAt1
  simp only [pbefore0, pbefore1, pbefore2]
  rw [show (pdat V c).Φ t.succ = (pdat V c).Φ t.castSucc from rfl,
    show (pdat V c).owesAt () t.succ = (pdat V c).owesAt () t.castSucc from rfl,
    pafter0, pafter1, pafter2, pafter3]
  iintro ⟨HΦ, Ho, ⟨%d0, H0⟩, ⟨%d1, H1⟩, ⟨%d2, H2⟩, ⟨%d3, H3⟩⟩
  iapply (sound_proj c Set.univ _ _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the projection region, at every point. -/
theorem proj_obligation (c : Dev nD) : BodyObligation (pdat (F := F) V c) (defs₀ (F := F)) Variants.none () Set.univ := fun t => by
  rw [bigSep_W1, bigSep_W1]
  exact sound_projBody V c t

end

end Cert.Kernel.Frame

end
-- ==== Proof.KernelFrame.Main.lean ====
/-
  The whole run of the program: eight segments — the host operations before the accumulate region, that region, four
  stretches of host operations, the projection region, the final slice — from the launch to the return.

  The buffer contents at each segment boundary are a fold from the launch memory: a host stretch applies its operations;
  a region leaves its windows' arrays at what its write-backs fold to and every other buffer as entered.  Each region is
  entered from "every unscoped buffer at the boundary's contents, the generator register at some state, nothing owed"
  and left in the same form at the next boundary.  The run's conclusion reads EVERY unscoped buffer of the final memory
  off the last boundary's contents, so both the arguments' preservation and the result's value follow from it.
-/
import proofs.«171928_j25443386262310_2_alg».proof.Proof.KernelFrame.Accumulate
import proofs.«171928_j25443386262310_2_alg».proof.Proof.KernelFrame.Projection
import proofs.«171928_j25443386262310_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the accumulate region: its arrays at what the pipeline leaves, every other buffer as entered. -/
def W2 (c : Dev nD) : Valuation τ sig (Elt F) :=
  Pipeline.withArrays spec0 c (W1 m c) fun w => (adat (V1 m) c).arrAt w cfg0.N
theorem W2_arr (c : Dev nD) (w : Fin cfg0.W) :
    W2 m c (Proc.devRef .tc (Pipeline.arrRef spec0 w)) = (adat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (adat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev V6 : (c : Dev nD) → (b : Ref sig .tc) → Buf (Elt F) ((c : Thread nD τ).loc b) := fun c b => W6 m c b
/-- After the projection region. -/
def W7 (c : Dev nD) : Valuation τ sig (Elt F) :=
  Pipeline.withArrays spec1 c (W6 m c) fun w => (pdat (V6 m) c).arrAt w cfg1.N
theorem W7_arr (c : Dev nD) (w : Fin cfg1.W) :
    W7 m c (Proc.devRef .tc (Pipeline.arrRef spec1 w)) = (pdat (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (pdat (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
/-- After the final slice: the contents at the return. -/
abbrev W8 : Dev nD → Valuation τ sig (Elt F) := fun c => StableHlo.after hostOps2 (W7 m c)

/-! ## A buffer no host operation writes and no region stages is as launched at the return -/

theorem W8_bypass (c : Dev nD) (r : Ref sig .tc) (h0 : r ∉ (hostOps0_W : List (Ref sig .tc))) (h1 : r ∉ (hostOps1_W : List (Ref sig .tc)))
    (h11 : r ∉ (hostOps1_1_W : List (Ref sig .tc))) (h12 : r ∉ (hostOps1_2_W : List (Ref sig .tc))) (h13 : r ∉ (hostOps1_3_W : List (Ref sig .tc)))
    (h2 : r ∉ (hostOps2_W : List (Ref sig .tc))) (ha0 : ∀ w, Pipeline.arrRef spec0 w ≠ r) (ha1 : ∀ w, Pipeline.arrRef spec1 w ≠ r) :
    W8 m c (Proc.devRef .tc r) = m ((c : Thread nD τ).loc r) :=
  calc W8 m c (Proc.devRef .tc r)
    _ = W7 m c (Proc.devRef .tc r) := StableHlo.after_of_writes_sub hostOps2 _ hostOps2_writes h2
    _ = W6 m c (Proc.devRef .tc r) := W7_of_ne m c r ha1
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

/-- An argument the accumulate region stages as an INPUT window (w) is as launched at the return. -/
theorem W8_staged (c : Dev nD) (r : Ref sig .tc) (w : Fin cfg0.W) (hw : Pipeline.arrRef spec0 w = r) (hin : (cfg0.win w).isOut = false)
    (h0 : r ∉ (hostOps0_W : List (Ref sig .tc))) (h1 : r ∉ (hostOps1_W : List (Ref sig .tc)))
    (h11 : r ∉ (hostOps1_1_W : List (Ref sig .tc))) (h12 : r ∉ (hostOps1_2_W : List (Ref sig .tc))) (h13 : r ∉ (hostOps1_3_W : List (Ref sig .tc)))
    (h2 : r ∉ (hostOps2_W : List (Ref sig .tc))) (ha1 : ∀ w, Pipeline.arrRef spec1 w ≠ r) :
    W8 m c (Proc.devRef .tc r) = m ((c : Thread nD τ).loc r) := by
  subst hw
  calc W8 m c (Proc.devRef .tc (Pipeline.arrRef spec0 w))
    _ = W7 m c (Proc.devRef .tc (Pipeline.arrRef spec0 w)) := StableHlo.after_of_writes_sub hostOps2 _ hostOps2_writes h2
    _ = W6 m c (Proc.devRef .tc (Pipeline.arrRef spec0 w)) := W7_of_ne m c _ ha1
    _ = W5 m c (Proc.devRef .tc (Pipeline.arrRef spec0 w)) := StableHlo.after_of_writes_sub hostOps1_3 _ hostOps1_3_writes h13
    _ = W4 m c (Proc.devRef .tc (Pipeline.arrRef spec0 w)) := StableHlo.after_of_writes_sub hostOps1_2 _ hostOps1_2_writes h12
    _ = W3 m c (Proc.devRef .tc (Pipeline.arrRef spec0 w)) := StableHlo.after_of_writes_sub hostOps1_1 _ hostOps1_1_writes h11
    _ = W2 m c (Proc.devRef .tc (Pipeline.arrRef spec0 w)) := StableHlo.after_of_writes_sub hostOps1 _ hostOps1_writes h1
    _ = W1 m c (Proc.devRef .tc (Pipeline.arrRef spec0 w)) := (W2_arr m c w).trans (((adat (V1 m) c).arrAt_in w hin _).trans (aA_eq (V1 m) c w))
    _ = W0 m c (Proc.devRef .tc (Pipeline.arrRef spec0 w)) := StableHlo.after_of_writes_sub hostOps0 _ hostOps0_writes h0
    _ = m ((c : Thread nD τ).loc (Pipeline.arrRef spec0 w)) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => adat (V1 m) c
  | ⟨1, _⟩ => fun c => pdat (V6 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- The accumulate region: entered from every unscoped buffer at `W1`, left at `W2`; the scoped rest and the generator
    register go into the region's invariant (whose first value is the scoped rest at anything) and come back out of its
    last value (the accumulator's contents forgotten). -/
def accRegion : Pipeline.RegionSeg (pcfgs (F := F)) adm (pdats m) () defs₀ 𝒱₀ L lv 0 where
  hbody c := (acc_obligation (V1 m) c).loose
  win := launch0.win.to₀
  block_pos := launch0.block_pos
  stage_whole := launch0.stage_whole
  K := PEmpty
  osem k := k.elim
  ho := Pipeline.OwnSemFacts.none _
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec0 c from by
      unfold Pipeline.ΦA
      iintro ⟨Hp, -, Hr⟩
      isplitl [Hr]; · iexact Hr
      iexact Hp).trans (acc_in (V1 m) c)
  hout c := by
    rw [Pipeline.ownSems0_none]
    exact (acc_out (V1 m) c).trans (show Pipeline.ΦA spec0 c ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection region: entered from every unscoped buffer at `W6`, left at `W7`. -/
def projRegion : Pipeline.RegionSeg (pcfgs (F := F)) adm (pdats m) () defs₀ 𝒱₀ L lv 1 where
  hbody c := (proj_obligation (V6 m) c).loose
  win := launch1.win.to₀
  block_pos := launch1.block_pos
  stage_whole := launch1.stage_whole
  K := PEmpty
  osem k := k.elim
  ho := Pipeline.OwnSemFacts.none _
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (accRegion m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (projRegion m),
    .host (hseg hostOps2 hostOps2_sub hostOps2_fresh (W7 m)) ]

set_option backward.isDefEq.respectTransparency.types false in
/-- THE RUN: from any memory with zero counters every weakly fair execution of @main terminates, nothing faulting, and
    the final memory holds every unscoped buffer at the return's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The eight arguments end as launched, and the result buffer holds the return's contents. -/
theorem run_named : θ_run defs (onTc (τ := τ) (main (F := F))) ⟨m, fun _ => 0, ρ⟩ (fun r => ∀ c : Dev nD,
      r.2.mem ((c.tc : Thread nD τ).loc main_v14) = W8 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v14 (by decide)),
    (h c _ (mem_uc main_arg0 (by decide))).trans (W8_bypass m c main_arg0 (by decide) (by decide) (by decide) (by decide) (by decide) (by decide) (by decide) (by decide)),
    (h c _ (mem_uc main_arg1 (by decide))).trans (W8_bypass m c main_arg1 (by decide) (by decide) (by decide) (by decide) (by decide) (by decide) (by decide) (by decide)),
    (h c _ (mem_uc main_arg2 (by decide))).trans (W8_staged m c main_arg2 1 rfl rfl (by decide) (by decide) (by decide) (by decide) (by decide) (by decide) (by decide)),
    (h c _ (mem_uc main_arg3 (by decide))).trans (W8_bypass m c main_arg3 (by decide) (by decide) (by decide) (by decide) (by decide) (by decide) (by decide) (by decide)),
    (h c _ (mem_uc main_arg4 (by decide))).trans (W8_staged m c main_arg4 3 rfl rfl (by decide) (by decide) (by decide) (by decide) (by decide) (by decide) (by decide)),
    (h c _ (mem_uc main_arg5 (by decide))).trans (W8_bypass m c main_arg5 (by decide) (by decide) (by decide) (by decide) (by decide) (by decide) (by decide) (by decide)),
    (h c _ (mem_uc main_arg6 (by decide))).trans (W8_bypass m c main_arg6 (by decide) (by decide) (by decide) (by decide) (by decide) (by decide) (by decide) (by decide)),
    (h c _ (mem_uc main_arg7 (by decide))).trans (W8_bypass m c main_arg7 (by decide) (by decide) (by decide) (by decide) (by decide) (by decide) (by decide) (by decide))⟩)
    (run_all m ρ)

end Cert.Kernel.Frame

end
-- ==== Proof.KernelIdealFrame.Shared.lean ====
/-
  What the two kernel regions' frame arguments share, at a parameter V: the core's buffer contents when a region is entered.

  The accumulate region walks an 8 × 8 grid (row block b, time tile j; point t = 8·b + j).  Its body resets a scratch
  accumulator when j = 0, adds the tile's contribution at every point, and copies the accumulator to the output block only
  when j = 7; so a point is in one of three cases, decided by t mod 8, and the output window is idle (neither stored into
  nor written back) unless j = 7.  Every input window holds its block of the entry contents at every point, whether it was
  fetched there or not.  The projection region walks 50 column tiles; each point stores its whole output block.
-/
import proofs.«171928_j25443386262310_2_alg».proof.Proof.Gen.KernelIdeal.Launch
import proofs.«171928_j25443386262310_2_alg».proof.Proof.Gen.KernelIdeal.Skeleton
import proofs.«171928_j25443386262310_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The accumulate region: blocks of the entry contents -/

/-- Window w's block at point t of the accumulate region, read off the entry contents. -/
def ablk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, for any proof data over the entry contents whose body leaves it in place. -/
theorem abefore0_of {c : Dev nD} (dat : Dat τ (Elt F) Unit ℕ (UR sig nD τ) ℕ cfg0 c) (hA : dat.A 0 = V c (Pipeline.arrRef spec0 0))
    (hafter : ∀ t, dat.after 0 t = ablk V c 0 t) (t : Fin cfg0.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)

/-- Input window 1 holds its block at every point, for any proof data over the entry contents whose body leaves it in place. -/
theorem abefore1_of {c : Dev nD} (dat : Dat τ (Elt F) Unit ℕ (UR sig nD τ) ℕ cfg0 c) (hA : dat.A 1 = V c (Pipeline.arrRef spec0 1))
    (hafter : ∀ t, dat.after 1 t = ablk V c 1 t) (t : Fin cfg0.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

/-- Input window 2 holds its block at every point, for any proof data over the entry contents whose body leaves it in place. -/
theorem abefore2_of {c : Dev nD} (dat : Dat τ (Elt F) Unit ℕ (UR sig nD τ) ℕ cfg0 c) (hA : dat.A 2 = V c (Pipeline.arrRef spec0 2))
    (hafter : ∀ t, dat.after 2 t = ablk V c 2 t) (t : Fin cfg0.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

/-- Input window 3 holds its block at every point, for any proof data over the entry contents whose body leaves it in place. -/
theorem abefore3_of {c : Dev nD} (dat : Dat τ (Elt F) Unit ℕ (UR sig nD τ) ℕ cfg0 c) (hA : dat.A 3 = V c (Pipeline.arrRef spec0 3))
    (hafter : ∀ t, dat.after 3 t = ablk V c 3 t) (t : Fin cfg0.N) (d) : dat.before 3 t d = ablk V c 3 t :=
  (dat.before_in_eq_fetched 3 rfl (fun _ => rfl) (fun _ _ _ => rfl) (fun t => by rw [hafter]; unfold Dat.blockOf ablk; rw [hA]; try rfl) t d).trans
    (by unfold Dat.fetched Dat.blockOf ablk; rw [hA]; try rfl)

/-- Input window 4 holds its block at every point, for any proof data over the entry contents whose body leaves it in place. -/
theorem abefore4_of {c : Dev nD} (dat : Dat τ (Elt F) Unit ℕ (UR sig nD τ) ℕ cfg0 c) (hA : dat.A 4 = V c (Pipeline.arrRef spec0 4))
    (hafter : ∀ t, dat.after 4 t = ablk V c 4 t) (t : Fin cfg0.N) (d) : dat.before 4 t d = ablk V c 4 t :=
  (dat.before_in_eq_fetched 4 rfl (fun _ => rfl) (fun _ _ _ => rfl) (fun t => by rw [hafter]; unfold Dat.blockOf ablk; rw [hA]; try rfl) t d).trans
    (by unfold Dat.fetched Dat.blockOf ablk; rw [hA]; try rfl)

/-! ## The projection region: blocks of the entry contents -/

/-- Window w's block at point t of the projection region, read off the entry contents. -/
def pblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of the projection holds its block at every point. -/
theorem pbefore0_of {c : Dev nD} (dat : Dat τ (Elt F) Unit ℕ (UR sig nD τ) ℕ cfg1 c) (hA : dat.A 0 = V c (Pipeline.arrRef spec1 0))
    (hafter : ∀ t, dat.after 0 t = pblk V c 0 t) (t : Fin cfg1.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)

/-- Input window 1 of the projection holds its block at every point. -/
theorem pbefore1_of {c : Dev nD} (dat : Dat τ (Elt F) Unit ℕ (UR sig nD τ) ℕ cfg1 c) (hA : dat.A 1 = V c (Pipeline.arrRef spec1 1))
    (hafter : ∀ t, dat.after 1 t = pblk V c 1 t) (t : Fin cfg1.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)

/-- Input window 2 of the projection holds its block at every point. -/
theorem pbefore2_of {c : Dev nD} (dat : Dat τ (Elt F) Unit ℕ (UR sig nD τ) ℕ cfg1 c) (hA : dat.A 2 = V c (Pipeline.arrRef spec1 2))
    (hafter : ∀ t, dat.after 2 t = pblk V c 2 t) (t : Fin cfg1.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

end

/-! ## The accumulate body's two conditions, decided over the grid -/

/-- "This is the first time tile" (the reset of the accumulator), as the body computes it from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last time tile" (the copy of the accumulator to the output block). -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the accumulate region's windows are idle -/

theorem alive0 : ∀ t : Fin cfg0.N, cfg0.idle 0 (grid0.coords t) = false := by decide +kernel
theorem alive1 : ∀ t : Fin cfg0.N, cfg0.idle 1 (grid0.coords t) = false := by decide +kernel
theorem alive2 : ∀ t : Fin cfg0.N, cfg0.idle 2 (grid0.coords t) = false := by decide +kernel
theorem alive3 : ∀ t : Fin cfg0.N, cfg0.idle 3 (grid0.coords t) = false := by decide +kernel
theorem alive4 : ∀ t : Fin cfg0.N, cfg0.idle 4 (grid0.coords t) = false := by decide +kernel
/-- Away from the last time tile the output window is idle and not written back. -/
theorem aidle5 : ∀ t : Fin cfg0.N, ¬isLast (grid0.coords t) → cfg0.idle 5 (grid0.coords t) = true := by decide +kernel
theorem anoflush5 : ∀ t : Fin cfg0.N, ¬isLast (grid0.coords t) → (cfg0.win 5).flush t = false := by decide +kernel
/-- At the last time tile it is live. -/
theorem alive5 : ∀ t : Fin cfg0.N, isLast (grid0.coords t) → cfg0.idle 5 (grid0.coords t) = false := by decide +kernel

/-! ## The memrefs the accumulate body is called with -/

abbrev am0 (t : Fin cfg0.N) : Memref sig .tc .vmem S32x1024x16 .f32 := win0_0.stage (cfg0.slots t 0)
abbrev ah0 (t : Fin cfg0.N) : (am0 t).IsWhole := hstage0_0 ((cfg0.slots t 0).cast nbuf0_0)
abbrev am1 (t : Fin cfg0.N) : Memref sig .tc .vmem S16x1 .f32 := win0_1.stage (cfg0.slots t 1)
abbrev ah1 (t : Fin cfg0.N) : (am1 t).IsWhole := hstage0_1 ((cfg0.slots t 1).cast nbuf0_1)
abbrev am2 (t : Fin cfg0.N) : Memref sig .tc .vmem S1x1 .f32 := win0_2.stage (cfg0.slots t 2)
abbrev ah2 (t : Fin cfg0.N) : (am2 t).IsWhole := hstage0_2 ((cfg0.slots t 2).cast nbuf0_2)
abbrev am3 (t : Fin cfg0.N) : Memref sig .tc .vmem S16x16 .f32 := win0_3.stage (cfg0.slots t 3)
abbrev ah3 (t : Fin cfg0.N) : (am3 t).IsWhole := hstage0_3 ((cfg0.slots t 3).cast nbuf0_3)
abbrev am4 (t : Fin cfg0.N) : Memref sig .tc .vmem S1x16 .f32 := win0_4.stage (cfg0.slots t 4)
abbrev ah4 (t : Fin cfg0.N) : (am4 t).IsWhole := hstage0_4 ((cfg0.slots t 4).cast nbuf0_4)
abbrev am5 (t : Fin cfg0.N) : Memref sig .tc .vmem S32x16 .f32 := win0_5.stage (cfg0.slots t 5)
abbrev ah5 (t : Fin cfg0.N) : (am5 t).IsWhole := hstage0_5 ((cfg0.slots t 5).cast nbuf0_5)
/-- The accumulator: a whole scoped buffer of the kernel's own. -/
abbrev accM : Memref sig .tc .vmem S32x16 .f32 := Memref.whole cc0_scratch0
/-- The views through which the output block's and the accumulator's contents are stated. -/
abbrev outV : View sig .tc .vmem S32x16 .f32 := (Memref.whole cc0_stg5_0 : Memref sig .tc .vmem S32x16 .f32).view
abbrev accV : View sig .tc .vmem S32x16 .f32 := accM.view

/-- The accumulate region's scoped rest, with the accumulator as a memref owned at some contents. -/
theorem restA_eq (c : Dev nD) :
    (Pipeline.ΦA spec0 c : sProp 𝕄)
      = iprop(iprop((∃ d, owns (c : Thread nD τ) accM fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [accM, owns_whole]; try rfl

end Cert.KernelIdeal.Frame

end
-- ==== Proof.KernelIdealFrame.RunFirst.lean ====
/-
  The accumulate body at a first time tile (the reset is taken, the copy-out is not): run on whole memrefs holding the
  five input blocks, the output block at contents it hands back untouched and the accumulator at anything, it ends with
  the inputs as they were and the accumulator overwritten; the pieces written are found by running the body.
-/
import proofs.«171928_j25443386262310_2_alg».proof.Proof.KernelIdealFrame.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : isFirst i) (hc1 : ¬isLast i)
    (x0 : Vec F S32x1024x16 .f32) (x1 : Vec F S16x1 .f32) (x2 : Vec F S1x1 .f32) (x3 : Vec F S16x16 .f32) (x4 : Vec F S1x16 .f32) :
    Σ' (L5 : List (View.Piece (Elt F) S32x16 .f32)), { LS : List (View.Piece (Elt F) S32x16 .f32) //
      ∀ (xi5 : Vec F S32x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨[], ?_, fun xi5 E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Frame

end
-- ==== Proof.KernelIdealFrame.RunMiddle.lean ====
/-
  The accumulate body at a middle time tile (neither the reset nor the copy-out is taken): the accumulator comes in at
  what the point before left and goes out with this tile's contribution added; the output block is handed back untouched.
-/
import proofs.«171928_j25443386262310_2_alg».proof.Proof.KernelIdealFrame.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMiddle (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : ¬isLast i)
    (x0 : Vec F S32x1024x16 .f32) (x1 : Vec F S16x1 .f32) (x2 : Vec F S1x1 .f32) (x3 : Vec F S16x16 .f32) (x4 : Vec F S1x16 .f32) (xs : Vec F S32x16 .f32) :
    Σ' (L5 : List (View.Piece (Elt F) S32x16 .f32)), { LS : List (View.Piece (Elt F) S32x16 .f32) //
      ∀ (xi5 : Vec F S32x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨[], ?_, fun xi5 E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Frame

end
-- ==== Proof.KernelIdealFrame.RunLast.lean ====
/-
  The accumulate body at a last time tile (the copy-out is taken, the reset is not): the accumulator comes in at what the
  point before left, goes out with this tile's contribution added, and the output block, entered at anything, ends
  overwritten with that sum.
-/
import proofs.«171928_j25443386262310_2_alg».proof.Proof.KernelIdealFrame.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : isLast i)
    (x0 : Vec F S32x1024x16 .f32) (x1 : Vec F S16x1 .f32) (x2 : Vec F S1x1 .f32) (x3 : Vec F S16x16 .f32) (x4 : Vec F S1x16 .f32) (xs : Vec F S32x16 .f32) :
    Σ' (L5 : List (View.Piece (Elt F) S32x16 .f32)), { LS : List (View.Piece (Elt F) S32x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨?_, ?_, fun E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Frame

end
-- ==== Proof.KernelIdealFrame.Accumulate.lean ====
/-
  The accumulate region at the entry contents V.

  What the accumulator holds after each point is defined by recursion on the point: at a first time tile what that case's
  stores leave (over the point's input blocks), at any other tile what its case leaves over the blocks AND what the point
  before left.  The output block's staging buffer is stored into only at a last time tile, with what that case leaves; at
  the other points the window is idle and its entry in the proof data is never consulted.  The region's invariant before
  a point is the scoped rest with the accumulator at the recursion's value (before the first point: at anything).
-/
import proofs.«171928_j25443386262310_2_alg».proof.Proof.KernelIdealFrame.RunFirst
import proofs.«171928_j25443386262310_2_alg».proof.Proof.KernelIdealFrame.RunMiddle
import proofs.«171928_j25443386262310_2_alg».proof.Proof.KernelIdealFrame.RunLast

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

theorem accCoverFirst (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : isFirst i) (hc1 : ¬isLast i) (x0 : Vec F S32x1024x16 .f32) (x1 : Vec F S16x1 .f32) (x2 : Vec F S1x1 .f32) (x3 : Vec F S16x16 .f32) (x4 : Vec F S1x16 .f32) (y : S32x16.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S32x16.size (by sl_kernel_rfl) y

/-- The accumulator after a first time tile: the case's pieces read back. -/
def accFirst (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : isFirst i) (hc1 : ¬isLast i) (x0 : Vec F S32x1024x16 .f32) (x1 : Vec F S16x1 .f32) (x2 : Vec F S1x1 .f32) (x3 : Vec F S16x16 .f32) (x4 : Vec F S1x16 .f32) : Vec F S32x16 .f32 :=
  accV.read (Elt F) (accV.writes (Elt F) accV.junk (runFirst c i arg2 harg2 arg3 harg3 arg4 harg4 arg5 harg5 arg6 harg6 arg7 harg7 arg8 harg8 hc0 hc1 x0 x1 x2 x3 x4).2.1)

theorem accCoverMiddle (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : ¬isLast i) (x0 : Vec F S32x1024x16 .f32) (x1 : Vec F S16x1 .f32) (x2 : Vec F S1x1 .f32) (x3 : Vec F S16x16 .f32) (x4 : Vec F S1x16 .f32) (xs : Vec F S32x16 .f32) (y : S32x16.Idx) :
    ∃ pc ∈ (runMiddle c i arg2 harg2 arg3 harg3 arg4 harg4 arg5 harg5 arg6 harg6 arg7 harg7 arg8 harg8 hc0 hc1 x0 x1 x2 x3 x4 xs).2.1, y ∈ pc.1.set :=
  View.cover_of_tiledL (runMiddle c i arg2 harg2 arg3 harg3 arg4 harg4 arg5 harg5 arg6 harg6 arg7 harg7 arg8 harg8 hc0 hc1 x0 x1 x2 x3 x4 xs).2.1 S32x16.size (by sl_kernel_rfl) y

/-- The accumulator after a middle time tile, over what the point before left. -/
def accMiddle (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : ¬isLast i) (x0 : Vec F S32x1024x16 .f32) (x1 : Vec F S16x1 .f32) (x2 : Vec F S1x1 .f32) (x3 : Vec F S16x16 .f32) (x4 : Vec F S1x16 .f32) (xs : Vec F S32x16 .f32) : Vec F S32x16 .f32 :=
  accV.read (Elt F) (accV.writes (Elt F) accV.junk (runMiddle c i arg2 harg2 arg3 harg3 arg4 harg4 arg5 harg5 arg6 harg6 arg7 harg7 arg8 harg8 hc0 hc1 x0 x1 x2 x3 x4 xs).2.1)

theorem accCoverLast (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : isLast i) (x0 : Vec F S32x1024x16 .f32) (x1 : Vec F S16x1 .f32) (x2 : Vec F S1x1 .f32) (x3 : Vec F S16x16 .f32) (x4 : Vec F S1x16 .f32) (xs : Vec F S32x16 .f32) (y : S32x16.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S32x16.size (by sl_kernel_rfl) y

/-- The accumulator after a last time tile, over what the point before left. -/
def accLast (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : isLast i) (x0 : Vec F S32x1024x16 .f32) (x1 : Vec F S16x1 .f32) (x2 : Vec F S1x1 .f32) (x3 : Vec F S16x16 .f32) (x4 : Vec F S1x16 .f32) (xs : Vec F S32x16 .f32) : Vec F S32x16 .f32 :=
  accV.read (Elt F) (accV.writes (Elt F) accV.junk (runLast c i arg2 harg2 arg3 harg3 arg4 harg4 arg5 harg5 arg6 harg6 arg7 harg7 arg8 harg8 hc0 hc1 x0 x1 x2 x3 x4 xs).2.1)

theorem outCoverLast (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : isLast i) (x0 : Vec F S32x1024x16 .f32) (x1 : Vec F S16x1 .f32) (x2 : Vec F S1x1 .f32) (x3 : Vec F S16x16 .f32) (x4 : Vec F S1x16 .f32) (xs : Vec F S32x16 .f32) (y : S32x16.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S32x16.size (by sl_kernel_rfl) y

/-- The output block's staging buffer after a last time tile. -/
def outLast (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬isFirst i) (hc1 : isLast i) (x0 : Vec F S32x1024x16 .f32) (x1 : Vec F S16x1 .f32) (x2 : Vec F S1x1 .f32) (x3 : Vec F S16x16 .f32) (x4 : Vec F S1x16 .f32) (xs : Vec F S32x16 .f32) : Vec F S32x16 .f32 :=
  outV.read (Elt F) (outV.writes (Elt F) outV.junk (runLast c i arg2 harg2 arg3 harg3 arg4 harg4 arg5 harg5 arg6 harg6 arg7 harg7 arg8 harg8 hc0 hc1 x0 x1 x2 x3 x4 xs).1)

/-! ## The accumulator, point by point -/

/-- What the accumulator holds after the body at position n. -/
def accAt (c : Dev nD) : (n : ℕ) → n < cfg0.N → Vec F S32x16 .f32
  | 0, hn => accFirst c (grid0.coords ⟨0, hn⟩) (am0 ⟨0, hn⟩) (ah0 ⟨0, hn⟩) (am1 ⟨0, hn⟩) (ah1 ⟨0, hn⟩) (am2 ⟨0, hn⟩) (ah2 ⟨0, hn⟩) (am3 ⟨0, hn⟩) (ah3 ⟨0, hn⟩) (am4 ⟨0, hn⟩) (ah4 ⟨0, hn⟩) (am5 ⟨0, hn⟩) (ah5 ⟨0, hn⟩) accM (Memref.isWhole_whole _) ((isFirst_iff ⟨0, hn⟩).mpr (Nat.zero_mod _)) (fun h => (fun h => by (try dsimp only at h); omega) ((isLast_iff ⟨0, hn⟩).mp h)) (ablk V c 0 ⟨0, hn⟩) (ablk V c 1 ⟨0, hn⟩) (ablk V c 2 ⟨0, hn⟩) (ablk V c 3 ⟨0, hn⟩) (ablk V c 4 ⟨0, hn⟩)
  | n + 1, hn =>
    if h0 : (n + 1) % 8 = 0 then
      accFirst c (grid0.coords ⟨n + 1, hn⟩) (am0 ⟨n + 1, hn⟩) (ah0 ⟨n + 1, hn⟩) (am1 ⟨n + 1, hn⟩) (ah1 ⟨n + 1, hn⟩) (am2 ⟨n + 1, hn⟩) (ah2 ⟨n + 1, hn⟩) (am3 ⟨n + 1, hn⟩) (ah3 ⟨n + 1, hn⟩) (am4 ⟨n + 1, hn⟩) (ah4 ⟨n + 1, hn⟩) (am5 ⟨n + 1, hn⟩) (ah5 ⟨n + 1, hn⟩) accM (Memref.isWhole_whole _) ((isFirst_iff ⟨n + 1, hn⟩).mpr h0) (fun h => (fun h => by (try dsimp only at h); omega) ((isLast_iff ⟨n + 1, hn⟩).mp h)) (ablk V c 0 ⟨n + 1, hn⟩) (ablk V c 1 ⟨n + 1, hn⟩) (ablk V c 2 ⟨n + 1, hn⟩) (ablk V c 3 ⟨n + 1, hn⟩) (ablk V c 4 ⟨n + 1, hn⟩)
    else
      if h1 : (n + 1) % 8 = 7 then
        accLast c (grid0.coords ⟨n + 1, hn⟩) (am0 ⟨n + 1, hn⟩) (ah0 ⟨n + 1, hn⟩) (am1 ⟨n + 1, hn⟩) (ah1 ⟨n + 1, hn⟩) (am2 ⟨n + 1, hn⟩) (ah2 ⟨n + 1, hn⟩) (am3 ⟨n + 1, hn⟩) (ah3 ⟨n + 1, hn⟩) (am4 ⟨n + 1, hn⟩) (ah4 ⟨n + 1, hn⟩) (am5 ⟨n + 1, hn⟩) (ah5 ⟨n + 1, hn⟩) accM (Memref.isWhole_whole _) (fun h => h0 ((isFirst_iff ⟨n + 1, hn⟩).mp h)) ((isLast_iff ⟨n + 1, hn⟩).mpr h1) (ablk V c 0 ⟨n + 1, hn⟩) (ablk V c 1 ⟨n + 1, hn⟩) (ablk V c 2 ⟨n + 1, hn⟩) (ablk V c 3 ⟨n + 1, hn⟩) (ablk V c 4 ⟨n + 1, hn⟩) (accAt c n (Nat.lt_of_succ_lt hn))
      else
        accMiddle c (grid0.coords ⟨n + 1, hn⟩) (am0 ⟨n + 1, hn⟩) (ah0 ⟨n + 1, hn⟩) (am1 ⟨n + 1, hn⟩) (ah1 ⟨n + 1, hn⟩) (am2 ⟨n + 1, hn⟩) (ah2 ⟨n + 1, hn⟩) (am3 ⟨n + 1, hn⟩) (ah3 ⟨n + 1, hn⟩) (am4 ⟨n + 1, hn⟩) (ah4 ⟨n + 1, hn⟩) (am5 ⟨n + 1, hn⟩) (ah5 ⟨n + 1, hn⟩) accM (Memref.isWhole_whole _) (fun h => h0 ((isFirst_iff ⟨n + 1, hn⟩).mp h)) (fun h => h1 ((isLast_iff ⟨n + 1, hn⟩).mp h)) (ablk V c 0 ⟨n + 1, hn⟩) (ablk V c 1 ⟨n + 1, hn⟩) (ablk V c 2 ⟨n + 1, hn⟩) (ablk V c 3 ⟨n + 1, hn⟩) (ablk V c 4 ⟨n + 1, hn⟩) (accAt c n (Nat.lt_of_succ_lt hn))

theorem accAt_first (c : Dev nD) (t : Fin cfg0.N) (h0 : t.val % 8 = 0) (h1 : ¬t.val % 8 = 7) :
    accAt V c t.val t.isLt = accFirst c (grid0.coords t) (am0 t) (ah0 t) (am1 t) (ah1 t) (am2 t) (ah2 t) (am3 t) (ah3 t) (am4 t) (ah4 t) (am5 t) (ah5 t) accM (Memref.isWhole_whole _) ((isFirst_iff t).mpr h0) (fun h => h1 ((isLast_iff t).mp h)) (ablk V c 0 t) (ablk V c 1 t) (ablk V c 2 t) (ablk V c 3 t) (ablk V c 4 t) := by
  obtain ⟨n, hn⟩ := t
  cases n with
  | zero => exact rfl
  | succ n => exact (dif_pos h0).trans rfl

theorem accAt_middle (c : Dev nD) (t : Fin cfg0.N) (h0 : ¬t.val % 8 = 0) (h1 : ¬t.val % 8 = 7) :
    accAt V c t.val t.isLt = accMiddle c (grid0.coords t) (am0 t) (ah0 t) (am1 t) (ah1 t) (am2 t) (ah2 t) (am3 t) (ah3 t) (am4 t) (ah4 t) (am5 t) (ah5 t) accM (Memref.isWhole_whole _) (fun h => h0 ((isFirst_iff t).mp h)) (fun h => h1 ((isLast_iff t).mp h)) (ablk V c 0 t) (ablk V c 1 t) (ablk V c 2 t) (ablk V c 3 t) (ablk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt V c t.val t.isLt = accLast c (grid0.coords t) (am0 t) (ah0 t) (am1 t) (ah1 t) (am2 t) (ah2 t) (am3 t) (ah3 t) (am4 t) (ah4 t) (am5 t) (ah5 t) accM (Memref.isWhole_whole _) (fun h => h0 ((isFirst_iff t).mp h)) ((isLast_iff t).mpr h1) (ablk V c 0 t) (ablk V c 1 t) (ablk V c 2 t) (ablk V c 3 t) (ablk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point t: at a last time tile what that case stores
    (over what the point before left in the accumulator); elsewhere a placeholder nothing consults. -/
def outAt (c : Dev nD) (t : Fin cfg0.N) : Vec F S32x16 .f32 :=
  if h1 : t.val % 8 = 7 then
    outLast c (grid0.coords t) (am0 t) (ah0 t) (am1 t) (ah1 t) (am2 t) (ah2 t) (am3 t) (ah3 t) (am4 t) (ah4 t) (am5 t) (ah5 t) accM (Memref.isWhole_whole _) (fun h => (fun h => by omega) ((isFirst_iff t).mp h)) ((isLast_iff t).mpr h1) (ablk V c 0 t) (ablk V c 1 t) (ablk V c 2 t) (ablk V c 3 t) (ablk V c 4 t) (accAt V c (t.val - 1) (Nat.lt_of_le_of_lt (Nat.sub_le _ _) t.isLt))
  else outV.read (Elt F) outV.junk

theorem outAt_last (c : Dev nD) (t : Fin cfg0.N) (h0 : ¬t.val % 8 = 0) (h1 : t.val % 8 = 7) :
    outAt V c t = outLast c (grid0.coords t) (am0 t) (ah0 t) (am1 t) (ah1 t) (am2 t) (ah2 t) (am3 t) (ah3 t) (am4 t) (ah4 t) (am5 t) (ah5 t) accM (Memref.isWhole_whole _) (fun h => h0 ((isFirst_iff t).mp h)) ((isLast_iff t).mpr h1) (ablk V c 0 t) (ablk V c 1 t) (ablk V c 2 t) (ablk V c 3 t) (ablk V c 4 t) (accAt V c (t.val - 1) (Nat.lt_of_le_of_lt (Nat.sub_le _ _) t.isLt)) := by
  unfold outAt; exact (dif_pos h1).trans rfl

/-! ## The region's invariant -/

/-- The scoped buffers of the other region, each whole at some contents. -/
abbrev otherScoped (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem restA_eq' (c : Dev nD) :
    (Pipeline.ΦA spec0 c : sProp 𝕄) = iprop(iprop((∃ d, owns (c : Thread nD τ) accM fullShare d) ∗ otherScoped (F := F) c) ∗ (∃ r, prngReg c r)) :=
  restA_eq c

/-- The invariant before position n: before the first point the scoped rest at anything; afterwards the accumulator at
    what the point before left. -/
def accInv (c : Dev nD) : (n : ℕ) → n ≤ cfg0.N → sProp 𝕄
  | 0, _ => Pipeline.ΦA spec0 c
  | n + 1, hn => iprop(iprop(owns (c : Thread nD τ) accM fullShare (accAt V c n hn) ∗ otherScoped (F := F) c) ∗ (∃ r, prngReg c r))

theorem accInv_zero (c : Dev nD) (n : ℕ) (h : n ≤ cfg0.N) (hz : n = 0) : accInv V c n h = Pipeline.ΦA spec0 c := by
  subst hz; rfl

theorem accInv_succ (c : Dev nD) (n : ℕ) (hn : n < cfg0.N) :
    accInv V c (n + 1) hn = iprop(iprop(owns (c : Thread nD τ) accM fullShare (accAt V c n hn) ∗ otherScoped (F := F) c) ∗ (∃ r, prngReg c r)) := rfl

theorem accInv_pos (c : Dev nD) (n : ℕ) (h : n ≤ cfg0.N) (hz : n ≠ 0) :
    accInv V c n h = iprop(iprop(owns (c : Thread nD τ) accM fullShare (accAt V c (n - 1) (by omega)) ∗ otherScoped (F := F) c) ∗ (∃ r, prngReg c r)) := by
  cases n with
  | zero => exact absurd rfl hz
  | succ n => rfl

/-! ## The proof data -/

def adat (c : Dev nD) : Dat τ (Elt F) Unit ℕ (UR sig nD τ) ℕ cfg0 c where
  A w := V c (Pipeline.arrRef spec0 w)
  after w t := match w with
    | ⟨0, _⟩ => ablk V c 0 t
    | ⟨1, _⟩ => ablk V c 1 t
    | ⟨2, _⟩ => ablk V c 2 t
    | ⟨3, _⟩ => ablk V c 3 t
    | ⟨4, _⟩ => ablk V c 4 t
    | ⟨5, _⟩ => outAt V c t
  Φ t := accInv V c t.val (Nat.le_of_lt_succ t.isLt)
  q _ := fullShare
  owed _ := 0

theorem aA_eq (c : Dev nD) (w : Fin cfg0.W) : (adat V c).A w = V c (Pipeline.arrRef spec0 w) := by
  dsimp only [adat]

theorem accInv_castSucc (c : Dev nD) (t : Fin cfg0.N) :
    (adat V c).Φ t.castSucc = accInv V c t.val (Nat.le_of_lt t.isLt) := by
  dsimp only [adat]; simp only [Fin.coe_castSucc]

theorem aafter0 (c : Dev nD) (t : Fin cfg0.N) : (adat V c).after 0 t = ablk V c 0 t := by dsimp only [adat]
theorem aafter1 (c : Dev nD) (t : Fin cfg0.N) : (adat V c).after 1 t = ablk V c 1 t := by dsimp only [adat]
theorem aafter2 (c : Dev nD) (t : Fin cfg0.N) : (adat V c).after 2 t = ablk V c 2 t := by dsimp only [adat]
theorem aafter3 (c : Dev nD) (t : Fin cfg0.N) : (adat V c).after 3 t = ablk V c 3 t := by dsimp only [adat]
theorem aafter4 (c : Dev nD) (t : Fin cfg0.N) : (adat V c).after 4 t = ablk V c 4 t := by dsimp only [adat]
theorem aafter5 (c : Dev nD) (t : Fin cfg0.N) : (adat V c).after 5 t = outAt V c t := by dsimp only [adat]

theorem abefore0 (c : Dev nD) (t : Fin cfg0.N) (d) : (adat V c).before 0 t d = ablk V c 0 t :=
  abefore0_of V (adat V c) (aA_eq V c 0) (aafter0 V c) t d
theorem abefore1 (c : Dev nD) (t : Fin cfg0.N) (d) : (adat V c).before 1 t d = ablk V c 1 t :=
  abefore1_of V (adat V c) (aA_eq V c 1) (aafter1 V c) t d
theorem abefore2 (c : Dev nD) (t : Fin cfg0.N) (d) : (adat V c).before 2 t d = ablk V c 2 t :=
  abefore2_of V (adat V c) (aA_eq V c 2) (aafter2 V c) t d
theorem abefore3 (c : Dev nD) (t : Fin cfg0.N) (d) : (adat V c).before 3 t d = ablk V c 3 t :=
  abefore3_of V (adat V c) (aA_eq V c 3) (aafter3 V c) t d
theorem abefore4 (c : Dev nD) (t : Fin cfg0.N) (d) : (adat V c).before 4 t d = ablk V c 4 t :=
  abefore4_of V (adat V c) (aA_eq V c 4) (aafter4 V c) t d

/-! ## The body obligation -/

def accPre (c : Dev nD) (t : Fin cfg0.N) : sProp 𝕄 :=
  iprop((adat V c).Φ t.castSucc ∗ (adat V c).owesAt () t.castSucc
    ∗ (∃ d, owns (c : Thread nD τ) (am0 t) fullShare ((adat V c).before 0 t d))
    ∗ (∃ d, owns (c : Thread nD τ) (am1 t) fullShare ((adat V c).before 1 t d))
    ∗ (∃ d, owns (c : Thread nD τ) (am2 t) fullShare ((adat V c).before 2 t d))
    ∗ (∃ d, owns (c : Thread nD τ) (am3 t) fullShare ((adat V c).before 3 t d))
    ∗ (∃ d, owns (c : Thread nD τ) (am4 t) fullShare ((adat V c).before 4 t d))
    ∗ (∃ d, owns (c : Thread nD τ) (am5 t) fullShare ((adat V c).before 5 t d)))

def accPost (c : Dev nD) (t : Fin cfg0.N) : sProp 𝕄 :=
  iprop((adat V c).Φ t.succ ∗ (adat V c).owesAt () t.succ
    ∗ (adat V c).leavesExact 0 t
    ∗ (adat V c).leavesExact 1 t
    ∗ (adat V c).leavesExact 2 t
    ∗ (adat V c).leavesExact 3 t
    ∗ (adat V c).leavesExact 4 t
    ∗ (adat V c).leavesExact 5 t)

set_option maxHeartbeats 4800000 in
/-- The body at any point: the inputs' memrefs hold their blocks; the point's case is read off t mod 8; the invariant hands
    over the accumulator at what the point before left (at anything at a first time tile) and takes it back at this
    point's value; nothing is owed throughout. -/
theorem sound_accBody (c : Dev nD) (t : Fin cfg0.N) :
    accPre V c t ⊢ wp frame (wpE (defs₀ (F := F)) Variants.none c none) Set.univ (bodyAt0 t) (fun _ => accPost V c t) := by
  unfold accPre accPost bodyAt0
  simp only [abefore0, abefore1, abefore2, abefore3, abefore4]
  rw [show (adat V c).owesAt () t.succ = (adat V c).owesAt () t.castSucc from rfl]
  rw [show (adat V c).Φ t.succ = accInv V c (t.val + 1) t.isLt from rfl, accInv_succ]
  have hN : t.val < 64 := lt_of_lt_of_eq t.isLt (show cfg0.N = 64 from N_0)
  rw [show (adat V c).leavesExact 0 t = owns (c : Thread nD τ) (am0 t) fullShare ((adat V c).after 0 t) from by
    unfold Dat.leavesExact; rw [alive0 t], aafter0]
  rw [show (adat V c).leavesExact 1 t = owns (c : Thread nD τ) (am1 t) fullShare ((adat V c).after 1 t) from by
    unfold Dat.leavesExact; rw [alive1 t], aafter1]
  rw [show (adat V c).leavesExact 2 t = owns (c : Thread nD τ) (am2 t) fullShare ((adat V c).after 2 t) from by
    unfold Dat.leavesExact; rw [alive2 t], aafter2]
  rw [show (adat V c).leavesExact 3 t = owns (c : Thread nD τ) (am3 t) fullShare ((adat V c).after 3 t) from by
    unfold Dat.leavesExact; rw [alive3 t], aafter3]
  rw [show (adat V c).leavesExact 4 t = owns (c : Thread nD τ) (am4 t) fullShare ((adat V c).after 4 t) from by
    unfold Dat.leavesExact; rw [alive4 t], aafter4]
  by_cases h0 : t.val % 8 = 0
  · have h1 : ¬t.val % 8 = 7 := by omega
    rw [Dat.leavesExact_idle (adat V c) 5 t (aidle5 t (fun h => h1 ((isLast_iff t).mp h))) (anoflush5 t (fun h => h1 ((isLast_iff t).mp h)))]
    rw [accAt_first V c t h0 h1]
    unfold accFirst; (try dsimp only)
    by_cases hz : t.val = 0
    · rw [accInv_castSucc V c t, accInv_zero V c _ _ hz, restA_eq']
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((isFirst_iff t).mpr h0) (fun h => h1 ((isLast_iff t).mp h)) (ablk V c 0 t) (ablk V c 1 t) (ablk V c 2 t) (ablk V c 3 t) (ablk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverFirst c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [accInv_castSucc V c t, accInv_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((isFirst_iff t).mpr h0) (fun h => h1 ((isLast_iff t).mp h)) (ablk V c 0 t) (ablk V c 1 t) (ablk V c 2 t) (ablk V c 3 t) (ablk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverFirst c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 8 = 7
    · rw [show (adat V c).leavesExact 5 t = owns (c : Thread nD τ) (am5 t) fullShare ((adat V c).after 5 t) from by
        unfold Dat.leavesExact; rw [alive5 t ((isLast_iff t).mpr h1)], aafter5]
      rw [accAt_last V c t h0 h1, outAt_last V c t h0 h1]
      unfold accLast outLast; (try dsimp only)
      rw [accInv_castSucc V c t, accInv_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((isFirst_iff t).mp h)) ((isLast_iff t).mpr h1) (ablk V c 0 t) (ablk V c 1 t) (ablk V c 2 t) (ablk V c 3 t) (ablk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _)
    · rw [Dat.leavesExact_idle (adat V c) 5 t (aidle5 t (fun h => h1 ((isLast_iff t).mp h))) (anoflush5 t (fun h => h1 ((isLast_iff t).mp h)))]
      rw [accAt_middle V c t h0 h1]
      unfold accMiddle; (try dsimp only)
      rw [accInv_castSucc V c t, accInv_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runMiddle c (grid0.coords t) _ _ _ _ _ _ _ _ _ _ _ _ _ _ (fun h => h0 ((isFirst_iff t).mp h)) (fun h => h1 ((isLast_iff t).mp h)) (ablk V c 0 t) (ablk V c 1 t) (ablk V c 2 t) (ablk V c 3 t) (ablk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverMiddle c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation for the accumulate region, at every point. -/
theorem acc_obligation (c : Dev nD) : BodyObligation (adat (F := F) V c) (defs₀ (F := F)) Variants.none () Set.univ := fun t => by
  rw [bigSep_W0, bigSep_W0]
  exact sound_accBody V c t

/-- What the launch hands the region is the invariant before the first point. -/
theorem acc_in (c : Dev nD) : Pipeline.ΦA spec0 c ⊢ (adat V c).Φ 0 := by
  rw [show (adat V c).Φ 0 = accInv V c 0 (Nat.zero_le _) from rfl, accInv_zero V c 0 _ rfl]
  try exact Idealize.SL.BI.Entails.refl _

/-- After the last point the invariant gives the scoped rest back: the accumulator's value is forgotten. -/
theorem acc_out (c : Dev nD) : (adat V c).Φ (Fin.last cfg0.N) ⊢ Pipeline.ΦA spec0 c := by
  rw [show (adat V c).Φ (Fin.last cfg0.N) = accInv V c (Fin.last cfg0.N).val (Nat.le_of_lt_succ (Fin.last cfg0.N).isLt) from rfl,
    accInv_pos V c _ _ (by rw [Fin.val_last]; have : cfg0.N = 64 := N_0; omega), restA_eq']
  iintro ⟨⟨HS, HR⟩, Hg⟩
  isplitl [HS HR]
  · isplitl [HS]; · iexists _; iexact HS
    iexact HR
  iexact Hg

end

end Cert.KernelIdeal.Frame

end
-- ==== Proof.KernelIdealFrame.Projection.lean ====
/-
  The projection region at the entry contents V: at each of its 50 points the body loads the whole memory block, the
  point's 16 × 1024 tile of the padded output matrix and its 1 × 1024 tile of the padded bias, and stores one whole
  256 × 1024 output block: the product plus the bias row (the skeleton's payload).  What the output's staging buffer holds
  after the body is that one store read back; the proof data say so at every point; the region's invariant is the scoped
  rest and the generator register, untouched.
-/
import proofs.«171928_j25443386262310_2_alg».proof.Proof.KernelIdealFrame.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev pr0 : Rect S256x16 := Rect.unit (s := S256x16) ![0, 0] S256x16.size inb_S256x16_S256x16_0_0
abbrev pr1 : Rect S16x1024 := Rect.unit (s := S16x1024) ![0, 0] S16x1024.size inb_S16x1024_S16x1024_0_0
abbrev pr2 : Rect S1x1024 := Rect.unit (s := S1x1024) ![0, 0] S1x1024.size inb_S1x1024_S1x1024_0_0
abbrev pr3 : Rect S256x1024 := Rect.unit (s := S256x1024) ![0, 0] S256x1024.size inb_S256x1024_S256x1024_0_0

/-- The output block after the body, from the three input blocks: its one store read back. -/
def projOut (x0 : Vec F S256x16 .f32) (x1 : Vec F S16x1024 .f32) (x2 : Vec F S1x1024 .f32) : Vec F S256x1024 .f32 :=
  View.canon [⟨pr3, k1_pay1 (View.ld x0 pr0) (View.ld x1 pr1) (View.ld x2 pr2)⟩]

/-- That store covers the block. -/
theorem projCover (p0 : Vec F S256x1024 .f32) (y : S256x1024.Idx) :
    ∃ pc ∈ ([⟨pr3, p0⟩] : List (View.Piece (Elt F) S256x1024 .f32)), y ∈ pc.1.set :=
  View.cover_of_tiled [⟨pr3, p0⟩] S256x1024.size (by rfl) y

set_option maxHeartbeats 4000000 in
/-- The body on whole memrefs, the inputs at their contents and the output at anything, ends with the inputs as they were
    and the output at `projOut` of them. -/
theorem sound_proj (c : Dev nD) (E : Set ℕ) (i : grid1.Coords) (arg1 : Memref sig .tc .vmem S256x16 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S256x1024 .f32) (harg4 : arg4.IsWhole)
    (x0 : Vec F S256x16 .f32) (x1 : Vec F S16x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (projOut x0 x1 x2)) -∗ K ⟨⟩))
      ⊢ wp frame (wpE (defs₀ (F := F)) Variants.none c none) E (cc1__final_matmul_kernel i arg1 harg1 arg2 harg2 arg3 harg3 arg4 harg4) K := by
  simp only [cc1__final_matmul_kernel_eq_skeleton]; unfold cc1__final_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-- The projection region's proof data on core c. -/
def pdat (c : Dev nD) : Dat τ (Elt F) Unit ℕ (UR sig nD τ) ℕ cfg1 c where
  A w := V c (Pipeline.arrRef spec1 w)
  after w t := match w with
    | ⟨0, _⟩ => pblk V c 0 t
    | ⟨1, _⟩ => pblk V c 1 t
    | ⟨2, _⟩ => pblk V c 2 t
    | ⟨3, _⟩ => projOut (pblk V c 0 t) (pblk V c 1 t) (pblk V c 2 t)
  Φ _ := Pipeline.ΦA spec1 c
  q _ := fullShare
  owed _ := 0

theorem pA_eq (c : Dev nD) (w : Fin cfg1.W) : (pdat V c).A w = V c (Pipeline.arrRef spec1 w) := by
  dsimp only [pdat]
theorem pafter0 (c : Dev nD) (t : Fin cfg1.N) : (pdat V c).after 0 t = pblk V c 0 t := by dsimp only [pdat]
theorem pafter1 (c : Dev nD) (t : Fin cfg1.N) : (pdat V c).after 1 t = pblk V c 1 t := by dsimp only [pdat]
theorem pafter2 (c : Dev nD) (t : Fin cfg1.N) : (pdat V c).after 2 t = pblk V c 2 t := by dsimp only [pdat]
theorem pafter3 (c : Dev nD) (t : Fin cfg1.N) :
    (pdat V c).after 3 t = projOut (pblk V c 0 t) (pblk V c 1 t) (pblk V c 2 t) := by dsimp only [pdat]

theorem pbefore0 (c : Dev nD) (t : Fin cfg1.N) (d) : (pdat V c).before 0 t d = pblk V c 0 t :=
  pbefore0_of V (pdat V c) (pA_eq V c 0) (pafter0 V c) t d
theorem pbefore1 (c : Dev nD) (t : Fin cfg1.N) (d) : (pdat V c).before 1 t d = pblk V c 1 t :=
  pbefore1_of V (pdat V c) (pA_eq V c 1) (pafter1 V c) t d
theorem pbefore2 (c : Dev nD) (t : Fin cfg1.N) (d) : (pdat V c).before 2 t d = pblk V c 2 t :=
  pbefore2_of V (pdat V c) (pA_eq V c 2) (pafter2 V c) t d

/-- What the body is called with at point t, the windows one by one, -/
def projPre (c : Dev nD) (t : Fin cfg1.N) : sProp 𝕄 :=
  iprop((pdat V c).Φ t.castSucc ∗ (pdat V c).owesAt () t.castSucc
    ∗ (∃ d, owns (c : Thread nD τ) (st1_0 t) fullShare ((pdat V c).before 0 t d))
    ∗ (∃ d, owns (c : Thread nD τ) (st1_1 t) fullShare ((pdat V c).before 1 t d))
    ∗ (∃ d, owns (c : Thread nD τ) (st1_2 t) fullShare ((pdat V c).before 2 t d))
    ∗ (∃ d, owns (c : Thread nD τ) (st1_3 t) fullShare ((pdat V c).before 3 t d)))

/-- and what it returns. -/
def projPost (c : Dev nD) (t : Fin cfg1.N) : sProp 𝕄 :=
  iprop((pdat V c).Φ t.succ ∗ (pdat V c).owesAt () t.succ
    ∗ owns (c : Thread nD τ) (st1_0 t) fullShare ((pdat V c).after 0 t)
    ∗ owns (c : Thread nD τ) (st1_1 t) fullShare ((pdat V c).after 1 t)
    ∗ owns (c : Thread nD τ) (st1_2 t) fullShare ((pdat V c).after 2 t)
    ∗ owns (c : Thread nD τ) (st1_3 t) fullShare ((pdat V c).after 3 t))

theorem sound_projBody (c : Dev nD) (t : Fin cfg1.N) :
    projPre V c t ⊢ wp frame (wpE (defs₀ (F := F)) Variants.none c none) Set.univ (bodyAt1 t) (fun _ => projPost V c t) := by
  unfold projPre projPost bodyAt1
  simp only [pbefore0, pbefore1, pbefore2]
  rw [show (pdat V c).Φ t.succ = (pdat V c).Φ t.castSucc from rfl,
    show (pdat V c).owesAt () t.succ = (pdat V c).owesAt () t.castSucc from rfl,
    pafter0, pafter1, pafter2, pafter3]
  iintro ⟨HΦ, Ho, ⟨%d0, H0⟩, ⟨%d1, H1⟩, ⟨%d2, H2⟩, ⟨%d3, H3⟩⟩
  iapply (sound_proj c Set.univ _ _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the projection region, at every point. -/
theorem proj_obligation (c : Dev nD) : BodyObligation (pdat (F := F) V c) (defs₀ (F := F)) Variants.none () Set.univ := fun t => by
  rw [bigSep_W1, bigSep_W1]
  exact sound_projBody V c t

end

end Cert.KernelIdeal.Frame

end
-- ==== Proof.KernelIdealFrame.Main.lean ====
/-
  The whole run of the program: eight segments — the host operations before the accumulate region, that region, four
  stretches of host operations, the projection region, the final slice — from the launch to the return.

  The buffer contents at each segment boundary are a fold from the launch memory: a host stretch applies its operations;
  a region leaves its windows' arrays at what its write-backs fold to and every other buffer as entered.  Each region is
  entered from "every unscoped buffer at the boundary's contents, the generator register at some state, nothing owed"
  and left in the same form at the next boundary.  The run's conclusion reads EVERY unscoped buffer of the final memory
  off the last boundary's contents, so both the arguments' preservation and the result's value follow from it.
-/
import proofs.«171928_j25443386262310_2_alg».proof.Proof.KernelIdealFrame.Accumulate
import proofs.«171928_j25443386262310_2_alg».proof.Proof.KernelIdealFrame.Projection
import proofs.«171928_j25443386262310_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the accumulate region: its arrays at what the pipeline leaves, every other buffer as entered. -/
def W2 (c : Dev nD) : Valuation τ sig (Elt F) :=
  Pipeline.withArrays spec0 c (W1 m c) fun w => (adat (V1 m) c).arrAt w cfg0.N
theorem W2_arr (c : Dev nD) (w : Fin cfg0.W) :
    W2 m c (Proc.devRef .tc (Pipeline.arrRef spec0 w)) = (adat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (adat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev V6 : (c : Dev nD) → (b : Ref sig .tc) → Buf (Elt F) ((c : Thread nD τ).loc b) := fun c b => W6 m c b
/-- After the projection region. -/
def W7 (c : Dev nD) : Valuation τ sig (Elt F) :=
  Pipeline.withArrays spec1 c (W6 m c) fun w => (pdat (V6 m) c).arrAt w cfg1.N
theorem W7_arr (c : Dev nD) (w : Fin cfg1.W) :
    W7 m c (Proc.devRef .tc (Pipeline.arrRef spec1 w)) = (pdat (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (pdat (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
/-- After the final slice: the contents at the return. -/
abbrev W8 : Dev nD → Valuation τ sig (Elt F) := fun c => StableHlo.after hostOps2 (W7 m c)

/-! ## A buffer no host operation writes and no region stages is as launched at the return -/

theorem W8_bypass (c : Dev nD) (r : Ref sig .tc) (h0 : r ∉ (hostOps0_W : List (Ref sig .tc))) (h1 : r ∉ (hostOps1_W : List (Ref sig .tc)))
    (h11 : r ∉ (hostOps1_1_W : List (Ref sig .tc))) (h12 : r ∉ (hostOps1_2_W : List (Ref sig .tc))) (h13 : r ∉ (hostOps1_3_W : List (Ref sig .tc)))
    (h2 : r ∉ (hostOps2_W : List (Ref sig .tc))) (ha0 : ∀ w, Pipeline.arrRef spec0 w ≠ r) (ha1 : ∀ w, Pipeline.arrRef spec1 w ≠ r) :
    W8 m c (Proc.devRef .tc r) = m ((c : Thread nD τ).loc r) :=
  calc W8 m c (Proc.devRef .tc r)
    _ = W7 m c (Proc.devRef .tc r) := StableHlo.after_of_writes_sub hostOps2 _ hostOps2_writes h2
    _ = W6 m c (Proc.devRef .tc r) := W7_of_ne m c r ha1
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

/-- An argument the accumulate region stages as an INPUT window (w) is as launched at the return. -/
theorem W8_staged (c : Dev nD) (r : Ref sig .tc) (w : Fin cfg0.W) (hw : Pipeline.arrRef spec0 w = r) (hin : (cfg0.win w).isOut = false)
    (h0 : r ∉ (hostOps0_W : List (Ref sig .tc))) (h1 : r ∉ (hostOps1_W : List (Ref sig .tc)))
    (h11 : r ∉ (hostOps1_1_W : List (Ref sig .tc))) (h12 : r ∉ (hostOps1_2_W : List (Ref sig .tc))) (h13 : r ∉ (hostOps1_3_W : List (Ref sig .tc)))
    (h2 : r ∉ (hostOps2_W : List (Ref sig .tc))) (ha1 : ∀ w, Pipeline.arrRef spec1 w ≠ r) :
    W8 m c (Proc.devRef .tc r) = m ((c : Thread nD τ).loc r) := by
  subst hw
  calc W8 m c (Proc.devRef .tc (Pipeline.arrRef spec0 w))
    _ = W7 m c (Proc.devRef .tc (Pipeline.arrRef spec0 w)) := StableHlo.after_of_writes_sub hostOps2 _ hostOps2_writes h2
    _ = W6 m c (Proc.devRef .tc (Pipeline.arrRef spec0 w)) := W7_of_ne m c _ ha1
    _ = W5 m c (Proc.devRef .tc (Pipeline.arrRef spec0 w)) := StableHlo.after_of_writes_sub hostOps1_3 _ hostOps1_3_writes h13
    _ = W4 m c (Proc.devRef .tc (Pipeline.arrRef spec0 w)) := StableHlo.after_of_writes_sub hostOps1_2 _ hostOps1_2_writes h12
    _ = W3 m c (Proc.devRef .tc (Pipeline.arrRef spec0 w)) := StableHlo.after_of_writes_sub hostOps1_1 _ hostOps1_1_writes h11
    _ = W2 m c (Proc.devRef .tc (Pipeline.arrRef spec0 w)) := StableHlo.after_of_writes_sub hostOps1 _ hostOps1_writes h1
    _ = W1 m c (Proc.devRef .tc (Pipeline.arrRef spec0 w)) := (W2_arr m c w).trans (((adat (V1 m) c).arrAt_in w hin _).trans (aA_eq (V1 m) c w))
    _ = W0 m c (Proc.devRef .tc (Pipeline.arrRef spec0 w)) := StableHlo.after_of_writes_sub hostOps0 _ hostOps0_writes h0
    _ = m ((c : Thread nD τ).loc (Pipeline.arrRef spec0 w)) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => adat (V1 m) c
  | ⟨1, _⟩ => fun c => pdat (V6 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- The accumulate region: entered from every unscoped buffer at `W1`, left at `W2`; the scoped rest and the generator
    register go into the region's invariant (whose first value is the scoped rest at anything) and come back out of its
    last value (the accumulator's contents forgotten). -/
def accRegion : Pipeline.RegionSeg (pcfgs (F := F)) adm (pdats m) () defs₀ 𝒱₀ L lv 0 where
  hbody c := (acc_obligation (V1 m) c).loose
  win := launch0.win.to₀
  block_pos := launch0.block_pos
  stage_whole := launch0.stage_whole
  K := PEmpty
  osem k := k.elim
  ho := Pipeline.OwnSemFacts.none _
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec0 c from by
      unfold Pipeline.ΦA
      iintro ⟨Hp, -, Hr⟩
      isplitl [Hr]; · iexact Hr
      iexact Hp).trans (acc_in (V1 m) c)
  hout c := by
    rw [Pipeline.ownSems0_none]
    exact (acc_out (V1 m) c).trans (show Pipeline.ΦA spec0 c ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection region: entered from every unscoped buffer at `W6`, left at `W7`. -/
def projRegion : Pipeline.RegionSeg (pcfgs (F := F)) adm (pdats m) () defs₀ 𝒱₀ L lv 1 where
  hbody c := (proj_obligation (V6 m) c).loose
  win := launch1.win.to₀
  block_pos := launch1.block_pos
  stage_whole := launch1.stage_whole
  K := PEmpty
  osem k := k.elim
  ho := Pipeline.OwnSemFacts.none _
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (accRegion m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (projRegion m),
    .host (hseg hostOps2 hostOps2_sub hostOps2_fresh (W7 m)) ]

set_option backward.isDefEq.respectTransparency.types false in
/-- THE RUN: from any memory with zero counters every weakly fair execution of @main terminates, nothing faulting, and
    the final memory holds every unscoped buffer at the return's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The eight arguments end as launched, and the result buffer holds the return's contents. -/
theorem run_named : θ_run defs (onTc (τ := τ) (main (F := F))) ⟨m, fun _ => 0, ρ⟩ (fun r => ∀ c : Dev nD,
      r.2.mem ((c.tc : Thread nD τ).loc main_v14) = W8 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v14 (by decide)),
    (h c _ (mem_uc main_arg0 (by decide))).trans (W8_bypass m c main_arg0 (by decide) (by decide) (by decide) (by decide) (by decide) (by decide) (by decide) (by decide)),
    (h c _ (mem_uc main_arg1 (by decide))).trans (W8_bypass m c main_arg1 (by decide) (by decide) (by decide) (by decide) (by decide) (by decide) (by decide) (by decide)),
    (h c _ (mem_uc main_arg2 (by decide))).trans (W8_staged m c main_arg2 1 rfl rfl (by decide) (by decide) (by decide) (by decide) (by decide) (by decide) (by decide)),
    (h c _ (mem_uc main_arg3 (by decide))).trans (W8_bypass m c main_arg3 (by decide) (by decide) (by decide) (by decide) (by decide) (by decide) (by decide) (by decide)),
    (h c _ (mem_uc main_arg4 (by decide))).trans (W8_staged m c main_arg4 3 rfl rfl (by decide) (by decide) (by decide) (by decide) (by decide) (by decide) (by decide)),
    (h c _ (mem_uc main_arg5 (by decide))).trans (W8_bypass m c main_arg5 (by decide) (by decide) (by decide) (by decide) (by decide) (by decide) (by decide) (by decide)),
    (h c _ (mem_uc main_arg6 (by decide))).trans (W8_bypass m c main_arg6 (by decide) (by decide) (by decide) (by decide) (by decide) (by decide) (by decide) (by decide)),
    (h c _ (mem_uc main_arg7 (by decide))).trans (W8_bypass m c main_arg7 (by decide) (by decide) (by decide) (by decide) (by decide) (by decide) (by decide) (by decide))⟩)
    (run_all m ρ)

end Cert.KernelIdeal.Frame

end
-- ==== Proof.HostValues.lean ====
/-
  What the host operations around the two kernel regions leave in the buffers the regions read, as terms of the launch
  memory, at the ideal instance.

  Before the accumulate region: the gathered activations (the same gather of the embedding table at the normalised
  indices that the reference performs, kept as one opaque array), the two biases recast as rows, the gate column and the
  update matrix untouched.  Before the projection region: the memory (the accumulate region's output array), the output
  matrix and the output bias each padded on the right with zeros up to 51200 columns.  After it: the first 50257 columns
  of the projection region's output array.
-/
import proofs.«171928_j25443386262310_2_alg».proof.Proof.KernelIdealFrame.Main
import proofs.«171928_j25443386262310_2_alg».proof.Proof.Gen.ReferenceIdeal.Read
import Idealize.ShloMosaic.Lib.StableHlo.Run

noncomputable section

namespace Cert.KernelIdeal.HostValues

open Cert.KernelIdeal Cert.KernelIdeal.Gen Cert.KernelIdeal.Frame
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-! ## Before the accumulate region -/

/-- The activations: the reference's gather of the embedding rows at the normalised indices, term for term. -/
theorem acts_eq (c : Dev nD) : (W1 m c (Proc.devRef .tc main_v6) : S256x8192x16.Idx → EReal)
    = Cert.ReferenceIdeal.Read.val_main_v6 (F := Ideal) (m ((c : Thread nD τ).loc main_arg0)) (m ((c : Thread nD τ).loc main_arg1)) := by
  dsimp only [W1, W0, hostOps0]
  after_results
  rfl

/-- The gate bias as a 1 × 1 block. -/
theorem gateBias_eq (c : Dev nD) : (W1 m c (Proc.devRef .tc main_v7) : S1x1.Idx → EReal)
    = shapeCast S1x1 (m ((c : Thread nD τ).loc main_arg3)) shapeCasts_S1_S1x1 := by
  dsimp only [W1, W0, hostOps0]
  after_results
  rfl

/-- The update bias as a 1 × 16 row. -/
theorem updBias_eq (c : Dev nD) : (W1 m c (Proc.devRef .tc main_v8) : S1x16.Idx → EReal)
    = shapeCast S1x16 (m ((c : Thread nD τ).loc main_arg5)) shapeCasts_S16_S1x16 := by
  dsimp only [W1, W0, hostOps0]
  after_results
  rfl

/-- The gate column and the update matrix are as launched. -/
theorem gateCol_eq (c : Dev nD) : W1 m c (Proc.devRef .tc main_arg2) = m ((c : Thread nD τ).loc main_arg2) :=
  StableHlo.after_of_writes_sub hostOps0 _ hostOps0_writes (by decide)
theorem updMat_eq (c : Dev nD) : W1 m c (Proc.devRef .tc main_arg4) = m ((c : Thread nD τ).loc main_arg4) :=
  StableHlo.after_of_writes_sub hostOps0 _ hostOps0_writes (by decide)

/-! ## Before the projection region -/

/-- The memory the projection reads is the accumulate region's output array. -/
theorem mem_eq (c : Dev nD) : W6 m c (Proc.devRef .tc main_v9) = (adat (V1 m) c).arrAt 5 cfg0.N :=
  calc W6 m c (Proc.devRef .tc main_v9)
    _ = W5 m c (Proc.devRef .tc main_v9) := StableHlo.after_of_writes_sub hostOps1_3 _ hostOps1_3_writes (by decide)
    _ = W4 m c (Proc.devRef .tc main_v9) := StableHlo.after_of_writes_sub hostOps1_2 _ hostOps1_2_writes (by decide)
    _ = W3 m c (Proc.devRef .tc main_v9) := StableHlo.after_of_writes_sub hostOps1_1 _ hostOps1_1_writes (by decide)
    _ = W2 m c (Proc.devRef .tc main_v9) := StableHlo.after_of_writes_sub hostOps1 _ hostOps1_writes (by decide)
    _ = (adat (V1 m) c).arrAt 5 cfg0.N := W2_arr m c 5

/-- Two stretches: a zero constant, its conversion to a float, and the padding of the output matrix with it. -/
theorem padMat_of (V : Valuation τ sig (Elt Ideal)) :
    (StableHlo.after hostOps1_1 (StableHlo.after hostOps1 V) (Proc.devRef .tc main_v10) : S16x51200.Idx → EReal)
      = pad S16x51200 ![0, 0] ![0, 943] ![0, 0] (V (Proc.devRef .tc main_arg6) : S16x50257.Idx → EReal)
          (sitofp (F := Ideal) .f32 (constantI S_ 32 0#32)) pads_S16x50257_S16x51200_000_09430 h_S_ := by
  dsimp only [hostOps1_1, hostOps1]
  after_results
  rfl

theorem arg6_at2 (c : Dev nD) : W2 m c (Proc.devRef .tc main_arg6) = m ((c : Thread nD τ).loc main_arg6) :=
  (W2_of_ne m c main_arg6 (by decide)).trans (StableHlo.after_of_writes_sub hostOps0 _ hostOps0_writes (by decide))

/-- The padded output matrix, over the launched one. -/
theorem outMat_eq (c : Dev nD) : (W6 m c (Proc.devRef .tc main_v10) : S16x51200.Idx → EReal)
    = pad S16x51200 ![0, 0] ![0, 943] ![0, 0] (m ((c : Thread nD τ).loc main_arg6) : S16x50257.Idx → EReal)
        (sitofp (F := Ideal) .f32 (constantI S_ 32 0#32)) pads_S16x50257_S16x51200_000_09430 h_S_ :=
  calc (W6 m c (Proc.devRef .tc main_v10) : S16x51200.Idx → EReal)
    _ = W5 m c (Proc.devRef .tc main_v10) := StableHlo.after_of_writes_sub hostOps1_3 _ hostOps1_3_writes (by decide)
    _ = W4 m c (Proc.devRef .tc main_v10) := StableHlo.after_of_writes_sub hostOps1_2 _ hostOps1_2_writes (by decide)
    _ = _ := padMat_of (W2 m c)
    _ = _ := by rw [arg6_at2 m c]

/-- Two stretches: the bias recast as a row, a zero constant, its conversion, and the padding of the row with it. -/
theorem padBias_of (V : Valuation τ sig (Elt Ideal)) :
    (StableHlo.after hostOps1_3 (StableHlo.after hostOps1_2 V) (Proc.devRef .tc main_v12) : S1x51200.Idx → EReal)
      = pad S1x51200 ![0, 0] ![0, 943] ![0, 0]
          (shapeCast S1x50257 (V (Proc.devRef .tc main_arg7) : S50257.Idx → EReal) shapeCasts_S50257_S1x50257)
          (sitofp (F := Ideal) .f32 (constantI S_ 32 0#32)) pads_S1x50257_S1x51200_000_09430 h_S_ := by
  dsimp only [hostOps1_3, hostOps1_2]
  after_results
  rfl

theorem arg7_at4 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps1_1 _ hostOps1_1_writes (by decide)
    _ = W2 m c (Proc.devRef .tc main_arg7) := StableHlo.after_of_writes_sub hostOps1 _ hostOps1_writes (by decide)
    _ = W1 m c (Proc.devRef .tc main_arg7) := W2_of_ne m c main_arg7 (by decide)
    _ = m ((c : Thread nD τ).loc main_arg7) := StableHlo.after_of_writes_sub hostOps0 _ hostOps0_writes (by decide)

/-- The padded output bias row, over the launched bias. -/
theorem outBias_eq (c : Dev nD) : (W6 m c (Proc.devRef .tc main_v12) : S1x51200.Idx → EReal)
    = pad S1x51200 ![0, 0] ![0, 943] ![0, 0]
        (shapeCast S1x50257 (m ((c : Thread nD τ).loc main_arg7) : S50257.Idx → EReal) shapeCasts_S50257_S1x50257)
        (sitofp (F := Ideal) .f32 (constantI S_ 32 0#32)) pads_S1x50257_S1x51200_000_09430 h_S_ :=
  (padBias_of (W4 m c)).trans (by rw [arg7_at4 m c])

/-! ## After the projection region -/

/-- The result buffer at the return: the first 50257 columns of the projection region's output array. -/
theorem result_eq (c : Dev nD) : (W8 m c (Proc.devRef .tc main_v14) : S256x50257.Idx → EReal)
    = extractStridedSlice S256x50257 ![0, 0] ((pdat (V6 m) c).arrAt 3 cfg1.N : S256x51200.Idx → EReal) slices_S256x51200_S256x50257_0_0 := by
  have h : (W8 m c (Proc.devRef .tc main_v14) : S256x50257.Idx → EReal)
      = extractStridedSlice S256x50257 ![0, 0] (W7 m c (Proc.devRef .tc main_v13) : S256x51200.Idx → EReal) slices_S256x51200_S256x50257_0_0 := by
    dsimp only [W8, hostOps2]
    after_results
  exact h.trans (congrArg (fun y : S256x51200.Idx → EReal => extractStridedSlice S256x50257 ![0, 0] y slices_S256x51200_S256x50257_0_0) (W7_arr m c 3))

end Cert.KernelIdeal.HostValues

end
-- ==== Proof.AccPieces.lean ====
/-
  What each case of the accumulate body leaves, as the body's arithmetic.

  The body's stores into the accumulator (and, at a last time tile, into the output block) were found by running it; read
  back through a covering list of stores, the contents are the last store's value.  Every load reads a whole buffer, so
  the value is the arithmetic of the five input blocks and of the accumulator: at a first time tile over the zero block
  the reset has just stored, otherwise over what the accumulator held on entry.  The copy to the output block at a last
  time tile reads the accumulator after that store, so it carries the same value.
-/
import proofs.«171928_j25443386262310_2_alg».proof.Proof.KernelIdealFrame.Accumulate
import Idealize.ShloMosaic.Lib.Pipeline.Value
import Idealize.ShloMosaic.Lib.Tactic

set_option maxRecDepth 16384

noncomputable section

namespace Cert.KernelIdeal.AccValue

open Cert.KernelIdeal Cert.KernelIdeal.Gen Cert.KernelIdeal.Frame
open Idealize.ShloMosaic Idealize.ShloMosaic.TcCoe Idealize.ShloMosaic.Tactic Idealize.SL.Sem
open Idealize.ShloMosaic.Pipeline (Dat)

variable {F : FTy → Type} [FloatOps F]

/-- The zero offsets of a rank-2 block that is its whole buffer. -/
theorem hz2 : (![0, 0] : Fin 2 → Nat) = fun _ => 0 := funext fun a => by fin_cases a <;> rfl

variable (c : Dev nD) (i : grid0.Coords) (arg2 : Memref sig .tc .vmem S32x1024x16 .f32) (harg2 : arg2.IsWhole)
  (arg3 : Memref sig .tc .vmem S16x1 .f32) (harg3 : arg3.IsWhole) (arg4 : Memref sig .tc .vmem S1x1 .f32) (harg4 : arg4.IsWhole)
  (arg5 : Memref sig .tc .vmem S16x16 .f32) (harg5 : arg5.IsWhole) (arg6 : Memref sig .tc .vmem S1x16 .f32) (harg6 : arg6.IsWhole)
  (arg7 : Memref sig .tc .vmem S32x16 .f32) (harg7 : arg7.IsWhole) (arg8 : Memref sig .tc .vmem S32x16 .f32) (harg8 : arg8.IsWhole)
  (x0 : Vec F S32x1024x16 .f32) (x1 : Vec F S16x1 .f32) (x2 : Vec F S1x1 .f32) (x3 : Vec F S16x16 .f32) (x4 : Vec F S1x16 .f32)
  (xs : Vec F S32x16 .f32)

/-- The zero offsets of a rank-3 block that is its whole buffer. -/
theorem hz3 : (![0, 0, 0] : Fin 3 → Nat) = fun _ => 0 := funext fun a => by fin_cases a <;> rfl

/-- A middle time tile leaves in the accumulator the body's arithmetic of the five input blocks and of what the
    accumulator held: its one covering store's value, whose loads read the whole buffers. -/
theorem accMiddle_eq (hc0 : ¬isFirst i) (hc1 : ¬isLast i) :
    accMiddle c i arg2 harg2 arg3 harg3 arg4 harg4 arg5 harg5 arg6 harg6 arg7 harg7 arg8 harg8 hc0 hc1 x0 x1 x2 x3 x4 xs
      = k0_pay2 x0 x1 x3 x2 x4 xs := by
  unfold accMiddle
  rw [View.read_writes_eq_canon _ _ _ (accCoverMiddle c i arg2 harg2 arg3 harg3 arg4 harg4 arg5 harg5 arg6 harg6 arg7 harg7 arg8 harg8 hc0 hc1 x0 x1 x2 x3 x4 xs)]
  unfold runMiddle
  dsimp only
  rw [View.canon_unit_zero hz2]
  simp only [View.readAt_eq_ld, harg2.read_unread, harg3.read_unread, harg4.read_unread, harg5.read_unread, harg6.read_unread,
    harg8.read_unread, View.ld_unit_zero (S := S32x1024x16) hz3, View.ld_unit_zero (S := S16x1) hz2,
    View.ld_unit_zero (S := S1x1) hz2, View.ld_unit_zero (S := S16x16) hz2, View.ld_unit_zero (S := S1x16) hz2,
    View.ld_unit_zero (S := S32x16) hz2]

/-- A first time tile stores the zero block, reads it back, and leaves the body's arithmetic over it. -/
theorem accFirst_eq (hc0 : isFirst i) (hc1 : ¬isLast i) :
    accFirst c i arg2 harg2 arg3 harg3 arg4 harg4 arg5 harg5 arg6 harg6 arg7 harg7 arg8 harg8 hc0 hc1 x0 x1 x2 x3 x4
      = k0_pay2 x0 x1 x3 x2 x4 (k0_pay1 (F := F)) := by
  unfold accFirst
  rw [View.read_writes_eq_canon _ _ _ (accCoverFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S32x16) hz2, View.readCov_unit_zero (S := S32x16) _ hz2]
  simp only [View.readAt_eq_ld, harg2.read_unread, harg3.read_unread, harg4.read_unread, harg5.read_unread, harg6.read_unread,
    View.ld_unit_zero (S := S32x1024x16) hz3, View.ld_unit_zero (S := S16x1) hz2,
    View.ld_unit_zero (S := S1x1) hz2, View.ld_unit_zero (S := S16x16) hz2, View.ld_unit_zero (S := S1x16) hz2]

/-- A last time tile leaves in the accumulator what a middle one does. -/
theorem accLast_eq (hc0 : ¬isFirst i) (hc1 : isLast i) :
    accLast c i arg2 harg2 arg3 harg3 arg4 harg4 arg5 harg5 arg6 harg6 arg7 harg7 arg8 harg8 hc0 hc1 x0 x1 x2 x3 x4 xs
      = k0_pay2 x0 x1 x3 x2 x4 xs := by
  unfold accLast
  rw [View.read_writes_eq_canon _ _ _ (accCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz2]
  simp only [View.readAt_eq_ld, harg2.read_unread, harg3.read_unread, harg4.read_unread, harg5.read_unread, harg6.read_unread,
    harg8.read_unread, View.ld_unit_zero (S := S32x1024x16) hz3, View.ld_unit_zero (S := S16x1) hz2,
    View.ld_unit_zero (S := S1x1) hz2, View.ld_unit_zero (S := S16x16) hz2, View.ld_unit_zero (S := S1x16) hz2,
    View.ld_unit_zero (S := S32x16) hz2]

/-- A last time tile copies the accumulator, read back after its store, to the output block: the same value. -/
theorem outLast_eq (hc0 : ¬isFirst i) (hc1 : isLast i) :
    outLast c i arg2 harg2 arg3 harg3 arg4 harg4 arg5 harg5 arg6 harg6 arg7 harg7 arg8 harg8 hc0 hc1 x0 x1 x2 x3 x4 xs
      = k0_pay2 x0 x1 x3 x2 x4 xs := by
  unfold outLast
  rw [View.read_writes_eq_canon _ _ _ (outCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz2, View.readCov_unit_zero (S := S32x16) _ hz2]
  simp only [View.readAt_eq_ld, harg2.read_unread, harg3.read_unread, harg4.read_unread, harg5.read_unread, harg6.read_unread,
    harg8.read_unread, View.ld_unit_zero (S := S32x1024x16) hz3, View.ld_unit_zero (S := S16x1) hz2,
    View.ld_unit_zero (S := S1x1) hz2, View.ld_unit_zero (S := S16x16) hz2, View.ld_unit_zero (S := S1x16) hz2,
    View.ld_unit_zero (S := S32x16) hz2]

end Cert.KernelIdeal.AccValue

end
-- ==== Proof.GatedSpec.lean ====
/-
  The function both programs compute, stated once over plain arrays of extended reals.

  For token activations x[b, t, ·] (16 features), a gate column Wg (16×1) with bias bg, an update matrix Wu (16×16) with bias
  bu, the summand at (b, t, h) is   σ(x[b,t,·]·Wg + bg) · tanh(x[b,t,·]·Wu[·,h] + bu[h]),   σ the logistic function; the
  memory at (b, h) is its sum over all t; the result at (b, n) is memory[b,·]·Wo[·,n] + bo[n].  The summand is stated
  for any batch and time extents, so that a tile of the activations and the whole array use the same function.
-/
import Idealize.ShloMosaic.PureOps.Ideal
import Idealize.ShloMosaic.PureOps.Ideal.Laws
import Idealize.ShloMosaic.Lib.ValueIdx

noncomputable section

namespace Cert.GatedSpec

open Idealize.ShloMosaic Idealize.ShloMosaic.ValueIdx

/-- The summand at (b, t, h): the logistic gate of row (b, t) times the tanh of its update at feature h. -/
def gateTerm {B T : ℕ} (x : (⟨3, ![B, T, 16]⟩ : Shape).Idx → EReal) (wg : (⟨2, ![16, 1]⟩ : Shape).Idx → EReal) (bg : EReal)
    (wu : (⟨2, ![16, 16]⟩ : Shape).Idx → EReal) (bu : Fin 16 → EReal) (b : Fin B) (t : Fin T) (h : Fin 16) : EReal :=
  Ideal.logistic ((∑ k : Fin 16, x (ix3 b t k) * wg (ix2 k (0 : Fin 1))) + bg)
    * Ideal.tanh ((∑ k : Fin 16, x (ix3 b t k) * wu (ix2 k h)) + bu h)

/-- The memory at (b, h): the summands of row b at feature h, summed over all times. -/
def memory {B T : ℕ} (x : (⟨3, ![B, T, 16]⟩ : Shape).Idx → EReal) (wg : (⟨2, ![16, 1]⟩ : Shape).Idx → EReal) (bg : EReal)
    (wu : (⟨2, ![16, 16]⟩ : Shape).Idx → EReal) (bu : Fin 16 → EReal) (b : Fin B) (h : Fin 16) : EReal :=
  ∑ t : Fin T, gateTerm x wg bg wu bu b t h

/-- The result at (b, n): the memory of row b against column n of the output matrix, plus the output bias. -/
def out {B T N : ℕ} (x : (⟨3, ![B, T, 16]⟩ : Shape).Idx → EReal) (wg : (⟨2, ![16, 1]⟩ : Shape).Idx → EReal) (bg : EReal)
    (wu : (⟨2, ![16, 16]⟩ : Shape).Idx → EReal) (bu : Fin 16 → EReal)
    (wo : (⟨2, ![16, N]⟩ : Shape).Idx → EReal) (bo : Fin N → EReal) (b : Fin B) (n : Fin N) : EReal :=
  (∑ k : Fin 16, memory x wg bg wu bu b k * wo (ix2 k n)) + bo n

/-- The whole result array over the programs' argument arrays: gate bias a vector of one entry, update bias a vector of 16,
    output bias a vector of N. -/
def G {B T N : ℕ} (x : (⟨3, ![B, T, 16]⟩ : Shape).Idx → EReal) (wg : (⟨2, ![16, 1]⟩ : Shape).Idx → EReal)
    (bg : (⟨1, ![1]⟩ : Shape).Idx → EReal) (wu : (⟨2, ![16, 16]⟩ : Shape).Idx → EReal) (bu : (⟨1, ![16]⟩ : Shape).Idx → EReal)
    (wo : (⟨2, ![16, N]⟩ : Shape).Idx → EReal) (bo : (⟨1, ![N]⟩ : Shape).Idx → EReal) :
    (⟨2, ![B, N]⟩ : Shape).Idx → EReal :=
  fun i => out x wg (bg (ix1 (0 : Fin 1))) wu (fun h => bu (ix1 h)) wo (fun n => bo (ix1 n))
    (⟨(i 0).val, idx2_lt0 i⟩ : Fin B) (⟨(i 1).val, idx2_lt1 i⟩ : Fin N)

theorem G_apply {B T N : ℕ} (x : (⟨3, ![B, T, 16]⟩ : Shape).Idx → EReal) (wg : (⟨2, ![16, 1]⟩ : Shape).Idx → EReal)
    (bg : (⟨1, ![1]⟩ : Shape).Idx → EReal) (wu : (⟨2, ![16, 16]⟩ : Shape).Idx → EReal) (bu : (⟨1, ![16]⟩ : Shape).Idx → EReal)
    (wo : (⟨2, ![16, N]⟩ : Shape).Idx → EReal) (bo : (⟨1, ![N]⟩ : Shape).Idx → EReal) (b : Fin B) (n : Fin N) :
    G x wg bg wu bu wo bo (ix2 b n)
      = out x wg (bg (ix1 (0 : Fin 1))) wu (fun h => bu (ix1 h)) wo (fun n => bo (ix1 n)) b n := rfl

end Cert.GatedSpec

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibPayloadLayout.lean ====
/- Reads at coordinates for the layout steps between a tile of rows and its flat matrix, for any extents and any element
   type, and the sum of a three-axis array along its middle axis on the extended reals.

   A tile [a, b, c] and the matrix [n, c] with n = a · b hold the same entries in the same row-major order: row
   r · b + q of the matrix is row (r, q) of the tile. A sum along the middle axis of [a, b, c] reads, at (i, k), the sum
   over j of the array at (i, j, k). -/
import Idealize.ShloMosaic.PureOps.Ideal
import Idealize.ShloMosaic.PureOps.Ideal.Laws
import Idealize.ShloMosaic.Lib.Pipeline.Value
import Idealize.ShloMosaic.Lib.ValueIdx

noncomputable section

open scoped BigOperators

open Idealize.ShloMosaic Idealize.ShloMosaic.ValueIdx

namespace Cert.Lib.PayloadLayout

variable {α : Type}

/-- A tile `[a, b, c]` cast to a matrix `[n, c]` reads, at row `p = r · b + q` and column `k`, the tile at (r, q, k):
    both sit at row-major position (r · b + q) · c + k. -/
theorem shapeCast_abc_nc_apply {a b c n : ℕ} (x : (⟨3, ![a, b, c]⟩ : Shape).Idx → α)
    (h : (⟨3, ![a, b, c]⟩ : Shape).ShapeCasts ⟨2, ![n, c]⟩) (r : Fin a) (q : Fin b) (k : Fin c) (p : Fin n)
    (hp : p.val = r.val * b + q.val) :
    shapeCast ⟨2, ![n, c]⟩ x h (ix2 p k) = x (ix3 r q k) := by
  refine shapeCast_apply x h (ix2 p k) (ix3 r q k) ?_
  rw [Shape.rowMajor_val_three, Shape.rowMajor_val_two]
  show (r.val * b + q.val) * c + k.val = p.val * c + k.val
  rw [hp]

/-- A matrix `[n, c]` cast to a tile `[a, b, c]` reads, at (r, q, k), the matrix at row `p = r · b + q` and column `k`. -/
theorem shapeCast_nc_abc_apply {a b c n : ℕ} (y : (⟨2, ![n, c]⟩ : Shape).Idx → α)
    (h : (⟨2, ![n, c]⟩ : Shape).ShapeCasts ⟨3, ![a, b, c]⟩) (r : Fin a) (q : Fin b) (k : Fin c) (p : Fin n)
    (hp : p.val = r.val * b + q.val) :
    shapeCast ⟨3, ![a, b, c]⟩ y h (ix3 r q k) = y (ix2 p k) := by
  refine shapeCast_apply y h (ix3 r q k) (ix2 p k) ?_
  rw [Shape.rowMajor_val_three, Shape.rowMajor_val_two]
  show p.val * c + k.val = (r.val * b + q.val) * c + k.val
  rw [hp]

/-- The sum of an `[a, b, c]` array along its middle axis from the neutral accumulator, read at (i, k): the sum over j of
    the array at (i, j, k). -/
theorem midAxisSum_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun ax => Fin.ext (by
      match ax with
      | ⟨0, _⟩ => rfl
      | ⟨1, _⟩ => rfl
      | ⟨2, _⟩ => rfl)))

end Cert.Lib.PayloadLayout

end
-- ==== Proof.PayloadReads.lean ====
/- The two kernel bodies' arithmetic read at one entry, on the extended reals.

   The accumulating body starts its accumulator from the zero block (`pay1_apply`). On a tile of 32 rows by 1024 times it
   flattens the activations [32, 1024, 16] to a matrix [32768, 16] (row r · 1024 + q is the tile's (r, q)), multiplies it
   by the gate column and by the update matrix, adds the biases along the rows, takes the logistic function of the one
   gate column and tanh of the 16 update columns, multiplies each update row by its gate, views the product as
   [32, 1024, 16] again and sums over the 1024 times; the result is added to the accumulator read back. Rounding the
   operands to a narrower format is the identity on the extended reals. So at (r, h) the body stores the accumulator at
   (r, h) plus the sum over the tile's times q of the specification's summand at (r, q, h) (`pay2_apply`).

   The final body multiplies a block [256, 16] of the memory by a block [16, 1024] of the output matrix and adds the
   bias row: at (r, n) it stores the sum over k of memory (r, k) · matrix (k, n), plus the bias at n
   (`k1_pay1_apply`). -/
import proofs.«171928_j25443386262310_2_alg».proof.Proof.Gen.KernelIdeal.Skeleton
import proofs.«171928_j25443386262310_2_alg».proof.Proof.GatedSpec
import proofs.«171928_j25443386262310_2_alg».proof.Proof.LibPlainMatmul
import proofs.«171928_j25443386262310_2_alg».proof.Proof.LibBroadcastReads
import proofs.«171928_j25443386262310_2_alg».proof.Proof.LibPayloadLayout
import Idealize.ShloMosaic.Lib.ValueLayout

noncomputable section

open scoped BigOperators

namespace Cert.KernelIdeal.PayloadReads

open Cert.KernelIdeal Cert.KernelIdeal.Gen Idealize.ShloMosaic Idealize.ShloMosaic.ValueIdx
open Cert.Lib.PayloadLayout Cert.Lib.PlainMatmul Cert.Lib.BroadcastReads

/-- The block the accumulator starts from is zero everywhere. -/
theorem pay1_apply (r : Fin 32) (h : Fin 16) : k0_pay1 (F := Ideal) (ix2 r h) = 0 := by
  unfold k0_pay1
  refine (congrFun (shapeCast_self _ _) _).trans ?_
  exact Ideal.ofBits_zero_f32

/-- A row of the flat activation matrix is a row of the tile: row p = r · 1024 + q, column k, is the tile at (r, q, k)
    (the rounding to the narrower format and the cast to the same shape change nothing). -/
theorem flatAct_apply (v3 : Vec Ideal S32x1024x16 .f32) (r : Fin 32) (q : Fin 1024) (k : Fin 16) (p : Fin 32768)
    (hp : p.val = r.val * 1024 + q.val) :
    shapeCast S32768x16
        (truncf .bf16 (shapeCast S32x1024x16 v3 shapeCasts_S32x1024x16_S32x1024x16) bitsLt_bf16_f32 : FVec Ideal S32x1024x16 .bf16)
        shapeCasts_S32x1024x16_S32768x16 (ix2 p k)
      = v3 (ix3 r q k) :=
  (shapeCast_abc_nc_apply _ _ r q k p hp).trans (congrFun (shapeCast_self v3 _) _)

/-- The accumulating body at (r, h): the accumulator read back plus the sum, over the tile's 1024 times, of the
    specification's summand at (r, q, h) — the gate of row (r, q) times the tanh of its update at feature h. -/
theorem pay2_apply (v3 : Vec Ideal S32x1024x16 .f32) (v7 : Vec Ideal S16x1 .f32) (v9 : Vec Ideal S16x16 .f32)
    (v12 : Vec Ideal S1x1 .f32) (v18 : Vec Ideal S1x16 .f32) (v26 : Vec Ideal S32x16 .f32) (r : Fin 32) (h : Fin 16) :
    k0_pay2 v3 v7 v9 v12 v18 v26 (ix2 r h)
      = v26 (ix2 r h) + ∑ q : Fin 1024, Cert.GatedSpec.gateTerm (B := 32) (T := 1024) v3 v7
          (v12 (ix2 (0 : Fin 1) (0 : Fin 1))) v9 (fun h' => v18 (ix2 (0 : Fin 1) h')) r q h := by
  unfold k0_pay2
  -- the cast to the same shape is the identity; the sum is pointwise; the reduction is the sum over the times
  refine (congrFun (shapeCast_self _ _) _).trans ?_
  refine congrArg (v26 (ix2 r h) + ·) ?_
  refine (midAxisSum_apply _ _ _ _ _ r h).trans ?_
  refine Finset.sum_congr rfl fun q _ => ?_
  -- entry (r, q, h) of the tile view is entry (r · 1024 + q, h) of the flat product
  have hpl : r.val * 1024 + q.val < 32768 := by have := r.isLt; have := q.isLt; omega
  refine (shapeCast_nc_abc_apply _ _ r q h ⟨r.val * 1024 + q.val, hpl⟩ rfl).trans ?_
  unfold Cert.GatedSpec.gateTerm
  refine congrArg₂ (· * ·) ?_ ?_
  · -- the gate: the one gate column broadcast along the features reads the logistic of the row's pre-activation
    refine (broadcastTo_a1_ab_apply _ _ _ h).trans ?_
    refine congrArg Ideal.logistic ?_
    refine congrArg₂ (· + ·) ?_ ?_
    · refine (plain_matmul_zero_apply (M := 32768) (K := 16) (N := 1) _ _ _ (0 : Fin 1)).trans ?_
      exact Finset.sum_congr rfl fun k _ => congrArg (· * v7 (ix2 k (0 : Fin 1))) (flatAct_apply v3 r q k _ rfl)
    · exact (broadcastTo_1b_ab_apply _ _ _ (0 : Fin 1)).trans (congrFun (shapeCast_self v12 _) _)
  · -- the update: tanh of the row against column h of the update matrix, plus the update bias at h
    refine congrArg Ideal.tanh ?_
    refine congrArg₂ (· + ·) ?_ ?_
    · refine (plain_matmul_zero_apply (M := 32768) (K := 16) (N := 16) _ _ _ h).trans ?_
      exact Finset.sum_congr rfl fun k _ => congrArg (· * v9 (ix2 k h)) (flatAct_apply v3 r q k _ rfl)
    · exact (broadcastTo_1b_ab_apply _ _ _ h).trans (congrFun (shapeCast_self v18 _) _)

/-- The final body at (r, n): row r of the memory block against column n of the output-matrix block, plus the bias at n. -/
theorem k1_pay1_apply (v0 : Vec Ideal S256x16 .f32) (v3 : Vec Ideal S16x1024 .f32) (v7 : Vec Ideal S1x1024 .f32)
    (r : Fin 256) (n : Fin 1024) :
    k1_pay1 v0 v3 v7 (ix2 r n) = (∑ k : Fin 16, v0 (ix2 r k) * v3 (ix2 k n)) + v7 (ix2 (0 : Fin 1) n) := by
  unfold k1_pay1
  refine congrArg₂ (· + ·) ?_ ?_
  · refine (plain_matmul_zero_apply (M := 256) (K := 16) (N := 1024) _ _ r n).trans ?_
    exact Finset.sum_congr rfl fun k _ =>
      congrArg₂ (· * ·) (congrFun (shapeCast_self v0 _) _) (congrFun (shapeCast_self v3 _) _)
  · exact (broadcastTo_1b_ab_apply _ _ r n).trans (congrFun (shapeCast_self v7 _) _)

end Cert.KernelIdeal.PayloadReads

end
-- ==== Proof.LibTileSums.lean ====
/-
  A sum over the nodes as a sum over ten tiles of five thousand rows: the row `5000 · t + q` is row `q` of tile `t`,
  and every node is exactly one such row. A kernel that accumulates per-tile column sums across its grid reaches the
  whole column sum this way.
-/
import Mathlib.Algebra.BigOperators.Fin
import Mathlib.Logic.Equiv.Fin.Basic

namespace TileSums

open Finset

/-- A sum over `Fin (m * n)` is the double sum over `m` tiles of `n` rows, row `q` of tile `t` at position `q + n · t`. -/
theorem sum_tiles {M : Type*} [AddCommMonoid M] (m n : ℕ) (f : Fin (m * n) → M) :
    ∑ r : Fin (m * n), f r = ∑ t : Fin m, ∑ q : Fin n, f (finProdFinEquiv (t, q)) := by
  rw [← Fintype.sum_prod_type' (f := fun t q => f (finProdFinEquiv (t, q)))]
  exact (Fintype.sum_equiv finProdFinEquiv _ _ fun _ => rfl).symm

/-- The nodes in ten tiles of five thousand rows. -/
theorem sum_nodes_tiles {M : Type*} [AddCommMonoid M] (f : Fin 50000 → M) :
    ∑ r : Fin 50000, f r = ∑ t : Fin 10, ∑ q : Fin 5000, f ⟨5000 * t.val + q.val, by have := t.isLt; have := q.isLt; omega⟩ := by
  have h := sum_tiles 10 5000 (fun r : Fin (10 * 5000) => f ⟨r.val, r.isLt⟩)
  refine Eq.trans ?_ (h.trans ?_)
  · rfl
  · refine Finset.sum_congr rfl fun t _ => Finset.sum_congr rfl fun q _ => congrArg f (Fin.ext ?_)
    show (finProdFinEquiv (t, q)).val = 5000 * t.val + q.val
    simp [finProdFinEquiv]; omega

end TileSums
-- ==== Proof.TileAlgebra.lean ====
/-
  The algebra between the whole-array specification and a computation by tiles.

  A tile of the activations (32 rows of one row block, 1024 times of one time tile) has the same summand as the whole array
  at the tile's position, because the summand at (b, t, h) reads only row (b, t).  The memory, a sum over 8192 times, is
  the sum over 8 time tiles of the sums over the 1024 times of each tile, time 1024 · j + q being time q of tile j.  An
  accumulator that starts from zero and adds one tile's sum at each of eight steps ends at the sum of the eight.  The
  result at a column n reads only column n of the output matrix and entry n of the output bias, so a matrix and a bias
  padded with further columns give the same result at the columns they share.  Last, an array that is the memory at every
  (b, h) gives the specification's result when taken against the output matrix and bias.
-/
import proofs.«171928_j25443386262310_2_alg».proof.Proof.GatedSpec
import proofs.«171928_j25443386262310_2_alg».proof.Proof.LibTileSums
import Mathlib.Algebra.BigOperators.Fin

noncomputable section

namespace Cert.GatedSpec

open Idealize.ShloMosaic Idealize.ShloMosaic.ValueIdx

/-- A tile's summand is the whole array's at the tile's position: rows 32 · bb + r, times 1024 · j + q. -/
theorem gateTerm_block (x : (⟨3, ![256, 8192, 16]⟩ : Shape).Idx → EReal) (xb : (⟨3, ![32, 1024, 16]⟩ : Shape).Idx → EReal)
    (bb j : ℕ) (hbb : bb < 8) (hj : j < 8)
    (hx : ∀ (r : Fin 32) (q : Fin 1024) (k : Fin 16),
      xb (ix3 r q k) = x (ix3 (⟨32 * bb + r.val, by have := r.isLt; omega⟩ : Fin 256)
        (⟨1024 * j + q.val, by have := q.isLt; omega⟩ : Fin 8192) k))
    (wg : (⟨2, ![16, 1]⟩ : Shape).Idx → EReal) (bg : EReal) (wu : (⟨2, ![16, 16]⟩ : Shape).Idx → EReal) (bu : Fin 16 → EReal)
    (r : Fin 32) (q : Fin 1024) (h : Fin 16) :
    gateTerm xb wg bg wu bu r q h
      = gateTerm x wg bg wu bu (⟨32 * bb + r.val, by have := r.isLt; omega⟩ : Fin 256)
          (⟨1024 * j + q.val, by have := q.isLt; omega⟩ : Fin 8192) h := by
  unfold gateTerm
  simp only [hx]

/-- The memory as the sum over eight time tiles of the sums over each tile's 1024 times. -/
theorem memory_by_tiles (x : (⟨3, ![256, 8192, 16]⟩ : Shape).Idx → EReal) (wg : (⟨2, ![16, 1]⟩ : Shape).Idx → EReal) (bg : EReal)
    (wu : (⟨2, ![16, 16]⟩ : Shape).Idx → EReal) (bu : Fin 16 → EReal) (b : Fin 256) (h : Fin 16) :
    memory x wg bg wu bu b h
      = ∑ j : Fin 8, ∑ q : Fin 1024,
          gateTerm x wg bg wu bu b (⟨1024 * j.val + q.val, by have := j.isLt; have := q.isLt; omega⟩ : Fin 8192) h := by
  unfold memory
  have hs := TileSums.sum_tiles 8 1024 (fun r : Fin (8 * 1024) => gateTerm x wg bg wu bu b ⟨r.val, r.isLt⟩ h)
  refine Eq.trans ?_ (hs.trans ?_)
  · rfl
  · refine Finset.sum_congr rfl fun j _ => Finset.sum_congr rfl fun q _ => ?_
    refine congrArg (fun t => gateTerm x wg bg wu bu b t h) (Fin.ext ?_)
    show (finProdFinEquiv (j, q)).val = 1024 * j.val + q.val
    simp [finProdFinEquiv]; omega

/-- An accumulator started at zero plus the first term, and increased by the next term at each of seven further steps,
    ends at the sum of the eight terms. -/
theorem acc_eight (f : ℕ → EReal) (a : ℕ → EReal) (h0 : a 0 = 0 + f 0)
    (hs : ∀ j, j + 1 < 8 → a (j + 1) = a j + f (j + 1)) : a 7 = ∑ j : Fin 8, f j.val := by
  have h1 : a 1 = a 0 + f 1 := hs 0 (by norm_num)
  have h2 : a 2 = a 1 + f 2 := hs 1 (by norm_num)
  have h3 : a 3 = a 2 + f 3 := hs 2 (by norm_num)
  have h4 : a 4 = a 3 + f 4 := hs 3 (by norm_num)
  have h5 : a 5 = a 4 + f 5 := hs 4 (by norm_num)
  have h6 : a 6 = a 5 + f 6 := hs 5 (by norm_num)
  have h7 : a 7 = a 6 + f 7 := hs 6 (by norm_num)
  rw [h7, h6, h5, h4, h3, h2, h1, h0, zero_add, Fin.sum_univ_eight]
  rfl

/-- The result at a column reads only that column of the output matrix and that entry of the bias: a matrix and a bias
    with further columns agree with the original at the columns they share. -/
theorem out_padded {B T N N' : ℕ} (x : (⟨3, ![B, T, 16]⟩ : Shape).Idx → EReal) (wg : (⟨2, ![16, 1]⟩ : Shape).Idx → EReal)
    (bg : EReal) (wu : (⟨2, ![16, 16]⟩ : Shape).Idx → EReal) (bu : Fin 16 → EReal)
    (wo : (⟨2, ![16, N]⟩ : Shape).Idx → EReal) (bo : Fin N → EReal)
    (wo' : (⟨2, ![16, N']⟩ : Shape).Idx → EReal) (bo' : Fin N' → EReal)
    (b : Fin B) (n : Fin N) (n' : Fin N') (hn : n'.val = n.val)
    (hw : ∀ k : Fin 16, wo' (ix2 k n') = wo (ix2 k n)) (hb : bo' n' = bo n) :
    out x wg bg wu bu wo' bo' b n' = out x wg bg wu bu wo bo b n := by
  unfold out
  simp only [hw, hb]

/-- An array that holds the memory at every (b, h), taken against the output matrix and bias, is the result. -/
theorem out_of_memory {B T N : ℕ} (x : (⟨3, ![B, T, 16]⟩ : Shape).Idx → EReal) (wg : (⟨2, ![16, 1]⟩ : Shape).Idx → EReal)
    (bg : EReal) (wu : (⟨2, ![16, 16]⟩ : Shape).Idx → EReal) (bu : Fin 16 → EReal)
    (wo : (⟨2, ![16, N]⟩ : Shape).Idx → EReal) (bo : Fin N → EReal)
    (mem : (⟨2, ![B, 16]⟩ : Shape).Idx → EReal)
    (hm : ∀ (b : Fin B) (h : Fin 16), mem (ix2 b h) = memory x wg bg wu bu b h) (b : Fin B) (n : Fin N) :
    (∑ k : Fin 16, mem (ix2 b k) * wo (ix2 k n)) + bo n = out x wg bg wu bu wo bo b n := by
  unfold out
  simp only [hm]

end Cert.GatedSpec

end
-- ==== Proof.AccValue.lean ====
/-
  The accumulate region's result array is the memory.

  The region walks 8 row blocks of 32 rows and, within each, 8 time tiles of 1024 times (point t is row block t / 8, time
  tile t % 8).  At every point the activation window holds rows 32 · (t / 8) + r, times 1024 · (t % 8) + q of the
  activations, and the four parameter windows hold their whole arrays.  The body's arithmetic at (r, h) is what the
  accumulator held plus the tile's sum of the specification's summands; the accumulator starts each row block from the
  zero block, so after time tile j it holds the sum over the tiles up to j, and after the eighth the whole sum over the
  8192 times: the memory of row 32 · (t / 8) + r.  That point copies the accumulator to the output block and writes it back;
  the eight written blocks cover the 256 rows, so the array ends holding the memory at every (b, h).
-/
import proofs.«171928_j25443386262310_2_alg».proof.Proof.AccPieces
import proofs.«171928_j25443386262310_2_alg».proof.Proof.PayloadReads
import proofs.«171928_j25443386262310_2_alg».proof.Proof.TileAlgebra
import proofs.«171928_j25443386262310_2_alg».proof.Proof.GatedSpec
import Idealize.ShloMosaic.Lib.Pipeline.Value
import Idealize.ShloMosaic.Lib.ValueIdx
import Idealize.ShloMosaic.Lib.Tactic

set_option maxRecDepth 16384

noncomputable section

namespace Cert.KernelIdeal.AccValue

open Cert.KernelIdeal Cert.KernelIdeal.Gen Cert.KernelIdeal.Frame
open Idealize.ShloMosaic Idealize.ShloMosaic.TcCoe Idealize.ShloMosaic.Tactic Idealize.SL.Sem Idealize.ShloMosaic.ValueIdx
open Idealize.ShloMosaic.Pipeline (Dat)

/-! ## The accumulator point by point, as the body's arithmetic (any float values) -/

section
variable {F : FTy → Type} [FloatOps F]
variable (V : (c : Dev nD) → (b : Ref sig .tc) → Buf (Elt F) ((c : Thread nD τ).loc b))

/-! ## The windows' block indices over the grid: point t is row block t / 8, time tile t % 8 -/

theorem index0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val / 8 ∧ win0_5.index t 1 = 0 :=
  (by decide +kernel : ∀ t : Fin grid0.N, win0_5.index t 0 = t.val / 8 ∧ win0_5.index t 1 = 0)

/-! ## The input blocks at a point, as entries of the arrays -/

/-- The activation tile at point t = 8 · bb + j: rows 32 · bb + r, times 1024 · j + q of the gathered activations. -/
theorem ablk0_apply (c : Dev nD) (t : Fin cfg0.N) (bb j : ℕ) (hbb : bb < 8) (hj : j < 8) (ht : t.val = 8 * bb + j)
    (r : Fin 32) (q : Fin 1024) (k : Fin 16) :
    (ablk V c 0 t : Vec F S32x1024x16 .f32) (ix3 r q k)
      = (V c main_v6 : S256x8192x16.Idx → Elt F .f32) (ix3 (⟨32 * bb + r.val, by have := r.isLt; omega⟩ : Fin 256)
          (⟨1024 * j + q.val, by have := q.isLt; omega⟩ : Fin 8192) k) := by
  have hi := index0 t
  unfold ablk
  rw [View.read_apply]
  show V c main_v6 _ = V c main_v6 _
  refine congrArg (V c main_v6) (funext fun a => Fin.ext ?_)
  match a with
  | ⟨0, _⟩ => show win0_0.index t 0 * 32 + 1 * r.val = 32 * bb + r.val; rw [hi.1]; omega
  | ⟨1, _⟩ => show win0_0.index t 1 * 1024 + 1 * q.val = 1024 * j + q.val; rw [hi.2.1]; omega
  | ⟨2, _⟩ => show win0_0.index t 2 * 16 + 1 * k.val = k.val; rw [hi.2.2]; omega

/-- The gate column's block is the whole gate column. -/
theorem ablk1_eq (c : Dev nD) (t : Fin cfg0.N) : (ablk V c 1 t : Vec F S16x1 .f32) = V c main_arg2 := by
  have hi := index1 t
  funext j
  unfold ablk
  rw [View.read_apply]
  show V c main_arg2 _ = V c main_arg2 j
  refine congrArg (V c main_arg2) (funext fun a => Fin.ext ?_)
  match a with
  | ⟨0, _⟩ => show win0_1.index t 0 * 16 + 1 * (j 0).val = (j 0).val; rw [hi.1]; omega
  | ⟨1, _⟩ => show win0_1.index t 1 * 1 + 1 * (j 1).val = (j 1).val; rw [hi.2]; omega

/-- The gate bias's block is the whole one-entry array. -/
theorem ablk2_eq (c : Dev nD) (t : Fin cfg0.N) : (ablk V c 2 t : Vec F S1x1 .f32) = V c main_v7 := by
  have hi := index2 t
  funext j
  unfold ablk
  rw [View.read_apply]
  show V c main_v7 _ = V c main_v7 j
  refine congrArg (V c main_v7) (funext fun a => Fin.ext ?_)
  match a with
  | ⟨0, _⟩ => show win0_2.index t 0 * 1 + 1 * (j 0).val = (j 0).val; rw [hi.1]; omega
  | ⟨1, _⟩ => show win0_2.index t 1 * 1 + 1 * (j 1).val = (j 1).val; rw [hi.2]; omega

/-- The update matrix's block is the whole matrix. -/
theorem ablk3_eq (c : Dev nD) (t : Fin cfg0.N) : (ablk V c 3 t : Vec F S16x16 .f32) = V c main_arg4 := by
  have hi := index3 t
  funext j
  unfold ablk
  rw [View.read_apply]
  show V c main_arg4 _ = V c main_arg4 j
  refine congrArg (V c main_arg4) (funext fun a => Fin.ext ?_)
  match a with
  | ⟨0, _⟩ => show win0_3.index t 0 * 16 + 1 * (j 0).val = (j 0).val; rw [hi.1]; omega
  | ⟨1, _⟩ => show win0_3.index t 1 * 16 + 1 * (j 1).val = (j 1).val; rw [hi.2]; omega

/-- The update bias's block is the whole row. -/
theorem ablk4_eq (c : Dev nD) (t : Fin cfg0.N) : (ablk V c 4 t : Vec F S1x16 .f32) = V c main_v8 := by
  have hi := index4 t
  funext j
  unfold ablk
  rw [View.read_apply]
  show V c main_v8 _ = V c main_v8 j
  refine congrArg (V c main_v8) (funext fun a => Fin.ext ?_)
  match a with
  | ⟨0, _⟩ => show win0_4.index t 0 * 1 + 1 * (j 0).val = (j 0).val; rw [hi.1]; omega
  | ⟨1, _⟩ => show win0_4.index t 1 * 16 + 1 * (j 1).val = (j 1).val; rw [hi.2]; omega

/-- The accumulator's value depends on the position only. -/
theorem accAt_congr (c : Dev nD) {n n' : ℕ} (e : n = n') (hn : n < cfg0.N) (hn' : n' < cfg0.N) :
    accAt V c n hn = accAt V c n' hn' := by subst e; rfl

/-- At a first time tile the accumulator ends at the body's arithmetic over the zero block. -/
theorem accAt_reset (c : Dev nD) (t : Fin cfg0.N) (h0 : t.val % 8 = 0) :
    accAt V c t.val t.isLt
      = k0_pay2 (ablk V c 0 t) (ablk V c 1 t) (ablk V c 3 t) (ablk V c 2 t) (ablk V c 4 t) (k0_pay1 (F := F)) := by
  rw [accAt_first V c t h0 (by omega)]
  exact accFirst_eq ..

/-- At any later time tile it ends at the body's arithmetic over what the point before left. -/
theorem accAt_next (c : Dev nD) (t : Fin cfg0.N) (h0 : ¬t.val % 8 = 0) :
    accAt V c t.val t.isLt
      = k0_pay2 (ablk V c 0 t) (ablk V c 1 t) (ablk V c 3 t) (ablk V c 2 t) (ablk V c 4 t)
          (accAt V c (t.val - 1) (Nat.lt_of_le_of_lt (Nat.sub_le _ _) t.isLt)) := by
  by_cases h1 : t.val % 8 = 7
  · rw [accAt_last V c t h0 h1]; exact accLast_eq ..
  · rw [accAt_middle V c t h0 h1]; exact accMiddle_eq ..

/-- At a last time tile the output block is the accumulator. -/
theorem outAt_copy (c : Dev nD) (t : Fin cfg0.N) (h1 : t.val % 8 = 7) : outAt V c t = accAt V c t.val t.isLt := by
  have h0 : ¬t.val % 8 = 0 := by omega
  rw [outAt_last V c t h0 h1, accAt_last V c t h0 h1]
  exact (outLast_eq ..).trans (accLast_eq ..).symm

end

/-! ## The accumulator as partial sums of the memory (extended reals) -/

section
variable (V : (c : Dev nD) → (b : Ref sig .tc) → Buf (Elt Ideal) ((c : Thread nD τ).loc b))

/-- One point's arithmetic at (r, h), over a tile xb that is the whole activations' tile at row block bb, time tile j:
    what the accumulator held plus the tile's sum of the specification's summands. -/
theorem point_of_blocks (x : (⟨3, ![256, 8192, 16]⟩ : Shape).Idx → EReal) (xb : Vec Ideal S32x1024x16 .f32)
    (wg : Vec Ideal S16x1 .f32) (bgv : Vec Ideal S1x1 .f32) (wu : Vec Ideal S16x16 .f32) (buv : Vec Ideal S1x16 .f32)
    (acc : Vec Ideal S32x16 .f32) (bb j : ℕ) (hbb : bb < 8) (hj : j < 8)
    (hx : ∀ (r : Fin 32) (q : Fin 1024) (k : Fin 16),
      xb (ix3 r q k) = x (ix3 (⟨32 * bb + r.val, by have := r.isLt; omega⟩ : Fin 256)
        (⟨1024 * j + q.val, by have := q.isLt; omega⟩ : Fin 8192) k))
    (r : Fin 32) (h : Fin 16) :
    k0_pay2 xb wg wu bgv buv acc (ix2 r h)
      = acc (ix2 r h) + ∑ q : Fin 1024, Cert.GatedSpec.gateTerm x wg (bgv (ix2 (0 : Fin 1) (0 : Fin 1))) wu
          (fun h' => buv (ix2 (0 : Fin 1) h')) (⟨32 * bb + r.val, by have := r.isLt; omega⟩ : Fin 256)
          (⟨1024 * j + q.val, by have := q.isLt; omega⟩ : Fin 8192) h := by
  refine (Cert.KernelIdeal.PayloadReads.pay2_apply xb wg wu bgv buv acc r h).trans ?_
  refine congrArg (acc (ix2 r h) + ·) (Finset.sum_congr rfl fun q _ => ?_)
  exact Cert.GatedSpec.gateTerm_block x xb bb j hbb hj hx wg _ wu _ r q h

/-- The same at point t = 8 · bb + j of the grid, over the point's window blocks. -/
theorem point_apply (c : Dev nD) (t : Fin cfg0.N) (bb j : ℕ) (hbb : bb < 8) (hj : j < 8) (ht : t.val = 8 * bb + j)
    (acc : Vec Ideal S32x16 .f32) (r : Fin 32) (h : Fin 16) :
    k0_pay2 (ablk V c 0 t) (ablk V c 1 t) (ablk V c 3 t) (ablk V c 2 t) (ablk V c 4 t) acc (ix2 r h)
      = acc (ix2 r h) + ∑ q : Fin 1024, Cert.GatedSpec.gateTerm (B := 256) (T := 8192) (V c main_v6) (V c main_arg2)
          (V c main_v7 (ix2 (0 : Fin 1) (0 : Fin 1))) (V c main_arg4) (fun h' => V c main_v8 (ix2 (0 : Fin 1) h'))
          (⟨32 * bb + r.val, by have := r.isLt; omega⟩ : Fin 256) (⟨1024 * j + q.val, by have := q.isLt; omega⟩ : Fin 8192) h := by
  rw [ablk1_eq V c t, ablk2_eq V c t, ablk3_eq V c t, ablk4_eq V c t]
  exact point_of_blocks (V c main_v6) (ablk V c 0 t) (V c main_arg2) (V c main_v7) (V c main_arg4) (V c main_v8) acc bb j hbb hj
    (ablk0_apply V c t bb j hbb hj ht) r h

/-- After time tile j of row block bb the accumulator holds, at (r, h), the sum over the tiles up to j of the tiles' sums
    of the specification's summands of row 32 · bb + r. -/
theorem accAt_tiles (c : Dev nD) (bb : ℕ) (hbb : bb < 8) (r : Fin 32) (h : Fin 16) : ∀ (j : ℕ) (hj : j < 8),
    accAt V c (8 * bb + j) (by have : cfg0.N = 64 := N_0; omega) (ix2 r h)
      = ∑ j' : Fin (j + 1), ∑ q : Fin 1024, Cert.GatedSpec.gateTerm (B := 256) (T := 8192) (V c main_v6) (V c main_arg2)
          (V c main_v7 (ix2 (0 : Fin 1) (0 : Fin 1))) (V c main_arg4) (fun h' => V c main_v8 (ix2 (0 : Fin 1) h'))
          (⟨32 * bb + r.val, by have := r.isLt; omega⟩ : Fin 256)
          (⟨1024 * j'.val + q.val, by have := j'.isLt; have := q.isLt; omega⟩ : Fin 8192) h
  | 0, hj => by
    have hN : cfg0.N = 64 := N_0
    have e := accAt_reset V c (⟨8 * bb + 0, by omega⟩ : Fin cfg0.N) (by show (8 * bb + 0) % 8 = 0; omega)
    refine (congrFun e (ix2 r h)).trans ?_
    refine (point_apply V c _ bb 0 hbb hj rfl _ r h).trans ?_
    rw [Cert.KernelIdeal.PayloadReads.pay1_apply]
    refine Eq.trans ?_ (Fin.sum_univ_castSucc _).symm
    rw [Fin.sum_univ_zero]
    rfl
  | j + 1, hj => by
    have hN : cfg0.N = 64 := N_0
    have e := accAt_next V c (⟨8 * bb + (j + 1), by omega⟩ : Fin cfg0.N) (by show ¬(8 * bb + (j + 1)) % 8 = 0; omega)
    refine (congrFun e (ix2 r h)).trans ?_
    refine (point_apply V c _ bb (j + 1) hbb hj rfl _ r h).trans ?_
    refine Eq.trans ?_ (Fin.sum_univ_castSucc _).symm
    refine congrArg₂ (· + ·) ?_ rfl
    refine (congrFun (accAt_congr V c (show 8 * bb + (j + 1) - 1 = 8 * bb + j by omega) _ (by omega)) (ix2 r h)).trans ?_
    exact accAt_tiles c bb hbb r h j (by omega)

/-- At the last time tile of row block bb the output block holds the memory of rows 32 · bb + r. -/
theorem outAt_memory (c : Dev nD) (t : Fin cfg0.N) (bb : ℕ) (hbb : bb < 8) (ht : t.val = 8 * bb + 7) (r : Fin 32) (h : Fin 16) :
    (outAt V c t : Vec Ideal S32x16 .f32) (ix2 r h)
      = Cert.GatedSpec.memory (B := 256) (T := 8192) (V c main_v6) (V c main_arg2) (V c main_v7 (ix2 (0 : Fin 1) (0 : Fin 1)))
          (V c main_arg4) (fun h' => V c main_v8 (ix2 (0 : Fin 1) h')) (⟨32 * bb + r.val, by have := r.isLt; omega⟩ : Fin 256) h := by
  rw [outAt_copy V c t (by omega), Cert.GatedSpec.memory_by_tiles]
  refine (congrFun (accAt_congr V c ht t.isLt (by have : cfg0.N = 64 := N_0; omega)) (ix2 r h)).trans ?_
  exact accAt_tiles V c bb hbb r h 7 (by omega)

end

/-! ## The result array after the region is the memory -/

section
variable (V : (c : Dev nD) → (b : Ref sig .tc) → Buf (Elt Ideal) ((c : Thread nD τ).loc b))

/-- The output window's block at every point has the full block's sizes (the blocks tile the array). -/
theorem xsize5 : ∀ t : Fin cfg0.N, win0_5.xsize (grid0.coords t) 0 = 32 ∧ win0_5.xsize (grid0.coords t) 1 = 16 :=
  (by decide +kernel : ∀ t : Fin grid0.N, win0_5.xsize (grid0.coords t) 0 = 32 ∧ win0_5.xsize (grid0.coords t) 1 = 16)

/-- The memory of the region's arrays, as contents of the result array. -/
def memArr (c : Dev nD) : S256x16.Idx → EReal := fun i =>
  Cert.GatedSpec.memory (B := 256) (T := 8192) (V c main_v6) (V c main_arg2) (V c main_v7 (ix2 (0 : Fin 1) (0 : Fin 1)))
    (V c main_arg4) (fun h => V c main_v8 (ix2 (0 : Fin 1) h)) (⟨(i 0).val, idx2_lt0 i⟩ : Fin 256) (⟨(i 1).val, idx2_lt1 i⟩ : Fin 16)

/-- What a last time tile writes back is its block of the memory: rows 32 · (t / 8) + r. -/
theorem flushed_eq (c : Dev nD) (t : Fin cfg0.N) (hf : (cfg0.win 5).flush t = true) :
    (adat V c).flushed 5 t = ((cfg0.win 5).blk t).view.read (Elt Ideal) (memArr V c) := by
  have hN : cfg0.N = 64 := N_0
  have h7 : t.val % 8 = 7 := (flush0_5 t).mp hf
  have hi := index5 t
  funext y
  have hy0 : (y 0).val < 32 := (y 0).isLt
  have hy1 : (y 1).val < 16 := (y 1).isLt
  have e1 : (adat V c).flushed 5 t y
      = (outAt V c t : Vec Ideal S32x16 .f32) (ix2 (⟨(y 0).val, hy0⟩ : Fin 32) (⟨(y 1).val, hy1⟩ : Fin 16)) := by
    show (adat V c).after 5 t _ = _
    rw [aafter5]
    exact congrArg (outAt V c t) (funext fun a => Fin.ext (by match a with | ⟨0, _⟩ => rfl | ⟨1, _⟩ => rfl))
  rw [e1, outAt_memory V c t (t.val / 8) (by omega) (by omega) ⟨_, hy0⟩ ⟨_, hy1⟩, View.read_apply]
  show _ = memArr V c (((cfg0.win 5).blk t).view.emb y)
  unfold memArr
  refine congrArg₂ (fun b h => Cert.GatedSpec.memory (B := 256) (T := 8192) (V c main_v6) (V c main_arg2)
    (V c main_v7 (ix2 (0 : Fin 1) (0 : Fin 1))) (V c main_arg4) (fun h => V c main_v8 (ix2 (0 : Fin 1) h)) b h) (Fin.ext ?_) (Fin.ext ?_)
  · show 32 * (t.val / 8) + (y 0).val = win0_5.index t 0 * 32 + 1 * (y 0).val
    rw [hi.1]; omega
  · show (y 1).val = win0_5.index t 1 * 16 + 1 * (y 1).val
    rw [hi.2]; omega

/-- Every row b of the result array is in the block the last time tile of row block b / 32 writes back, so after the region
    the array holds the memory. -/
theorem acc_final (c : Dev nD) :
    (Cert.KernelIdeal.Frame.adat (F := Ideal) V c).arrAt 5 cfg0.N
      = fun i => Cert.GatedSpec.memory (B := 256) (T := 8192) (V c main_v6) (V c main_arg2)
          (V c main_v7 (ix2 (0 : Fin 1) (0 : Fin 1))) (V c main_arg4) (fun h => V c main_v8 (ix2 (0 : Fin 1) h))
          (⟨(i 0).val, idx2_lt0 i⟩ : Fin 256) (⟨(i 1).val, idx2_lt1 i⟩ : Fin 16) :=
  (adat V c).arrAt_eq_of_cover 5 (memArr V c) (flushed_eq V c) fun i => by
    have hN : cfg0.N = 64 := N_0
    have h0 : (i 0 : Nat) < 256 := (i 0).isLt
    have h1 : (i 1 : Nat) < 16 := (i 1).isLt
    have hlt : 8 * ((i 0 : Nat) / 32) + 7 < cfg0.N := by omega
    refine ⟨⟨8 * ((i 0 : Nat) / 32) + 7, hlt⟩, (flush0_5 _).mpr (by show (8 * ((i 0 : Nat) / 32) + 7) % 8 = 7; omega), ?_⟩
    show i ∈ ((View.whole main_v9).slice (win0_5.rect ⟨8 * ((i 0 : Nat) / 32) + 7, hlt⟩)).set
    rw [View.set_slice_whole, Rect.mem_set_unit]
    intro a
    have hi := index5 ⟨8 * ((i 0 : Nat) / 32) + 7, hlt⟩
    have hx := xsize5 ⟨8 * ((i 0 : Nat) / 32) + 7, hlt⟩
    match a with
    | ⟨0, _⟩ =>
      show win0_5.index ⟨8 * ((i 0 : Nat) / 32) + 7, hlt⟩ 0 * 32 ≤ (i 0 : Nat)
        ∧ (i 0 : Nat) < win0_5.index ⟨8 * ((i 0 : Nat) / 32) + 7, hlt⟩ 0 * 32 + win0_5.xsize (grid0.coords ⟨8 * ((i 0 : Nat) / 32) + 7, hlt⟩) 0
      rw [hi.1, hx.1]; dsimp only; omega
    | ⟨1, _⟩ =>
      show win0_5.index ⟨8 * ((i 0 : Nat) / 32) + 7, hlt⟩ 1 * 16 ≤ (i 1 : Nat)
        ∧ (i 1 : Nat) < win0_5.index ⟨8 * ((i 0 : Nat) / 32) + 7, hlt⟩ 1 * 16 + win0_5.xsize (grid0.coords ⟨8 * ((i 0 : Nat) / 32) + 7, hlt⟩) 1
      rw [hi.2, hx.2]; omega

end

end Cert.KernelIdeal.AccValue

end
-- ==== Proof.ProjValue.lean ====
/- The projection region's result array, entry by entry, on the extended reals.

   The region walks 50 column tiles. At tile t it holds the whole memory array [256, 16], columns 1024·t … 1024·t + 1023 of
   the padded output matrix [16, 51200] and of the padded bias row [1, 51200], and stores the product plus the bias row into
   columns 1024·t … 1024·t + 1023 of the result [256, 51200]. Every column n lies in exactly the tile n / 1024, so after the
   last tile the result at (r, n) is the sum over k of memory (r, k) · matrix (k, n), plus the bias at n. -/
import proofs.«171928_j25443386262310_2_alg».proof.Proof.KernelIdealFrame.Projection
import proofs.«171928_j25443386262310_2_alg».proof.Proof.PayloadReads
import proofs.«171928_j25443386262310_2_alg».proof.Proof.GatedSpec
import Idealize.ShloMosaic.Lib.Pipeline.Value

set_option maxRecDepth 16384

noncomputable section

open scoped BigOperators

namespace Cert.KernelIdeal.ProjValue

open Cert.KernelIdeal Cert.KernelIdeal.Gen Cert.KernelIdeal.Frame Cert.KernelIdeal.PayloadReads
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three argument arrays of the region as the core finds them: the memory, the padded output matrix, the padded bias. -/
abbrev mem9 (c : Dev nD) : S256x16.Idx → EReal := V c main_v9
abbrev mat10 (c : Dev nD) : S16x51200.Idx → EReal := V c main_v10
abbrev bias12 (c : Dev nD) : S1x51200.Idx → EReal := V c main_v12

/-- The result array the region leaves: at (r, n), row r of the memory against column n of the padded output matrix, plus
    the padded bias at n. -/
def projG (c : Dev nD) : S256x51200.Idx → EReal := fun i =>
  (∑ k : Fin 16, mem9 V c (ix2 (⟨(i 0).val, idx2_lt0 i⟩ : Fin 256) k) * mat10 V c (ix2 k (⟨(i 1).val, idx2_lt1 i⟩ : Fin 51200)))
    + bias12 V c (ix2 (0 : Fin 1) (⟨(i 1).val, idx2_lt1 i⟩ : Fin 51200))

/-- The same with the two coordinates named. -/
theorem projG_apply (c : Dev nD) (i : S256x51200.Idx) (r : Fin 256) (n : Fin 51200) (h0 : (i 0).val = r.val)
    (h1 : (i 1).val = n.val) :
    projG V c i = (∑ k : Fin 16, mem9 V c (ix2 r k) * mat10 V c (ix2 k n)) + bias12 V c (ix2 (0 : Fin 1) n) := by
  have e0 : (⟨(i 0).val, idx2_lt0 i⟩ : Fin 256) = r := Fin.ext h0
  have e1 : (⟨(i 1).val, idx2_lt1 i⟩ : Fin 51200) = n := Fin.ext h1
  unfold projG
  rw [e0, e1]

/-- The output block after the body is the body's arithmetic of the three input blocks. -/
theorem projOut_eq (x0 : Vec Ideal S256x16 .f32) (x1 : Vec Ideal S16x1024 .f32) (x2 : Vec Ideal S1x1024 .f32) :
    projOut x0 x1 x2 = k1_pay1 x0 x1 x2 := by
  unfold projOut
  rw [View.canon_unit_zero hz]
  simp only [View.ld_unit_zero (S := S256x16) hz, View.ld_unit_zero (S := S16x1024) hz, View.ld_unit_zero (S := S1x1024) hz]

/-- The index maps over the 50 tiles: the memory's block is always block (0, 0); the matrix's, the bias's and the result's
    block at tile t is block (0, t). -/
theorem idx_facts : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The memory's block at any tile is the whole memory array. -/
theorem pblk0_apply (c : Dev nD) (t : Fin cfg1.N) (r : Fin 256) (k : Fin 16) :
    (pblk V c 0 t : Vec Ideal S256x16 .f32) (ix2 r k) = mem9 V c (ix2 r k) := by
  obtain ⟨e0, e1, -⟩ := idx_facts t
  unfold pblk
  rw [View.read_apply]
  show V c main_v9 _ = V c main_v9 _
  refine congrArg (V c main_v9) (funext fun a => Fin.ext ?_)
  match a with
  | ⟨0, _⟩ => show win1_0.index t (0 : Fin 2) * 256 + 1 * r.val = r.val; rw [e0]; omega
  | ⟨1, _⟩ => show win1_0.index t (1 : Fin 2) * 16 + 1 * k.val = k.val; rw [e1]; omega

/-- The matrix's block at tile t holds columns 1024·t … of the padded output matrix. -/
theorem pblk1_apply (c : Dev nD) (t : Fin cfg1.N) (k : Fin 16) (q : Fin 1024) (n : Fin 51200)
    (hn : n.val = t.val * 1024 + q.val) :
    (pblk V c 1 t : Vec Ideal S16x1024 .f32) (ix2 k q) = mat10 V c (ix2 k n) := by
  obtain ⟨-, -, e0, e1, -⟩ := idx_facts t
  unfold pblk
  rw [View.read_apply]
  show V c main_v10 _ = V c main_v10 _
  refine congrArg (V c main_v10) (funext fun a => Fin.ext ?_)
  match a with
  | ⟨0, _⟩ => show win1_1.index t (0 : Fin 2) * 16 + 1 * k.val = k.val; rw [e0]; omega
  | ⟨1, _⟩ => show win1_1.index t (1 : Fin 2) * 1024 + 1 * q.val = n.val; rw [e1, hn]; omega

/-- The bias's block at tile t holds columns 1024·t … of the padded bias row. -/
theorem pblk2_apply (c : Dev nD) (t : Fin cfg1.N) (q : Fin 1024) (n : Fin 51200)
    (hn : n.val = t.val * 1024 + q.val) :
    (pblk V c 2 t : Vec Ideal S1x1024 .f32) (ix2 (0 : Fin 1) q) = bias12 V c (ix2 (0 : Fin 1) n) := by
  obtain ⟨-, -, -, -, e0, e1, -⟩ := idx_facts t
  unfold pblk
  rw [View.read_apply]
  show V c main_v12 _ = V c main_v12 _
  refine congrArg (V c main_v12) (funext fun a => Fin.ext ?_)
  match a with
  | ⟨0, _⟩ => show win1_2.index t (0 : Fin 2) * 1 + 1 * 0 = 0; rw [e0]
  | ⟨1, _⟩ => show win1_2.index t (1 : Fin 2) * 1024 + 1 * q.val = n.val; rw [e1, hn]; omega

/-- What tile t writes back is block t of the result array `projG`. -/
theorem flushed3_eq (c : Dev nD) (t : Fin cfg1.N) :
    (pdat (F := Ideal) V c).flushed 3 t = ((cfg1.win 3).blk t).view.read (Elt Ideal) (projG V c) := by
  have hN : cfg1.N = 50 := N_1
  show (cfg1.win 3).cut (grid1.coords t) ((pdat (F := Ideal) V c).after 3 t) = _
  rw [pafter3, projOut_eq]
  obtain ⟨-, -, -, -, -, -, e0, e1⟩ := idx_facts t
  funext j
  obtain ⟨p, q, rfl⟩ : ∃ (p : Fin 256) (q : Fin 1024), j = ix2 p q := ⟨j 0, j 1, eq_ix2 j⟩
  have hnl : t.val * 1024 + q.val < 51200 := by have := t.isLt; have := q.isLt; omega
  rw [View.read_apply]
  show k1_pay1 (pblk V c 0 t) (pblk V c 1 t) (pblk V c 2 t) (ix2 p q) = projG V c (((cfg1.win 3).blk t).view.emb (ix2 p q))
  refine (k1_pay1_apply _ _ _ p q).trans ?_
  refine Eq.symm ((projG_apply V c _ p ⟨t.val * 1024 + q.val, hnl⟩ ?_ ?_).trans ?_)
  · show win1_3.index t (0 : Fin 2) * 256 + 1 * p.val = p.val
    rw [e0]; omega
  · show win1_3.index t (1 : Fin 2) * 1024 + 1 * q.val = t.val * 1024 + q.val
    rw [e1]; omega
  · refine congrArg₂ (· + ·) (Finset.sum_congr rfl fun k _ => congrArg₂ (· * ·) ?_ ?_) ?_
    · exact (pblk0_apply V c t p k).symm
    · exact (pblk1_apply V c t k q _ rfl).symm
    · exact (pblk2_apply V c t q _ rfl).symm

/-- An index of the result is in tile t's block iff each coordinate is in the block's range on its axis. -/
theorem mem_blk3 (t : Fin cfg1.N) (i : S256x51200.Idx) :
    i ∈ ((cfg1.win 3).blk t).view.set
      ↔ ∀ a : Fin 2, win1_3.index t a * S256x1024.size a ≤ (i a).val ∧ (i a).val < win1_3.index t a * S256x1024.size a + S256x1024.size a := by
  show i ∈ ((View.whole main_v13).slice (win1_3.rect t)).set ↔ _
  rw [View.set_slice_whole, Rect.mem_set_unit]
  exact Iff.rfl

/-- Every entry of the result is written back by the tile its column lies in. -/
theorem cover3 (i : S256x51200.Idx) : ∃ t : Fin cfg1.N, (cfg1.win 3).flush t = true ∧ i ∈ ((cfg1.win 3).blk t).view.set := by
  have hN : cfg1.N = 50 := N_1
  have hi0 : (i 0).val < 256 := (i 0).isLt
  have hi1 : (i 1).val < 51200 := (i 1).isLt
  refine ⟨⟨(i 1).val / 1024, by omega⟩, flush1_3 _, ?_⟩
  rw [mem_blk3]
  obtain ⟨-, -, -, -, -, -, e0, e1⟩ := idx_facts ⟨(i 1).val / 1024, by omega⟩
  intro a
  match a with
  | ⟨0, _⟩ =>
    show win1_3.index _ (0 : Fin 2) * 256 ≤ (i 0).val ∧ (i 0).val < win1_3.index _ (0 : Fin 2) * 256 + 256
    rw [e0]; omega
  | ⟨1, _⟩ =>
    show win1_3.index _ (1 : Fin 2) * 1024 ≤ (i 1).val ∧ (i 1).val < win1_3.index _ (1 : Fin 2) * 1024 + 1024
    rw [e1]; show (i 1).val / 1024 * 1024 ≤ (i 1).val ∧ (i 1).val < (i 1).val / 1024 * 1024 + 1024; omega

/-- The result array after the region: the memory times the padded output matrix plus the padded bias, entry by entry. -/
theorem proj_final (c : Dev nD) :
    (Cert.KernelIdeal.Frame.pdat (F := Ideal) V c).arrAt 3 cfg1.N
      = fun i => (∑ k : Fin 16, mem9 V c (ix2 (⟨(i 0).val, idx2_lt0 i⟩ : Fin 256) k)
            * mat10 V c (ix2 k (⟨(i 1).val, idx2_lt1 i⟩ : Fin 51200)))
          + bias12 V c (ix2 (0 : Fin 1) (⟨(i 1).val, idx2_lt1 i⟩ : Fin 51200)) :=
  (pdat (F := Ideal) V c).arrAt_eq_of_cover 3 (projG V c) (fun t _ => flushed3_eq V c t) cover3

/-- The same read at one entry (r, n). -/
theorem proj_final_apply (c : Dev nD) (r : Fin 256) (n : Fin 51200) :
    ((Cert.KernelIdeal.Frame.pdat (F := Ideal) V c).arrAt 3 cfg1.N : S256x51200.Idx → EReal) (ix2 r n)
      = (∑ k : Fin 16, mem9 V c (ix2 r k) * mat10 V c (ix2 k n)) + bias12 V c (ix2 (0 : Fin 1) n) :=
  (congrFun (proj_final V c) (ix2 r n)).trans (projG_apply V c (ix2 r n) r n rfl rfl)

end Cert.KernelIdeal.ProjValue

end
-- ==== Proof.LibHostGlue.lean ====
/- The host operations around the two kernels, read at coordinates, for any extents and any element type.

   Padding a matrix [a, b] on the right of its rows up to [a, c] by a scalar: entry (p, q) of the result is the matrix at
   (p, q) when q < b and the scalar otherwise. Cutting the first c columns out of a matrix [a, d]: entry (p, q) of the cut
   is the matrix at (p, q). A vector [n] viewed as a one-row matrix [1, n]: entry (0, q) is the vector at q. The integer
   zero converted to a float is zero on the extended reals. -/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.Lib.HostGlue

variable {α : Type}

/-! ## Padding the rows on the right -/

/-- A matrix `[a, b]` padded by nothing before and nothing between, and only after the columns, to `[a, c]`: at (p, q) with
    `q < b` the result is the matrix at (p, q). -/
theorem pad_right_apply_lt {a b c : ℕ} {u : Shape} (hi : Fin 2 → ℕ) (x : (⟨2, ![a, b]⟩ : Shape).Idx → α) (v : u.Idx → α)
    (h : (⟨2, ![a, b]⟩ : Shape).Pads (![0, 0] : Fin 2 → ℕ) hi (![0, 0] : Fin 2 → ℕ) ⟨2, ![a, c]⟩) (hu : 0 < u.numel)
    (p : Fin a) (q : Fin c) (hq : q.val < b) :
    pad ⟨2, ![a, c]⟩ (![0, 0] : Fin 2 → ℕ) hi (![0, 0] : Fin 2 → ℕ) x v h hu (ix2 p q) = x (ix2 p ⟨q.val, hq⟩) := by
  unfold pad
  split
  · refine congrArg x (funext fun ax => Fin.ext ?_)
    match ax with
    | ⟨0, _⟩ => show (p.val - 0) / (0 + 1) = p.val; omega
    | ⟨1, _⟩ => show (q.val - 0) / (0 + 1) = q.val; omega
  · rename_i hin
    refine absurd (fun ax => ?_) hin
    match ax with
    | ⟨0, _⟩ =>
      show 0 ≤ p.val ∧ (p.val - 0) % (0 + 1) = 0 ∧ (p.val - 0) / (0 + 1) < a
      have := p.isLt; omega
    | ⟨1, _⟩ =>
      show 0 ≤ q.val ∧ (q.val - 0) % (0 + 1) = 0 ∧ (q.val - 0) / (0 + 1) < b
      omega

/-- The same padding at (p, q) with `b ≤ q`: the result is the padding scalar. -/
theorem pad_right_apply_ge {a b c : ℕ} {u : Shape} (hi : Fin 2 → ℕ) (x : (⟨2, ![a, b]⟩ : Shape).Idx → α) (v : u.Idx → α)
    (h : (⟨2, ![a, b]⟩ : Shape).Pads (![0, 0] : Fin 2 → ℕ) hi (![0, 0] : Fin 2 → ℕ) ⟨2, ![a, c]⟩) (hu : 0 < u.numel)
    (p : Fin a) (q : Fin c) (hq : b ≤ q.val) :
    pad ⟨2, ![a, c]⟩ (![0, 0] : Fin 2 → ℕ) hi (![0, 0] : Fin 2 → ℕ) x v h hu (ix2 p q) = v (Shape.Idx.first hu) := by
  unfold pad
  split
  · rename_i hin
    have h1 := (hin ⟨1, Nat.one_lt_two⟩).2.2
    have h1' : (q.val - 0) / (0 + 1) < b := h1
    omega
  · rfl

/-- With a rank-zero padding operand the scalar is its one entry. -/
theorem pad_right_scalar_apply_ge {a b c : ℕ} (hi : Fin 2 → ℕ) (x : (⟨2, ![a, b]⟩ : Shape).Idx → α)
    (v : (⟨0, ![]⟩ : Shape).Idx → α)
    (h : (⟨2, ![a, b]⟩ : Shape).Pads (![0, 0] : Fin 2 → ℕ) hi (![0, 0] : Fin 2 → ℕ) ⟨2, ![a, c]⟩)
    (hu : 0 < (⟨0, ![]⟩ : Shape).numel) (p : Fin a) (q : Fin c) (hq : b ≤ q.val) :
    pad ⟨2, ![a, c]⟩ (![0, 0] : Fin 2 → ℕ) hi (![0, 0] : Fin 2 → ℕ) x v h hu (ix2 p q) = v ix0 :=
  (pad_right_apply_ge hi x v h hu p q hq).trans (congrArg v (eq_ix0 _))

/-- Both cases at once: the matrix inside its columns, the padding scalar past them. -/
theorem pad_right_scalar_apply {a b c : ℕ} (hi : Fin 2 → ℕ) (x : (⟨2, ![a, b]⟩ : Shape).Idx → α)
    (v : (⟨0, ![]⟩ : Shape).Idx → α)
    (h : (⟨2, ![a, b]⟩ : Shape).Pads (![0, 0] : Fin 2 → ℕ) hi (![0, 0] : Fin 2 → ℕ) ⟨2, ![a, c]⟩)
    (hu : 0 < (⟨0, ![]⟩ : Shape).numel) (p : Fin a) (q : Fin c) :
    pad ⟨2, ![a, c]⟩ (![0, 0] : Fin 2 → ℕ) hi (![0, 0] : Fin 2 → ℕ) x v h hu (ix2 p q)
      = if hq : q.val < b then x (ix2 p ⟨q.val, hq⟩) else v ix0 := by
  by_cases hq : q.val < b
  · rw [dif_pos hq]; exact pad_right_apply_lt hi x v h hu p q hq
  · rw [dif_neg hq]; exact pad_right_scalar_apply_ge hi x v h hu p q (Nat.le_of_not_lt hq)

/-! ## Cutting the leading columns -/

/-- The block `[a, c]` at offset (0, 0) of a matrix `[a, d]` reads, at (p, q), the matrix at (p, q') for the column q' of
    the same number. -/
theorem slice_cols_apply {a c d : ℕ} (y : (⟨2, ![a, d]⟩ : Shape).Idx → α)
    (h : (⟨2, ![a, d]⟩ : Shape).Slices (![0, 0] : Fin 2 → ℕ) ⟨2, ![a, c]⟩) (p : Fin a) (q : Fin c) (q' : Fin d)
    (hq : q'.val = q.val) :
    extractStridedSlice ⟨2, ![a, c]⟩ (![0, 0] : Fin 2 → ℕ) y h (ix2 p q) = y (ix2 p q') := by
  refine extractStridedSlice_apply _ y h (ix2 p q) (ix2 p q') fun ax => ?_
  match ax with
  | ⟨0, _⟩ => show p.val = 0 + p.val; omega
  | ⟨1, _⟩ => show q'.val = 0 + q.val; omega

/-- The same with the column carried along `c ≤ d`. -/
theorem slice_cols_apply_castLE {a c d : ℕ} (y : (⟨2, ![a, d]⟩ : Shape).Idx → α)
    (h : (⟨2, ![a, d]⟩ : Shape).Slices (![0, 0] : Fin 2 → ℕ) ⟨2, ![a, c]⟩) (hcd : c ≤ d) (p : Fin a) (q : Fin c) :
    extractStridedSlice ⟨2, ![a, c]⟩ (![0, 0] : Fin 2 → ℕ) y h (ix2 p q) = y (ix2 p (Fin.castLE hcd q)) :=
  slice_cols_apply y h p q (Fin.castLE hcd q) rfl

/-! ## A vector as a one-row matrix -/

/-- A vector `[n]` cast to `[1, n]` reads, at (0, q), the vector at q. -/
theorem reshape_row_apply {n : ℕ} (x : (⟨1, ![n]⟩ : Shape).Idx → α) (h : (⟨1, ![n]⟩ : Shape).ShapeCasts ⟨2, ![1, n]⟩)
    (q : Fin n) : shapeCast ⟨2, ![1, n]⟩ x h (ix2 (0 : Fin 1) q) = x (ix1 q) :=
  shapeCast_a_1a_apply x h (0 : Fin 1) q

/-! ## The integer zero as a float -/

/-- The signed integer zero converts to zero. -/
theorem sitofp_zero (φ : FTy) : FloatOps.sitofp (F := Ideal) φ (0#32) = (0 : EReal) := by
  show (((0#32 : BitVec 32).toInt : ℝ) : EReal) = 0
  rw [BitVec.toInt_zero, Int.cast_zero, EReal.coe_zero]

/-- The scalar array holding the integer zero, converted to floats, holds zero. -/
theorem sitofp_constantI_zero_apply (φ : FTy) (s : Shape) (i : s.Idx) :
    (sitofp φ (constantI s 32 0#32) : FVec Ideal s φ) i = (0 : EReal) :=
  sitofp_zero φ

end Cert.Lib.HostGlue

end
-- ==== Proof.KernelValue.lean ====
/-
  The kernel program's result buffer at the return is the specification of the launch memory, at the ideal instance.

  The result is the first 50257 columns of the projection region's output; column n of that output is the memory row
  against column n of the zero-padded output matrix plus the padded bias, and below column 50257 the padding is never
  read; the memory is the accumulate region's output, which is the sum over all 8192 times of the gated summand of the
  gathered activations; the biases the regions read are the arguments' entries recast as rows.
-/
import proofs.«171928_j25443386262310_2_alg».proof.Proof.HostValues
import proofs.«171928_j25443386262310_2_alg».proof.Proof.AccValue
import proofs.«171928_j25443386262310_2_alg».proof.Proof.ProjValue
import proofs.«171928_j25443386262310_2_alg».proof.Proof.LibHostGlue
import proofs.«171928_j25443386262310_2_alg».proof.Proof.TileAlgebra
import proofs.«171928_j25443386262310_2_alg».proof.Proof.GatedSpec

noncomputable section

namespace Cert.KernelIdeal.KernelValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The arguments as plain arrays of extended reals -/

/-- The gathered activations, as the reference spells them. -/
abbrev acts (c : Dev nD) : (⟨3, ![256, 8192, 16]⟩ : Shape).Idx → EReal :=
  Cert.ReferenceIdeal.Read.val_main_v6 (F := Ideal) (m ((c : Thread nD τ).loc main_arg0)) (m ((c : Thread nD τ).loc main_arg1))
abbrev gateCol (c : Dev nD) : (⟨2, ![16, 1]⟩ : Shape).Idx → EReal := (m ((c : Thread nD τ).loc main_arg2))
abbrev gateBias (c : Dev nD) : (⟨1, ![1]⟩ : Shape).Idx → EReal := (m ((c : Thread nD τ).loc main_arg3))
abbrev updMat (c : Dev nD) : (⟨2, ![16, 16]⟩ : Shape).Idx → EReal := (m ((c : Thread nD τ).loc main_arg4))
abbrev updBias (c : Dev nD) : (⟨1, ![16]⟩ : Shape).Idx → EReal := (m ((c : Thread nD τ).loc main_arg5))
abbrev outMat (c : Dev nD) : (⟨2, ![16, 50257]⟩ : Shape).Idx → EReal := (m ((c : Thread nD τ).loc main_arg6))
abbrev outBias (c : Dev nD) : (⟨1, ![50257]⟩ : Shape).Idx → EReal := (m ((c : Thread nD τ).loc main_arg7))

/-- The specification of the launch memory. -/
abbrev spec (c : Dev nD) : (⟨2, ![256, 50257]⟩ : Shape).Idx → EReal :=
  Cert.GatedSpec.G (acts m c) (gateCol m c) (gateBias m c) (updMat m c) (updBias m c) (outMat m c) (outBias m c)

/-- The memory the projection region reads, entry by entry. -/
theorem mem_apply (c : Dev nD) (b : Fin 256) (h : Fin 16) :
    Cert.KernelIdeal.ProjValue.mem9 (Frame.V6 m) c (ix2 b h)
      = Cert.GatedSpec.memory (acts m c) (gateCol m c) (gateBias m c (ix1 (0 : Fin 1))) (updMat m c)
          (fun h' => updBias m c (ix1 h')) b h := by
  show (W6 m c (Proc.devRef .tc main_v9) : S256x16.Idx → EReal) (ix2 b h) = _
  rw [HostValues.mem_eq m c, Cert.KernelIdeal.AccValue.acc_final (Frame.V1 m) c]
  have e6 : (Frame.V1 m c main_v6 : S256x8192x16.Idx → EReal) = acts m c := HostValues.acts_eq m c
  have e2 : (Frame.V1 m c main_arg2 : S16x1.Idx → EReal) = gateCol m c := HostValues.gateCol_eq m c
  have e4 : (Frame.V1 m c main_arg4 : S16x16.Idx → EReal) = updMat m c := HostValues.updMat_eq m c
  have e7 : (Frame.V1 m c main_v7 : S1x1.Idx → EReal) (ix2 (0 : Fin 1) (0 : Fin 1)) = gateBias m c (ix1 (0 : Fin 1)) := by
    rw [show (Frame.V1 m c main_v7 : S1x1.Idx → EReal) = _ from HostValues.gateBias_eq m c]
    exact Cert.Lib.HostGlue.reshape_row_apply _ _ _
  have e8 : ∀ h' : Fin 16, (Frame.V1 m c main_v8 : S1x16.Idx → EReal) (ix2 (0 : Fin 1) h') = updBias m c (ix1 h') := fun h' => by
    rw [show (Frame.V1 m c main_v8 : S1x16.Idx → EReal) = _ from HostValues.updBias_eq m c]
    exact Cert.Lib.HostGlue.reshape_row_apply _ _ _
  dsimp only
  rw [e6, e2, e4, e7, funext e8]

/-- The padded output matrix below column 50257 is the output matrix. -/
theorem mat_apply (c : Dev nD) (k : Fin 16) (n : Fin 50257) (n' : Fin 51200) (hn : n'.val = n.val) :
    Cert.KernelIdeal.ProjValue.mat10 (Frame.V6 m) c (ix2 k n') = outMat m c (ix2 k n) := by
  show (W6 m c (Proc.devRef .tc main_v10) : S16x51200.Idx → EReal) (ix2 k n') = _
  rw [HostValues.outMat_eq m c]
  have hlt : n'.val < 50257 := by rw [hn]; exact n.isLt
  refine (Cert.Lib.HostGlue.pad_right_apply_lt _ _ _ _ _ k n' hlt).trans ?_
  exact congrArg (outMat m c) (congrArg (ix2 k) (Fin.ext hn))

/-- The padded bias row below column 50257 is the bias. -/
theorem bias_apply (c : Dev nD) (n : Fin 50257) (n' : Fin 51200) (hn : n'.val = n.val) :
    Cert.KernelIdeal.ProjValue.bias12 (Frame.V6 m) c (ix2 (0 : Fin 1) n') = outBias m c (ix1 n) := by
  show (W6 m c (Proc.devRef .tc main_v12) : S1x51200.Idx → EReal) (ix2 (0 : Fin 1) n') = _
  rw [HostValues.outBias_eq m c]
  have hlt : n'.val < 50257 := by rw [hn]; exact n.isLt
  refine (Cert.Lib.HostGlue.pad_right_apply_lt _ _ _ _ _ (0 : Fin 1) n' hlt).trans ?_
  refine (Cert.Lib.HostGlue.reshape_row_apply _ _ _).trans ?_
  exact congrArg (outBias m c) (congrArg ix1 (Fin.ext hn))

/-- THE KERNEL'S RESULT: the specification of the launch memory. -/
theorem result_is_spec (c : Dev nD) :
    (W8 m c (Proc.devRef .tc main_v14) : S256x50257.Idx → EReal) = spec m c := by
  rw [HostValues.result_eq m c]
  funext i
  obtain ⟨b, n, rfl⟩ : ∃ (b : Fin 256) (n : Fin 50257), i = ix2 b n := ⟨i 0, i 1, eq_ix2 i⟩
  have hn : n.val < 51200 := by have := n.isLt; omega
  refine (Cert.Lib.HostGlue.slice_cols_apply _ _ b n (⟨n.val, hn⟩ : Fin 51200) rfl).trans ?_
  refine (Cert.KernelIdeal.ProjValue.proj_final_apply (Frame.V6 m) c b (⟨n.val, hn⟩ : Fin 51200)).trans ?_
  rw [bias_apply m c n ⟨n.val, hn⟩ rfl]
  simp only [mat_apply m c _ n ⟨n.val, hn⟩ rfl]
  exact Cert.GatedSpec.out_of_memory (acts m c) (gateCol m c) (gateBias m c (ix1 (0 : Fin 1))) (updMat m c)
    (fun h' => updBias m c (ix1 h')) (outMat m c) (fun n' => outBias m c (ix1 n'))
    (Cert.KernelIdeal.ProjValue.mem9 (Frame.V6 m) c) (mem_apply m c) b n

end Cert.KernelIdeal.KernelValue

end
-- ==== Proof.RefIsSpec.lean ====
/-
  The reference program computes the specification.

  Its host operations, read at an index, are: the gathered activations x[b, t, ·] (kept as one array, never opened);
  the gate  1 / (1 + exp (-(x[b,t,·]·Wg + bg)))  spelt with negate, exponential, add and divide, which on the extended
  reals is the logistic function of the pre-activation (the literal 1.0 denotes the extended real one); the update
  tanh (x[b,t,·]·Wu[·,h] + bu[h]); their product summed over t from the literal zero; and that memory against Wo plus
  the output bias.  Each stage is read at explicit coordinates and matched with the specification's definition of it:
  pre-activation, gate, update, summand, memory, result.
-/
import proofs.«171928_j25443386262310_2_alg».proof.Proof.Gen.ReferenceIdeal.Read
import proofs.«171928_j25443386262310_2_alg».proof.Proof.GatedSpec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S256x8192, .i32⟩ : BufTy).Contents (Elt Ideal)) (x1 : (⟨S50257x16, .f32⟩ : BufTy).Contents (Elt Ideal))
  (x2 : (⟨S16x1, .f32⟩ : BufTy).Contents (Elt Ideal)) (x3 : (⟨S1, .f32⟩ : BufTy).Contents (Elt Ideal))
  (x4 : (⟨S16x16, .f32⟩ : BufTy).Contents (Elt Ideal)) (x5 : (⟨S16, .f32⟩ : BufTy).Contents (Elt Ideal))
  (x6 : (⟨S16x50257, .f32⟩ : BufTy).Contents (Elt Ideal)) (x7 : (⟨S50257, .f32⟩ : BufTy).Contents (Elt Ideal))

/-! ## The stages' index functions at explicit coordinates -/

theorem lidx7 (b : Fin 256) (t : Fin 8192) (k : Fin 16) : lidx_main_v7 (ix3 b t (0 : Fin 1)) k = ix3 b t k :=
  funext fun a => Fin.ext (by match a with | ⟨0, _⟩ => rfl | ⟨1, _⟩ => rfl | ⟨2, _⟩ => rfl)

theorem ridx7 (b : Fin 256) (t : Fin 8192) (k : Fin 16) : ridx_main_v7 (ix3 b t (0 : Fin 1)) k = ix2 k (0 : Fin 1) :=
  funext fun a => Fin.ext (by match a with | ⟨0, _⟩ => rfl | ⟨1, _⟩ => rfl)

theorem idx89 (b : Fin 256) (t : Fin 8192) : idx_main_v8 (idx_main_v9 (ix3 b t (0 : Fin 1))) = ix1 (0 : Fin 1) :=
  funext fun a => Fin.ext (by match a with | ⟨0, _⟩ => rfl)

theorem lidx17 (b : Fin 256) (t : Fin 8192) (h k : Fin 16) : lidx_main_v17 (ix3 b t h) k = ix3 b t k :=
  funext fun a => Fin.ext (by match a with | ⟨0, _⟩ => rfl | ⟨1, _⟩ => rfl | ⟨2, _⟩ => rfl)

theorem ridx17 (b : Fin 256) (t : Fin 8192) (h k : Fin 16) : ridx_main_v17 (ix3 b t h) k = ix2 k h :=
  funext fun a => Fin.ext (by match a with | ⟨0, _⟩ => rfl | ⟨1, _⟩ => rfl)

theorem idx1819 (b : Fin 256) (t : Fin 8192) (h : Fin 16) : idx_main_v18 (idx_main_v19 (ix3 b t h)) = ix1 h :=
  funext fun a => Fin.ext (by match a with | ⟨0, _⟩ => rfl)

theorem idx22 (b : Fin 256) (t : Fin 8192) (h : Fin 16) : idx_main_v22 (ix3 b t h) = ix3 b t (0 : Fin 1) :=
  funext fun a => Fin.ext (by match a with | ⟨0, _⟩ => rfl | ⟨1, _⟩ => rfl | ⟨2, _⟩ => rfl)

theorem idx24 (b : Fin 256) (h : Fin 16) (t : Fin 8192) : idx_main_v24 (ix2 b h) t = ix3 b t h :=
  funext fun a => Fin.ext (by match a with | ⟨0, _⟩ => rfl | ⟨1, _⟩ => rfl | ⟨2, _⟩ => rfl)

theorem lidx25 (b : Fin 256) (n : Fin 50257) (k : Fin 16) : lidx_main_v25 (ix2 b n) k = ix2 b k :=
  funext fun a => Fin.ext (by match a with | ⟨0, _⟩ => rfl | ⟨1, _⟩ => rfl)

theorem ridx25 (b : Fin 256) (n : Fin 50257) (k : Fin 16) : ridx_main_v25 (ix2 b n) k = ix2 k n :=
  funext fun a => Fin.ext (by match a with | ⟨0, _⟩ => rfl | ⟨1, _⟩ => rfl)

theorem idx2627 (b : Fin 256) (n : Fin 50257) : idx_main_v26 (idx_main_v27 (ix2 b n)) = ix1 n :=
  funext fun a => Fin.ext (by match a with | ⟨0, _⟩ => rfl)

/-! ## The stages -/

/-- The gate's pre-activation at (b, t): row (b, t) of the activations against the gate column, plus the gate bias. -/
theorem preGate_apply (b : Fin 256) (t : Fin 8192) :
    val_main_v10 (F := Ideal) x0 x1 x2 x3 (ix3 b t (0 : Fin 1))
      = (∑ k : Fin 16, val_main_v6 (F := Ideal) x0 x1 (ix3 b t k) * x2 (ix2 k (0 : Fin 1))) + x3 (ix1 (0 : Fin 1)) := by
  rw [val_main_v10_apply, val_main_v7_apply, val_main_v9_apply, val_main_v8_apply, idx89, Ideal.addf_def]
  refine congrArg (· + _) (Finset.sum_congr rfl fun k _ => ?_)
  rw [lidx7, ridx7]

/-- The gate at (b, t): one over one plus the exponential of minus the pre-activation is its logistic. -/
theorem gate_apply (b : Fin 256) (t : Fin 8192) :
    val_main_v16 (F := Ideal) x0 x1 x2 x3 (ix3 b t (0 : Fin 1))
      = Ideal.logistic ((∑ k : Fin 16, val_main_v6 (F := Ideal) x0 x1 (ix3 b t k) * x2 (ix2 k (0 : Fin 1)))
          + x3 (ix1 (0 : Fin 1))) := by
  rw [val_main_v16_apply, val_main_v15_apply, val_main_cst_1_apply, val_main_v14_apply, val_main_v13_apply,
    val_main_cst_apply, val_main_v12_apply, val_main_v11_apply, preGate_apply]
  simp only [Ideal.hostDivf_def, Ideal.addf_def, Ideal.hostUnary_exp_def, Ideal.hostNegf_def, Ideal.negf_def,
    Ideal.ofBits_def, Ideal.ofBits_one_f32]
  rfl

/-- The update at (b, t, h): the hyperbolic tangent of row (b, t) against column h of the update matrix plus its bias. -/
theorem update_apply (b : Fin 256) (t : Fin 8192) (h : Fin 16) :
    val_main_v21 (F := Ideal) x0 x1 x4 x5 (ix3 b t h)
      = Ideal.tanh ((∑ k : Fin 16, val_main_v6 (F := Ideal) x0 x1 (ix3 b t k) * x4 (ix2 k h)) + x5 (ix1 h)) := by
  rw [val_main_v21_apply, val_main_v20_apply, val_main_v17_apply, val_main_v19_apply, val_main_v18_apply, idx1819,
    Ideal.hostUnary_tanh_def, Ideal.addf_def]
  refine congrArg (fun s => Ideal.tanh (s + _)) (Finset.sum_congr rfl fun k _ => ?_)
  rw [lidx17, ridx17]

/-- The summand at (b, t, h): the gate of row (b, t), the same for every feature, times the update. -/
theorem term_apply (b : Fin 256) (t : Fin 8192) (h : Fin 16) :
    val_main_v23 (F := Ideal) x0 x1 x2 x3 x4 x5 (ix3 b t h)
      = Cert.GatedSpec.gateTerm (val_main_v6 (F := Ideal) x0 x1) x2 (x3 (ix1 (0 : Fin 1))) x4 (fun h => x5 (ix1 h)) b t h := by
  rw [val_main_v23_apply, val_main_v22_apply, idx22, gate_apply, update_apply, Ideal.mulf_def]
  rfl

/-- The memory at (b, h): the literal zero plus the summands over all times. -/
theorem memory_apply (b : Fin 256) (h : Fin 16) :
    val_main_v24 (F := Ideal) x0 x1 x2 x3 x4 x5 (ix2 b h)
      = Cert.GatedSpec.memory (val_main_v6 (F := Ideal) x0 x1) x2 (x3 (ix1 (0 : Fin 1))) x4 (fun h => x5 (ix1 h)) b h := by
  rw [val_main_v24_apply, val_main_cst_2_apply, Ideal.ofBits_def, Ideal.ofBits_zero_f32, zero_add]
  unfold Cert.GatedSpec.memory
  refine Finset.sum_congr rfl fun t _ => ?_
  rw [idx24, term_apply]

/-- The reference's result array is the specification of the gathered activations and the seven parameter arrays. -/
theorem result_eq :
    val_main_v28 (F := Ideal) x0 x1 x2 x3 x4 x5 x6 x7
      = Cert.GatedSpec.G (B := 256) (T := 8192) (N := 50257) (val_main_v6 (F := Ideal) x0 x1) x2 x3 x4 x5 x6 x7 := by
  funext i
  obtain ⟨b, n, rfl⟩ : ∃ (b : Fin 256) (n : Fin 50257), i = ix2 b n := ⟨i 0, i 1, eq_ix2 i⟩
  rw [Cert.GatedSpec.G_apply, val_main_v28_apply, val_main_v25_apply, val_main_v27_apply, val_main_v26_apply, idx2627,
    Ideal.addf_def]
  unfold Cert.GatedSpec.out
  refine congrArg (· + _) (Finset.sum_congr rfl fun k _ => ?_)
  rw [lidx25, ridx25, memory_apply]

/-- Every weakly fair execution of the reference ends with its result buffer at the specification of the launch
    contents of its arguments, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
          = Cert.GatedSpec.G (B := 256) (T := 8192) (N := 50257)
              (val_main_v6 (F := Ideal) (m ((c.tc : Thread nD τ).loc main_arg0)) (m ((c.tc : Thread nD τ).loc main_arg1)))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans ((val_main_v28_eq _ _ _ _ _ _ _ _).trans (result_eq _ _ _ _ _ _ _ _)), (h c).2⟩)
    (Cert.ReferenceIdeal.Value.run (F := Ideal) m ρ)

end Cert.ReferenceIdeal.RefValue

end
-- ==== Proof.lean ====
/-
  The proof of the certificate's claim: the printed kernel program and its idealization each run to the end, fault nowhere
  and leave their eight arguments as launched; the reference does the same; the idealization rewrote nothing; and at the
  ideal instance the kernel program and the reference, run from memories that agree on the arguments, end with equal
  results.

  The kernel program is two kernel regions among host operations.  The first accumulates, per block of 32 batch rows, the
  sum over 8192 times of  σ(x·Wg + bg) · tanh(x·Wu + bu)  in eight time tiles of 1024, carrying an accumulator that is
  reset at the first tile and copied out at the last; the second multiplies that memory by the zero-padded output matrix,
  50 column tiles of 1024, and adds the padded bias; the host slices the padding off.  Its run is assembled from the two
  regions' body obligations and the host stretches between them, and ends with every unscoped buffer at contents folded
  from the launch memory; read at the result buffer those contents are one function of the arguments, the specification
  (sums over the extended reals re-associate freely, a cast to a narrower float format is the identity, and the padding
  is never read below column 50257).  The reference's generated run ends at the same function of its arguments.
-/
import proofs.«171928_j25443386262310_2_alg».proof.Defs
import proofs.«171928_j25443386262310_2_alg».proof.Proof.Gen.Kernel
import proofs.«171928_j25443386262310_2_alg».proof.Proof.Gen.KernelIdeal
import proofs.«171928_j25443386262310_2_alg».proof.Proof.Gen.ReferenceIdeal
import proofs.«171928_j25443386262310_2_alg».proof.Proof.Gen.ReferenceIdeal.Run
import proofs.«171928_j25443386262310_2_alg».proof.Proof.Gen.ReferenceIdeal.Read
import proofs.«171928_j25443386262310_2_alg».proof.Proof.Gen.Pre_finite_inputs
import proofs.«171928_j25443386262310_2_alg».proof.Proof.KernelFrame.Main
import proofs.«171928_j25443386262310_2_alg».proof.Proof.KernelIdealFrame.Main
import proofs.«171928_j25443386262310_2_alg».proof.Proof.KernelValue
import proofs.«171928_j25443386262310_2_alg».proof.Proof.RefIsSpec
import Idealize.ShloMosaic.Adequacy
import Idealize.ShloMosaic.Init

noncomputable section

namespace Cert.Proof

open Idealize.ShloMosaic Idealize.SL.Sem

/-- The printed kernel program runs and keeps its arguments: its run, with the result's value dropped. -/
theorem frame_kernel [Cert.Kernel.Facts] [Cert.Pre_finite_inputs.Facts] : Cert.frame_Kernel := fun m ρ _ =>
  (θ_run Cert.Kernel.defs _ _).mono (fun _ h c => (h c).2) (Cert.Kernel.Frame.run_named (F := Bits) m ρ)

/-- So does its idealization. -/
theorem frame_kernelIdeal [Cert.KernelIdeal.Facts] [Cert.Pre_finite_inputs.Facts] : Cert.frame_KernelIdeal := fun m ρ _ =>
  (θ_run Cert.KernelIdeal.defs _ _).mono (fun _ h c => (h c).2) (Cert.KernelIdeal.Frame.run_named (F := Ideal) m ρ)

/-- And the reference: its generated run, with the result's value dropped. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end at the specification of the (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.GatedSpec.G (B := 256) (T := 8192) (N := 50257) (Cert.KernelIdeal.KernelValue.acts m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KernelValue.result_is_spec m c), (h c).2⟩)
      (Cert.KernelIdeal.Frame.run_named (F := Ideal) m ρ)
  · refine (θ_run Cert.ReferenceIdeal.defs _ _).mono (fun _ h c => ⟨(h c).1.trans ?_, (h c).2⟩)
      (Cert.ReferenceIdeal.RefValue.run_spec m' ρ')
    obtain ⟨h0, h1, h2, h3, h4, h5, h6, h7⟩ := hagree c
    rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
